-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v28)) (v2 : (c : Dev Cert.KernelIdeal.nD) → Buf (Elt Ideal) ((c.tc : Thread Cert.KernelIdeal.nD Cert.KernelIdeal.τ).loc Cert.KernelIdeal.main_v26)) (v3 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_v26) = v2 c
          ∧ r.2.mem ((c.tc : Thread Cert.KernelIdeal.nD Cert.KernelIdeal.τ).loc Cert.KernelIdeal.main_v24) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_v57) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x4 : Shape := ⟨2, ![1000000, 4]⟩
abbrev S1000000x1 : Shape := ⟨2, ![1000000, 1]⟩
abbrev S9x30 : Shape := ⟨2, ![9, 30]⟩
abbrev S30 : Shape := ⟨1, ![30]⟩
abbrev S30x30 : Shape := ⟨2, ![30, 30]⟩
abbrev S30x1 : Shape := ⟨2, ![30, 1]⟩
abbrev S1 : Shape := ⟨1, ![1]⟩
abbrev S_ : Shape := ⟨0, ![]⟩

class Facts : Prop where
  bcast_S_S1000000x4 : S_.BroadcastsInDim S1000000x4 (![] : Fin 0 → Fin S1000000x4.rank)
  reducesTo_S1000000x4_S_d0_1 : S1000000x4.ReducesTo [0, 1] S_
  h_S_ : 0 < S_.numel
  bcast_S_S1000000x1 : S_.BroadcastsInDim S1000000x1 (![] : Fin 0 → Fin S1000000x1.rank)
  reducesTo_S1000000x1_S_d0_1 : S1000000x1.ReducesTo [0, 1] S_
  bcast_S_S9x30 : S_.BroadcastsInDim S9x30 (![] : Fin 0 → Fin S9x30.rank)
  reducesTo_S9x30_S_d0_1 : S9x30.ReducesTo [0, 1] S_
  bcast_S_S30 : S_.BroadcastsInDim S30 (![] : Fin 0 → Fin S30.rank)
  reducesTo_S30_S_d0 : S30.ReducesTo [0] S_
  bcast_S_S30x30 : S_.BroadcastsInDim S30x30 (![] : Fin 0 → Fin S30x30.rank)
  reducesTo_S30x30_S_d0_1 : S30x30.ReducesTo [0, 1] S_
  bcast_S_S30x1 : S_.BroadcastsInDim S30x1 (![] : Fin 0 → Fin S30x1.rank)
  reducesTo_S30x1_S_d0_1 : S30x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S30x30 .f32) (main_arg8 : FVec F S30 .f32) (main_arg9 : FVec F S30x1 .f32) (main_arg10 : FVec F S1 .f32) (main_v33 : IVec S_ 1) : IVec S_ 1 :=
  let main_v34 : FVec F S30x30 .f32 := Host.absf main_arg7
  let main_cst_12 : FVec F S_ .f32 := constant S_ .f32 0x7F800000#32
  let main_v35 : FVec F S30x30 .f32 := broadcastInDim S30x30 ![] bcast_S_S30x30 main_cst_12
  let main_v36 : IVec S30x30 1 := cmpf .olt main_v34 main_v35
  let main_c_13 : IVec S_ 1 := constantI S_ 1 1#1
  let main_v37 : IVec S_ 1 := (fun x v => Host.reduce IntOp.andi x v reducesTo_S30x30_S_d0_1 h_S_) main_v36 main_c_13
  let main_v38 : IVec S_ 1 := andi main_v33 main_v37
  let main_v39 : FVec F S30 .f32 := Host.absf main_arg8
  let main_cst_14 : FVec F S_ .f32 := constant S_ .f32 0x7F800000#32
  let main_v40 : FVec F S30 .f32 := broadcastInDim S30 ![] bcast_S_S30 main_cst_14
  let main_v41 : IVec S30 1 := cmpf .olt main_v39 main_v40
  let main_c_15 : IVec S_ 1 := constantI S_ 1 1#1
  let main_v42 : IVec S_ 1 := (fun x v => Host.reduce IntOp.andi x v reducesTo_S30_S_d0 h_S_) main_v41 main_c_15
  let main_v43 : IVec S_ 1 := andi main_v38 main_v42
  let main_v44 : FVec F S30x1 .f32 := Host.absf main_arg9
  let main_cst_16 : FVec F S_ .f32 := constant S_ .f32 0x7F800000#32
  let main_v45 : FVec F S30x1 .f32 := broadcastInDim S30x1 ![] bcast_S_S30x1 main_cst_16
  let main_v46 : IVec S30x1 1 := cmpf .olt main_v44 main_v45
  let main_c_17 : IVec S_ 1 := constantI S_ 1 1#1
  let main_v47 : IVec S_ 1 := (fun x v => Host.reduce IntOp.andi x v reducesTo_S30x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S30 .f32) (main_arg5 : FVec F S30x30 .f32) (main_arg6 : FVec F S30 .f32) (main_arg7 : FVec F S30x30 .f32) (main_arg8 : FVec F S30 .f32) (main_arg9 : FVec F S30x1 .f32) (main_arg10 : FVec F S1 .f32) (main_v13 : IVec S_ 1) (main_v16 : IVec S9x30 1) : IVec S_ 1 :=
  let main_c_5 : IVec S_ 1 := constantI S_ 1 1#1
  let main_v17 : IVec S_ 1 := (fun x v => Host.reduce IntOp.andi x v reducesTo_S9x30_S_d0_1 h_S_) main_v16 main_c_5
  let main_v18 : IVec S_ 1 := andi main_v13 main_v17
  let main_v19 : FVec F S30 .f32 := Host.absf main_arg4
  let main_cst_6 : FVec F S_ .f32 := constant S_ .f32 0x7F800000#32
  let main_v20 : FVec F S30 .f32 := broadcastInDim S30 ![] bcast_S_S30 main_cst_6
  let main_v21 : IVec S30 1 := cmpf .olt main_v19 main_v20
  let main_c_7 : IVec S_ 1 := constantI S_ 1 1#1
  let main_v22 : IVec S_ 1 := (fun x v => Host.reduce IntOp.andi x v reducesTo_S30_S_d0 h_S_) main_v21 main_c_7
  let main_v23 : IVec S_ 1 := andi main_v18 main_v22
  let main_v24 : FVec F S30x30 .f32 := Host.absf main_arg5
  let main_cst_8 : FVec F S_ .f32 := constant S_ .f32 0x7F800000#32
  let main_v25 : FVec F S30x30 .f32 := broadcastInDim S30x30 ![] bcast_S_S30x30 main_cst_8
  let main_v26 : IVec S30x30 1 := cmpf .olt main_v24 main_v25
  let main_c_9 : IVec S_ 1 := constantI S_ 1 1#1
  let main_v27 : IVec S_ 1 := (fun x v => Host.reduce IntOp.andi x v reducesTo_S30x30_S_d0_1 h_S_) main_v26 main_c_9
  let main_v28 : IVec S_ 1 := andi main_v23 main_v27
  let main_v29 : FVec F S30 .f32 := Host.absf main_arg6
  let main_cst_10 : FVec F S_ .f32 := constant S_ .f32 0x7F800000#32
  let main_v30 : FVec F S30 .f32 := broadcastInDim S30 ![] bcast_S_S30 main_cst_10
  let main_v31 : IVec S30 1 := cmpf .olt main_v29 main_v30
  let main_c_11 : IVec S_ 1 := constantI S_ 1 1#1
  let main_v32 : IVec S_ 1 := (fun x v => Host.reduce IntOp.andi x v reducesTo_S30_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1000000x4 .f32) (main_arg1 : FVec F S1000000x1 .f32) (main_arg2 : FVec F S1000000x4 .f32) (main_arg3 : FVec F S9x30 .f32) (main_arg4 : FVec F S30 .f32) (main_arg5 : FVec F S30x30 .f32) (main_arg6 : FVec F S30 .f32) (main_arg7 : FVec F S30x30 .f32) (main_arg8 : FVec F S30 .f32) (main_arg9 : FVec F S30x1 .f32) (main_arg10 : FVec F S1 .f32) : IVec S_ 1 :=
  let main_v0 : FVec F S1000000x4 .f32 := Host.absf main_arg0
  let main_cst : FVec F S_ .f32 := constant S_ .f32 0x7F800000#32
  let main_v1 : FVec F S1000000x4 .f32 := broadcastInDim S1000000x4 ![] bcast_S_S1000000x4 main_cst
  let main_v2 : IVec S1000000x4 1 := cmpf .olt main_v0 main_v1
  let main_c : IVec S_ 1 := constantI S_ 1 1#1
  let main_v3 : IVec S_ 1 := (fun x v => Host.reduce IntOp.andi x v reducesTo_S1000000x4_S_d0_1 h_S_) main_v2 main_c
  let main_v4 : FVec F S1000000x1 .f32 := Host.absf main_arg1
  let main_cst_0 : FVec F S_ .f32 := constant S_ .f32 0x7F800000#32
  let main_v5 : FVec F S1000000x1 .f32 := broadcastInDim S1000000x1 ![] bcast_S_S1000000x1 main_cst_0
  let main_v6 : IVec S1000000x1 1 := cmpf .olt main_v4 main_v5
  let main_c_1 : IVec S_ 1 := constantI S_ 1 1#1
  let main_v7 : IVec S_ 1 := (fun x v => Host.reduce IntOp.andi x v reducesTo_S1000000x1_S_d0_1 h_S_) main_v6 main_c_1
  let main_v8 : IVec S_ 1 := andi main_v3 main_v7
  let main_v9 : FVec F S1000000x4 .f32 := Host.absf main_arg2
  let main_cst_2 : FVec F S_ .f32 := constant S_ .f32 0x7F800000#32
  let main_v10 : FVec F S1000000x4 .f32 := broadcastInDim S1000000x4 ![] bcast_S_S1000000x4 main_cst_2
  let main_v11 : IVec S1000000x4 1 := cmpf .olt main_v9 main_v10
  let main_c_3 : IVec S_ 1 := constantI S_ 1 1#1
  let main_v12 : IVec S_ 1 := (fun x v => Host.reduce IntOp.andi x v reducesTo_S1000000x4_S_d0_1 h_S_) main_v11 main_c_3
  let main_v13 : IVec S_ 1 := andi main_v8 main_v12
  let main_v14 : FVec F S9x30 .f32 := Host.absf main_arg3
  let main_cst_4 : FVec F S_ .f32 := constant S_ .f32 0x7F800000#32
  let main_v15 : FVec F S9x30 .f32 := broadcastInDim S9x30 ![] bcast_S_S9x30 main_cst_4
  let main_v16 : IVec S9x30 1 := cmpf .olt main_v14 main_v15
  fn_part1 (F := F) main_arg4 main_arg5 main_arg6 main_arg7 main_arg8 main_arg9 main_arg10 main_v13 main_v16
-- ==== Kernel.lean ====
abbrev S1000000x4 : Shape := ⟨2, ![1000000, 4]⟩
abbrev S1000000x1 : Shape := ⟨2, ![1000000, 1]⟩
abbrev S9x30 : Shape := ⟨2, ![9, 30]⟩
abbrev S30 : Shape := ⟨1, ![30]⟩
abbrev S30x30 : Shape := ⟨2, ![30, 30]⟩
abbrev S30x1 : Shape := ⟨2, ![30, 1]⟩
abbrev S1 : Shape := ⟨1, ![1]⟩
abbrev S1000000x9 : Shape := ⟨2, ![1000000, 9]⟩
abbrev S9x1000000 : Shape := ⟨2, ![9, 1000000]⟩
abbrev S30x9 : Shape := ⟨2, ![30, 9]⟩
abbrev S1x30 : Shape := ⟨2, ![1, 30]⟩
abbrev S1x1 : Shape := ⟨2, ![1, 1]⟩
abbrev S10x1000000 : Shape := ⟨2, ![10, 1000000]⟩
abbrev S9x16384 : Shape := ⟨2, ![9, 16384]⟩
abbrev S10x16384 : Shape := ⟨2, ![10, 16384]⟩
abbrev S30x16384 : Shape := ⟨2, ![30, 16384]⟩
abbrev S1x16384 : Shape := ⟨2, ![1, 16384]⟩
abbrev S1000000x10 : Shape := ⟨2, ![1000000, 10]⟩
abbrev S1000000x1x4 : Shape := ⟨3, ![1000000, 1, 4]⟩
abbrev S1000000x1x1 : Shape := ⟨3, ![1000000, 1, 1]⟩

abbrev nBuf : Space → Nat
  | .hbm => 40
  | .vmem => 16
  | .smem => 0
  | _ => 0

abbrev bufTy : (tb : Table) → Fin (tcTables nBuf tb) → BufTy
  | .hbm, ⟨0, _⟩ => ⟨S1000000x4, .f32⟩
  | .hbm, ⟨1, _⟩ => ⟨S1000000x1, .f32⟩
  | .hbm, ⟨2, _⟩ => ⟨S1000000x4, .f32⟩
  | .hbm, ⟨3, _⟩ => ⟨S9x30, .f32⟩
  | .hbm, ⟨4, _⟩ => ⟨S30, .f32⟩
  | .hbm, ⟨5, _⟩ => ⟨S30x30, .f32⟩
  | .hbm, ⟨6, _⟩ => ⟨S30, .f32⟩
  | .hbm, ⟨7, _⟩ => ⟨S30x30, .f32⟩
  | .hbm, ⟨8, _⟩ => ⟨S30, .f32⟩
  | .hbm, ⟨9, _⟩ => ⟨S30x1, .f32⟩
  | .hbm, ⟨10, _⟩ => ⟨S1, .f32⟩
  | .hbm, ⟨11, _⟩ => ⟨S1000000x9, .f32⟩
  | .hbm, ⟨12, _⟩ => ⟨S9x1000000, .f32⟩
  | .hbm, ⟨13, _⟩ => ⟨S30x9, .f32⟩
  | .hbm, ⟨14, _⟩ => ⟨S30x9, .bf16⟩
  | .hbm, ⟨15, _⟩ => ⟨S30x30, .f32⟩
  | .hbm, ⟨16, _⟩ => ⟨S30x30, .bf16⟩
  | .hbm, ⟨17, _⟩ => ⟨S30x30, .f32⟩
  | .hbm, ⟨18, _⟩ => ⟨S30x30, .bf16⟩
  | .hbm, ⟨19, _⟩ => ⟨S1x30, .f32⟩
  | .hbm, ⟨20, _⟩ => ⟨S1x30, .bf16⟩
  | .hbm, ⟨21, _⟩ => ⟨S9x30, .bf16⟩
  | .hbm, ⟨22, _⟩ => ⟨S30x30, .bf16⟩
  | .hbm, ⟨23, _⟩ => ⟨S30x30, .bf16⟩
  | .hbm, ⟨24, _⟩ => ⟨S30, .f32⟩
  | .hbm, ⟨25, _⟩ => ⟨S30x1, .f32⟩
  | .hbm, ⟨26, _⟩ => ⟨S30x1, .f32⟩
  | .hbm, ⟨27, _⟩ => ⟨S30x1, .f32⟩
  | .hbm, ⟨28, _⟩ => ⟨S30x1, .f32⟩
  | .hbm, ⟨29, _⟩ => ⟨S1x1, .f32⟩
  | .hbm, ⟨30, _⟩ => ⟨S10x1000000, .f32⟩
  | .hbm, ⟨31, _⟩ => ⟨S1000000x10, .f32⟩
  | .hbm, ⟨32, _⟩ => ⟨S1000000x1, .f32⟩
  | .hbm, ⟨33, _⟩ => ⟨S1000000x9, .f32⟩
  | .hbm, ⟨34, _⟩ => ⟨S1000000x4, .f32⟩
  | .hbm, ⟨35, _⟩ => ⟨S1000000x1x4, .f32⟩
  | .hbm, ⟨36, _⟩ => ⟨S1000000x1, .f32⟩
  | .hbm, ⟨37, _⟩ => ⟨S1000000x1x1, .f32⟩
  | .hbm, ⟨38, _⟩ => ⟨S1000000x4, .f32⟩
  | .hbm, ⟨39, _⟩ => ⟨S1000000x1x4, .f32⟩
  | .local _ .vmem, ⟨0, _⟩ => ⟨S9x16384, .f32⟩
  | .local _ .vmem, ⟨1, _⟩ => ⟨S9x16384, .f32⟩
  | .local _ .vmem, ⟨2, _⟩ => ⟨S30x9, .bf16⟩
  | .local _ .vmem, ⟨3, _⟩ => ⟨S30x1, .f32⟩
  | .local _ .vmem, ⟨4, _⟩ => ⟨S30x30, .bf16⟩
  | .local _ .vmem, ⟨5, _⟩ => ⟨S30x1, .f32⟩
  | .local _ .vmem, ⟨6, _⟩ => ⟨S30x30, .bf16⟩
  | .local _ .vmem, ⟨7, _⟩ => ⟨S30x1, .f32⟩
  | .local _ .vmem, ⟨8, _⟩ => ⟨S1x30, .bf16⟩
  | .local _ .vmem, ⟨9, _⟩ => ⟨S1x1, .f32⟩
  | .local _ .vmem, ⟨10, _⟩ => ⟨S9x30, .bf16⟩
  | .local _ .vmem, ⟨11, _⟩ => ⟨S30x30, .bf16⟩
  | .local _ .vmem, ⟨12, _⟩ => ⟨S30x30, .bf16⟩
  | .local _ .vmem, ⟨13, _⟩ => ⟨S30x1, .f32⟩
  | .local _ .vmem, ⟨14, _⟩ => ⟨S10x16384, .f32⟩
  | .local _ .vmem, ⟨15, _⟩ => ⟨S10x16384, .f32⟩
  | _, _ => ⟨S1000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S9x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S30x9 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S30x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S30x30 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S30x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S30x30 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S30x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x30 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S9x30 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S30x30 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S30x30 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S30x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S10x16384 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  concatenates_S1000000x4_S1000000x1_S1000000x4_S1000000x9_d1 : Shape.Concatenates [S1000000x4, S1000000x1, S1000000x4] S1000000x9 1
  transposes_S1000000x9_S9x1000000_1_0 : S1000000x9.Transposes [1, 0] S9x1000000
  transposes_S9x30_S30x9_1_0 : S9x30.Transposes [1, 0] S30x9
  bitsLt_bf16_f32 : FTy.bits .bf16 < FTy.bits .f32
  transposes_S30x30_S30x30_1_0 : S30x30.Transposes [1, 0] S30x30
  transposes_S30x1_S1x30_1_0 : S30x1.Transposes [1, 0] S1x30
  shapeCasts_S30x1_S30 : S30x1.ShapeCasts S30
  shapeCasts_S30_S30x1 : S30.ShapeCasts S30x1
  shapeCasts_S1_S1x1 : S1.ShapeCasts S1x1
  inb_S9x16384_S9x16384_0_0 : ∀ a, (![0, 0] : Fin 2 → Nat) a + S9x16384.size a ≤ S9x16384.size a
  h_S9x16384 : 0 < S9x16384.numel
  shapeCasts_S9x16384_S9x16384 : S9x16384.ShapeCasts S9x16384
  inb_S30x9_S30x9_0_0 : ∀ a, (![0, 0] : Fin 2 → Nat) a + S30x9.size a ≤ S30x9.size a
  h_S30x9 : 0 < S30x9.numel
  shapeCasts_S30x9_S30x9 : S30x9.ShapeCasts S30x9
  inb_S30x1_S30x1_0_0 : ∀ a, (![0, 0] : Fin 2 → Nat) a + S30x1.size a ≤ S30x1.size a
  h_S30x1 : 0 < S30x1.numel
  shapeCasts_S30x1_S30x1 : S30x1.ShapeCasts S30x1
  broadcasts_S30x1_S30x16384 : S30x1.Broadcasts S30x16384
  inb_S30x30_S30x30_0_0 : ∀ a, (![0, 0] : Fin 2 → Nat) a + S30x30.size a ≤ S30x30.size a
  h_S30x30 : 0 < S30x30.numel
  shapeCasts_S30x30_S30x30 : S30x30.ShapeCasts S30x30
  inb_S1x30_S1x30_0_0 : ∀ a, (![0, 0] : Fin 2 → Nat) a + S1x30.size a ≤ S1x30.size a
  h_S1x30 : 0 < S1x30.numel
  shapeCasts_S1x30_S1x30 : S1x30.ShapeCasts S1x30
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x16384 : S1x1.Broadcasts S1x16384
  inb_S9x30_S9x30_0_0 : ∀ a, (![0, 0] : Fin 2 → Nat) a + S9x30.size a ≤ S9x30.size a
  h_S9x30 : 0 < S9x30.numel
  shapeCasts_S9x30_S9x30 : S9x30.ShapeCasts S9x30
  concatenates_S1x16384_S9x16384_S10x16384_d0 : Shape.Concatenates [S1x16384, S9x16384] S10x16384 0
  inb_S10x16384_S10x16384_0_0 : ∀ a, (![0, 0] : Fin 2 → Nat) a + S10x16384.size a ≤ S10x16384.size a
  h_S10x16384 : 0 < S10x16384.numel
  transposes_S10x1000000_S1000000x10_1_0 : S10x1000000.Transposes [1, 0] S1000000x10
  slices_S1000000x10_S1000000x1_0_0 : S1000000x10.Slices ![0, 0] S1000000x1
  slices_S1000000x10_S1000000x9_0_1 : S1000000x10.Slices ![0, 1] S1000000x9
  slices_S1000000x9_S1000000x4_0_0 : S1000000x9.Slices ![0, 0] S1000000x4
  shapeCasts_S1000000x4_S1000000x1x4 : S1000000x4.ShapeCasts S1000000x1x4
  slices_S1000000x9_S1000000x1_0_4 : S1000000x9.Slices ![0, 4] S1000000x1
  shapeCasts_S1000000x1_S1000000x1x1 : S1000000x1.ShapeCasts S1000000x1x1
  slices_S1000000x9_S1000000x4_0_5 : S1000000x9.Slices ![0, 5] S1000000x4
  dot_S30x9_S9x16384_S30x16384_1_0_0_1_n_n_wf : DotDims.WF S30x9 S9x16384 S30x16384 [1] [0] [0] [1] [] []
  dot_S30x30_S30x16384_S30x16384_1_0_0_1_n_n_wf : DotDims.WF S30x30 S30x16384 S30x16384 [1] [0] [0] [1] [] []
  dot_S1x30_S30x16384_S1x16384_1_0_0_1_n_n_wf : DotDims.WF S1x30 S30x16384 S1x16384 [1] [0] [0] [1] [] []
  dot_S9x30_S30x16384_S9x16384_1_0_0_1_n_n_wf : DotDims.WF S9x30 S30x16384 S9x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S9x16384.size a < S9x1000000.size a
  hwx0_0 : ∀ i : grid0.Coords, EltTy.bits .f32 = 32 ∨ (Rect.unit (s := S9x1000000) (fun a => cc0_transform_0 i a * S9x16384.size a) (fun a => (Pipeline.Clip.of (cc0_transform_0 i a) (S9x16384.size a) (S9x1000000.size a)).extent (S9x16384.size a)) fun a => Pipeline.Clip.inb (Pipeline.Clip.ok_of (hstart0_0 i a))).WholeWords (EltTy.packing .f32)
  hwxs0_0 : ∀ i : grid0.Coords, EltTy.bits .f32 = 32 ∨ (Rect.unit (s := S9x16384) (fun _ => 0) (fun a => (Pipeline.Clip.of (cc0_transform_0 i a) (S9x16384.size a) (S9x1000000.size a)).extent (S9x16384.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S30x9.size a ≤ S30x9.size a
  hwx0_1 : ∀ i : grid0.Coords, EltTy.bits .bf16 = 32 ∨ (Rect.block (s := S30x9) S30x9.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S30x1.size a ≤ S30x1.size a
  hwx0_2 : ∀ i : grid0.Coords, EltTy.bits .f32 = 32 ∨ (Rect.block (s := S30x1) S30x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S30x30.size a ≤ S30x30.size a
  hwx0_3 : ∀ i : grid0.Coords, EltTy.bits .bf16 = 32 ∨ (Rect.block (s := S30x30) S30x30.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S30x1.size a ≤ S30x1.size a
  hwx0_4 : ∀ i : grid0.Coords, EltTy.bits .f32 = 32 ∨ (Rect.block (s := S30x1) S30x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S30x30.size a ≤ S30x30.size a
  hwx0_5 : ∀ i : grid0.Coords, EltTy.bits .bf16 = 32 ∨ (Rect.block (s := S30x30) S30x30.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S30x1.size a ≤ S30x1.size a
  hwx0_6 : ∀ i : grid0.Coords, EltTy.bits .f32 = 32 ∨ (Rect.block (s := S30x1) S30x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x30.size a ≤ S1x30.size a
  hwx0_7 : ∀ i : grid0.Coords, EltTy.bits .bf16 = 32 ∨ (Rect.block (s := S1x30) S1x30.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S9x30.size a ≤ S9x30.size a
  hwx0_9 : ∀ i : grid0.Coords, EltTy.bits .bf16 = 32 ∨ (Rect.block (s := S9x30) S9x30.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S30x30.size a ≤ S30x30.size a
  hwx0_10 : ∀ i : grid0.Coords, EltTy.bits .bf16 = 32 ∨ (Rect.block (s := S30x30) S30x30.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S30x30.size a ≤ S30x30.size a
  hwx0_11 : ∀ i : grid0.Coords, EltTy.bits .bf16 = 32 ∨ (Rect.block (s := S30x30) S30x30.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S30x1.size a ≤ S30x1.size a
  hwx0_12 : ∀ i : grid0.Coords, EltTy.bits .f32 = 32 ∨ (Rect.block (s := S30x1) S30x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hstart0_13 : ∀ (i : grid0.Coords) a, cc0_transform_13 i a * S10x16384.size a < S10x1000000.size a
  hwx0_13 : ∀ i : grid0.Coords, EltTy.bits .f32 = 32 ∨ (Rect.unit (s := S10x1000000) (fun a => cc0_transform_13 i a * S10x16384.size a) (fun a => (Pipeline.Clip.of (cc0_transform_13 i a) (S10x16384.size a) (S10x1000000.size a)).extent (S10x16384.size a)) fun a => Pipeline.Clip.inb (Pipeline.Clip.ok_of (hstart0_13 i a))).WholeWords (EltTy.packing .f32)
  hwxs0_13 : ∀ i : grid0.Coords, EltTy.bits .f32 = 32 ∨ (Rect.unit (s := S10x16384) (fun _ => 0) (fun a => (Pipeline.Clip.of (cc0_transform_13 i a) (S10x16384.size a) (S10x1000000.size a)).extent (S10x16384.size a)) fun a => (Nat.zero_add _).trans_le (Pipeline.Clip.extent_le (Pipeline.Clip.ok_of (hstart0_13 i a)))).WholeWords (EltTy.packing .f32)

variable [Facts₀]

def dot_S30x9_S9x16384_S30x16384_1_0_0_1_n_n : DotDims S30x9 S9x16384 S30x16384 where
  lhsContracting := [1]
  rhsContracting := [0]
  lhsNonContracting := [0]
  rhsNonContracting := [1]
  lhsBatch := []
  rhsBatch := []
  wf := dot_S30x9_S9x16384_S30x16384_1_0_0_1_n_n_wf
def dot_S30x30_S30x16384_S30x16384_1_0_0_1_n_n : DotDims S30x30 S30x16384 S30x16384 where
  lhsContracting := [1]
  rhsContracting := [0]
  lhsNonContracting := [0]
  rhsNonContracting := [1]
  lhsBatch := []
  rhsBatch := []
  wf := dot_S30x30_S30x16384_S30x16384_1_0_0_1_n_n_wf
def dot_S1x30_S30x16384_S1x16384_1_0_0_1_n_n : DotDims S1x30 S30x16384 S1x16384 where
  lhsContracting := [1]
  rhsContracting := [0]
  lhsNonContracting := [0]
  rhsNonContracting := [1]
  lhsBatch := []
  rhsBatch := []
  wf := dot_S1x30_S30x16384_S1x16384_1_0_0_1_n_n_wf
def dot_S9x30_S30x16384_S9x16384_1_0_0_1_n_n : DotDims S9x30 S30x16384 S9x16384 where
  lhsContracting := [1]
  rhsContracting := [0]
  lhsNonContracting := [0]
  rhsNonContracting := [1]
  lhsBatch := []
  rhsBatch := []
  wf := dot_S9x30_S30x16384_S9x16384_1_0_0_1_n_n_wf

abbrev win0_0 : Pipeline.Window sig grid0 :=
  Pipeline.Window.ofSpecClip (Memref.whole main_v1) S9x16384.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v3) S30x9.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S30x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S30x30.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S30x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S30x30.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S30x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x30.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S9x30.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S30x30.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S30x30.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14) S30x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpecClip (Memref.whole main_v19) S10x16384.size cc0_transform_13 reads0_13 true false 2 stage0_13 sem0_13
    hrank0 hreads0_13 hstart0_13 nbuf0_13 (Memref.isWhole_whole _) hwx0_13 hwxs0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S1000000x4 : Shape := ⟨2, ![1000000, 4]⟩
abbrev S1000000x1 : Shape := ⟨2, ![1000000, 1]⟩
abbrev S9x30 : Shape := ⟨2, ![9, 30]⟩
abbrev S30 : Shape := ⟨1, ![30]⟩
abbrev S30x30 : Shape := ⟨2, ![30, 30]⟩
abbrev S30x1 : Shape := ⟨2, ![30, 1]⟩
abbrev S1 : Shape := ⟨1, ![1]⟩
abbrev S1000000x9 : Shape := ⟨2, ![1000000, 9]⟩
abbrev S1000000x30 : Shape := ⟨2, ![1000000, 30]⟩
abbrev S1x30 : Shape := ⟨2, ![1, 30]⟩
abbrev S_ : Shape := ⟨0, ![]⟩
abbrev S1x1 : Shape := ⟨2, ![1, 1]⟩
abbrev S30x9 : Shape := ⟨2, ![30, 9]⟩
abbrev S1000000x1x4 : Shape := ⟨3, ![1000000, 1, 4]⟩
abbrev S1000000x1x1 : Shape := ⟨3, ![1000000, 1, 1]⟩

abbrev nBuf : Space → Nat
  | .hbm => 94
  | .vmem => 0
  | .smem => 0
  | _ => 0

abbrev bufTy : (tb : Table) → Fin (tcTables nBuf tb) → BufTy
  | .hbm, ⟨0, _⟩ => ⟨S1000000x4, .f32⟩
  | .hbm, ⟨1, _⟩ => ⟨S1000000x1, .f32⟩
  | .hbm, ⟨2, _⟩ => ⟨S1000000x4, .f32⟩
  | .hbm, ⟨3, _⟩ => ⟨S9x30, .f32⟩
  | .hbm, ⟨4, _⟩ => ⟨S30, .f32⟩
  | .hbm, ⟨5, _⟩ => ⟨S30x30, .f32⟩
  | .hbm, ⟨6, _⟩ => ⟨S30, .f32⟩
  | .hbm, ⟨7, _⟩ => ⟨S30x30, .f32⟩
  | .hbm, ⟨8, _⟩ => ⟨S30, .f32⟩
  | .hbm, ⟨9, _⟩ => ⟨S30x1, .f32⟩
  | .hbm, ⟨10, _⟩ => ⟨S1, .f32⟩
  | .hbm, ⟨11, _⟩ => ⟨S1000000x9, .f32⟩
  | .hbm, ⟨12, _⟩ => ⟨S1000000x30, .f32⟩
  | .hbm, ⟨13, _⟩ => ⟨S1x30, .f32⟩
  | .hbm, ⟨14, _⟩ => ⟨S1000000x30, .f32⟩
  | .hbm, ⟨15, _⟩ => ⟨S1000000x30, .f32⟩
  | .hbm, ⟨16, _⟩ => ⟨S_, .f32⟩
  | .hbm, ⟨17, _⟩ => ⟨S1000000x30, .f32⟩
  | .hbm, ⟨18, _⟩ => ⟨S1000000x30, .i1⟩
  | .hbm, ⟨19, _⟩ => ⟨S_, .f32⟩
  | .hbm, ⟨20, _⟩ => ⟨S1000000x30, .f32⟩
  | .hbm, ⟨21, _⟩ => ⟨S1000000x30, .f32⟩
  | .hbm, ⟨22, _⟩ => ⟨S1000000x30, .f32⟩
  | .hbm, ⟨23, _⟩ => ⟨S1000000x30, .f32⟩
  | .hbm, ⟨24, _⟩ => ⟨S1x30, .f32⟩
  | .hbm, ⟨25, _⟩ => ⟨S1000000x30, .f32⟩
  | .hbm, ⟨26, _⟩ => ⟨S1000000x30, .f32⟩
  | .hbm, ⟨27, _⟩ => ⟨S_, .f32⟩
  | .hbm, ⟨28, _⟩ => ⟨S1000000x30, .f32⟩
  | .hbm, ⟨29, _⟩ => ⟨S1000000x30, .i1⟩
  | .hbm, ⟨30, _⟩ => ⟨S_, .f32⟩
  | .hbm, ⟨31, _⟩ => ⟨S1000000x30, .f32⟩
  | .hbm, ⟨32, _⟩ => ⟨S1000000x30, .f32⟩
  | .hbm, ⟨33, _⟩ => ⟨S1000000x30, .f32⟩
  | .hbm, ⟨34, _⟩ => ⟨S1000000x30, .f32⟩
  | .hbm, ⟨35, _⟩ => ⟨S1x30, .f32⟩
  | .hbm, ⟨36, _⟩ => ⟨S1000000x30, .f32⟩
  | .hbm, ⟨37, _⟩ => ⟨S1000000x30, .f32⟩
  | .hbm, ⟨38, _⟩ => ⟨S_, .f32⟩
  | .hbm, ⟨39, _⟩ => ⟨S1000000x30, .f32⟩
  | .hbm, ⟨40, _⟩ => ⟨S1000000x30, .i1⟩
  | .hbm, ⟨41, _⟩ => ⟨S_, .f32⟩
  | .hbm, ⟨42, _⟩ => ⟨S1000000x30, .f32⟩
  | .hbm, ⟨43, _⟩ => ⟨S1000000x30, .f32⟩
  | .hbm, ⟨44, _⟩ => ⟨S1000000x30, .f32⟩
  | .hbm, ⟨45, _⟩ => ⟨S1000000x1, .f32⟩
  | .hbm, ⟨46, _⟩ => ⟨S1x1, .f32⟩
  | .hbm, ⟨47, _⟩ => ⟨S1000000x1, .f32⟩
  | .hbm, ⟨48, _⟩ => ⟨S1000000x1, .f32⟩
  | .hbm, ⟨49, _⟩ => ⟨S30, .f32⟩
  | .hbm, ⟨50, _⟩ => ⟨S1x30, .f32⟩
  | .hbm, ⟨51, _⟩ => ⟨S_, .f32⟩
  | .hbm, ⟨52, _⟩ => ⟨S1000000x30, .f32⟩
  | .hbm, ⟨53, _⟩ => ⟨S1000000x30, .i1⟩
  | .hbm, ⟨54, _⟩ => ⟨S_, .f32⟩
  | .hbm, ⟨55, _⟩ => ⟨S_, .f32⟩
  | .hbm, ⟨56, _⟩ => ⟨S1000000x30, .f32⟩
  | .hbm, ⟨57, _⟩ => ⟨S1000000x30, .f32⟩
  | .hbm, ⟨58, _⟩ => ⟨S1000000x30, .f32⟩
  | .hbm, ⟨59, _⟩ => ⟨S1000000x30, .f32⟩
  | .hbm, ⟨60, _⟩ => ⟨S1000000x30, .f32⟩
  | .hbm, ⟨61, _⟩ => ⟨S1000000x30, .f32⟩
  | .hbm, ⟨62, _⟩ => ⟨S30x30, .f32⟩
  | .hbm, ⟨63, _⟩ => ⟨S1000000x30, .f32⟩
  | .hbm, ⟨64, _⟩ => ⟨S_, .f32⟩
  | .hbm, ⟨65, _⟩ => ⟨S1000000x30, .f32⟩
  | .hbm, ⟨66, _⟩ => ⟨S1000000x30, .i1⟩
  | .hbm, ⟨67, _⟩ => ⟨S_, .f32⟩
  | .hbm, ⟨68, _⟩ => ⟨S_, .f32⟩
  | .hbm, ⟨69, _⟩ => ⟨S1000000x30, .f32⟩
  | .hbm, ⟨70, _⟩ => ⟨S1000000x30, .f32⟩
  | .hbm, ⟨71, _⟩ => ⟨S1000000x30, .f32⟩
  | .hbm, ⟨72, _⟩ => ⟨S1000000x30, .f32⟩
  | .hbm, ⟨73, _⟩ => ⟨S1000000x30, .f32⟩
  | .hbm, ⟨74, _⟩ => ⟨S30x30, .f32⟩
  | .hbm, ⟨75, _⟩ => ⟨S1000000x30, .f32⟩
  | .hbm, ⟨76, _⟩ => ⟨S_, .f32⟩
  | .hbm, ⟨77, _⟩ => ⟨S1000000x30, .f32⟩
  | .hbm, ⟨78, _⟩ => ⟨S1000000x30, .i1⟩
  | .hbm, ⟨79, _⟩ => ⟨S_, .f32⟩
  | .hbm, ⟨80, _⟩ => ⟨S_, .f32⟩
  | .hbm, ⟨81, _⟩ => ⟨S1000000x30, .f32⟩
  | .hbm, ⟨82, _⟩ => ⟨S1000000x30, .f32⟩
  | .hbm, ⟨83, _⟩ => ⟨S1000000x30, .f32⟩
  | .hbm, ⟨84, _⟩ => ⟨S1000000x30, .f32⟩
  | .hbm, ⟨85, _⟩ => ⟨S1000000x30, .f32⟩
  | .hbm, ⟨86, _⟩ => ⟨S30x9, .f32⟩
  | .hbm, ⟨87, _⟩ => ⟨S1000000x9, .f32⟩
  | .hbm, ⟨88, _⟩ => ⟨S1000000x4, .f32⟩
  | .hbm, ⟨89, _⟩ => ⟨S1000000x1x4, .f32⟩
  | .hbm, ⟨90, _⟩ => ⟨S1000000x1, .f32⟩
  | .hbm, ⟨91, _⟩ => ⟨S1000000x1x1, .f32⟩
  | .hbm, ⟨92, _⟩ => ⟨S1000000x4, .f32⟩
  | .hbm, ⟨93, _⟩ => ⟨S1000000x1x4, .f32⟩
  | _, _ => ⟨S1000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_cst_7 : Ref sig .tc := ⟨.hbm, 55, rfl⟩
abbrev main_call3_v0 : Ref sig .tc := ⟨.hbm, 56, rfl⟩
abbrev main_call3_v1 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_cst_10 : Ref sig .tc := ⟨.hbm, 68, rfl⟩
abbrev main_call4_v0 : Ref sig .tc := ⟨.hbm, 69, rfl⟩
abbrev main_call4_v1 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_11 : Ref sig .tc := ⟨.hbm, 76, rfl⟩
abbrev main_v49 : Ref sig .tc := ⟨.hbm, 77, rfl⟩
abbrev main_v50 : Ref sig .tc := ⟨.hbm, 78, rfl⟩
abbrev main_cst_12 : Ref sig .tc := ⟨.hbm, 79, rfl⟩
abbrev main_cst_13 : Ref sig .tc := ⟨.hbm, 80, rfl⟩
abbrev main_call5_v0 : Ref sig .tc := ⟨.hbm, 81, rfl⟩
abbrev main_call5_v1 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩

abbrev nD : Nat := 1
abbrev τ : Topo := Topo.v7x

variable {F : FTy → Type} [FloatOps F]

class Facts₀ : Prop where
  concatenates_S1000000x4_S1000000x1_S1000000x4_S1000000x9_d1 : Shape.Concatenates [S1000000x4, S1000000x1, S1000000x4] S1000000x9 1
  bcast_S30_S1x30_1 : S30.BroadcastsInDim S1x30 (![1] : Fin 1 → Fin S1x30.rank)
  bcast_S1x30_S1000000x30_0_1 : S1x30.BroadcastsInDim S1000000x30 (![0, 1] : Fin 2 → Fin S1000000x30.rank)
  bcast_S_S1000000x30 : S_.BroadcastsInDim S1000000x30 (![] : Fin 0 → Fin S1000000x30.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  shapeCasts_S30x1_S30 : S30x1.ShapeCasts S30
  transposes_S30x30_S30x30_1_0 : S30x30.Transposes [1, 0] S30x30
  transposes_S9x30_S30x9_1_0 : S9x30.Transposes [1, 0] S30x9
  slices_S1000000x9_S1000000x4_0_0 : S1000000x9.Slices ![0, 0] S1000000x4
  shapeCasts_S1000000x4_S1000000x1x4 : S1000000x4.ShapeCasts S1000000x1x4
  slices_S1000000x9_S1000000x1_0_4 : S1000000x9.Slices ![0, 4] S1000000x1
  shapeCasts_S1000000x1_S1000000x1x1 : S1000000x1.ShapeCasts S1000000x1x1
  slices_S1000000x9_S1000000x4_0_5 : S1000000x9.Slices ![0, 5] S1000000x4
  dot_S1000000x9_S9x30_S1000000x30_1_0_0_1_n_n_wf : DotDims.WF S1000000x9 S9x30 S1000000x30 [1] [0] [0] [1] [] []
  dot_S1000000x30_S30x30_S1000000x30_1_0_0_1_n_n_wf : DotDims.WF S1000000x30 S30x30 S1000000x30 [1] [0] [0] [1] [] []
  dot_S1000000x30_S30x1_S1000000x1_1_0_0_1_n_n_wf : DotDims.WF S1000000x30 S30x1 S1000000x1 [1] [0] [0] [1] [] []
  dot_S1000000x30_S30x9_S1000000x9_1_0_0_1_n_n_wf : DotDims.WF S1000000x30 S30x9 S1000000x9 [1] [0] [0] [1] [] []

variable [Facts₀]

def dot_S1000000x9_S9x30_S1000000x30_1_0_0_1_n_n : DotDims S1000000x9 S9x30 S1000000x30 where
  lhsContracting := [1]
  rhsContracting := [0]
  lhsNonContracting := [0]
  rhsNonContracting := [1]
  lhsBatch := []
  rhsBatch := []
  wf := dot_S1000000x9_S9x30_S1000000x30_1_0_0_1_n_n_wf
def dot_S1000000x30_S30x30_S1000000x30_1_0_0_1_n_n : DotDims S1000000x30 S30x30 S1000000x30 where
  lhsContracting := [1]
  rhsContracting := [0]
  lhsNonContracting := [0]
  rhsNonContracting := [1]
  lhsBatch := []
  rhsBatch := []
  wf := dot_S1000000x30_S30x30_S1000000x30_1_0_0_1_n_n_wf
def dot_S1000000x30_S30x1_S1000000x1_1_0_0_1_n_n : DotDims S1000000x30 S30x1 S1000000x1 where
  lhsContracting := [1]
  rhsContracting := [0]
  lhsNonContracting := [0]
  rhsNonContracting := [1]
  lhsBatch := []
  rhsBatch := []
  wf := dot_S1000000x30_S30x1_S1000000x1_1_0_0_1_n_n_wf
def dot_S1000000x30_S30x9_S1000000x9_1_0_0_1_n_n : DotDims S1000000x30 S30x9 S1000000x9 where
  lhsContracting := [1]
  rhsContracting := [0]
  lhsNonContracting := [0]
  rhsNonContracting := [1]
  lhsBatch := []
  rhsBatch := []
  wf := dot_S1000000x30_S30x9_S1000000x9_1_0_0_1_n_n_wf

class Facts : Prop extends Facts₀ where

variable [Facts]
-- ==== Proof.KitBits.lean ====
/-
  The program around its one kernel region.  @main is nineteen host lines (the batch's three input arrays joined
  side by side and transposed to feature-major; the weights transposed and narrowed; the biases reshaped to
  columns), the region, and nine host lines (the packed result transposed back and cut into the four results).
  This module states what the region finds in every buffer (the host lines' composed value of the arguments), that
  @main is those three pieces in order, that the later lines touch only what they may and write none of the
  region's arrays, and that neither stretch of host lines writes an argument array: so a run that ends with the
  buffers outside the region as the host lines leave them ends with every argument as it was given.
-/
import proofs.«149670_j23579370455607_2_alg».proof.Proof.Gen.Kernel.Launch
import proofs.«149670_j23579370455607_2_alg».proof.Proof.Gen.Kernel.Points
import Idealize.ShloMosaic.Lib.Pipeline.FrameBody
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- Every buffer's contents when the region is entered: the first stretch of host lines applied to the memory as given. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

/-- No host line allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the first stretch of host lines, the region, the second stretch: it reduces to the region continued by
    the second stretch, entered with every buffer at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The second stretch touches only the region's arrays and buffers the region does not stage, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and writes none of the region's fourteen arrays: each line writes its own result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl
  all_goals intro w; fin_cases w <;> simp only [StableHlo.unary_writes, StableHlo.reshape_writes, Finset.mem_singleton] <;> exact StableHlo.devRef_ne_of_ne (by decide)

/-- The nine buffers the second stretch writes. -/
abbrev tailWritten : Finset (Ref sig .tc) :=
  {main_v20, main_v21, main_v22, main_v23, main_v24, main_v25, main_v26, main_v27, main_v28}

/-- Every buffer a line of the second stretch writes is one of those nine. -/
theorem sfx_written : ∀ ops ∈ ([hostOps1] : List (List (HloOp τ sig (Elt F)))), ∀ op ∈ ops,
    ∀ b : Ref sig .tc, Proc.devRef .tc b ∈ op.writes → b ∈ tailWritten := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl
  all_goals
    intro b hb
    simp only [StableHlo.unary_writes, StableHlo.reshape_writes, Finset.mem_singleton] at hb
    obtain rfl := Proc.devRef_injective _ hb
    decide

/-! ## The arguments are written by no host line -/

/-- Telling a reference apart from each result buffer of a stretch of host lines. -/
local macro "apart_from_results" : tactic => `(tactic| (
  simp only [hostOps0, hostOps1, List.flatten_cons, List.flatten_nil, List.append_nil, List.cons_append,
    List.nil_append, List.Forall, StableHlo.nullary_writes, StableHlo.unary_writes, StableHlo.binary_writes,
    StableHlo.reshape_writes, StableHlo.nary_writes, Finset.mem_singleton]
  repeat' apply And.intro
  all_goals exact StableHlo.devRef_ne_of_ne (by decide)))

/-- The region finds argument 0 as given, -/
theorem V_main_arg0 (c : Dev nD) : V m c main_arg0 = m ((c : Thread nD τ).loc main_arg0) :=
  StableHlo.after_of_forall_not_mem (b := Proc.devRef .tc main_arg0) _ _ (List.forall_iff_forall_mem.mp (by apart_from_results))
/-- and it ends as given: the second stretch does not write it and it is none of the region's arrays. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by apart_from_results)),
    Pipeline.withArrays_of_ne _ c (V0 m c) _ main_arg0 (by exact (by decide : ∀ w, Pipeline.arrRef spec0 w ≠ main_arg0))]
  exact V_main_arg0 m c
/-- The region finds argument 1 as given, -/
theorem V_main_arg1 (c : Dev nD) : V m c main_arg1 = m ((c : Thread nD τ).loc main_arg1) :=
  StableHlo.after_of_forall_not_mem (b := Proc.devRef .tc main_arg1) _ _ (List.forall_iff_forall_mem.mp (by apart_from_results))
/-- and it ends as given: the second stretch does not write it and it is none of the region's arrays. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by apart_from_results)),
    Pipeline.withArrays_of_ne _ c (V0 m c) _ main_arg1 (by exact (by decide : ∀ w, Pipeline.arrRef spec0 w ≠ main_arg1))]
  exact V_main_arg1 m c
/-- The region finds argument 2 as given, -/
theorem V_main_arg2 (c : Dev nD) : V m c main_arg2 = m ((c : Thread nD τ).loc main_arg2) :=
  StableHlo.after_of_forall_not_mem (b := Proc.devRef .tc main_arg2) _ _ (List.forall_iff_forall_mem.mp (by apart_from_results))
/-- and it ends as given: the second stretch does not write it and it is none of the region's arrays. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by apart_from_results)),
    Pipeline.withArrays_of_ne _ c (V0 m c) _ main_arg2 (by exact (by decide : ∀ w, Pipeline.arrRef spec0 w ≠ main_arg2))]
  exact V_main_arg2 m c
/-- The region finds argument 3 as given, -/
theorem V_main_arg3 (c : Dev nD) : V m c main_arg3 = m ((c : Thread nD τ).loc main_arg3) :=
  StableHlo.after_of_forall_not_mem (b := Proc.devRef .tc main_arg3) _ _ (List.forall_iff_forall_mem.mp (by apart_from_results))
/-- and it ends as given: the second stretch does not write it and it is none of the region's arrays. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by apart_from_results)),
    Pipeline.withArrays_of_ne _ c (V0 m c) _ main_arg3 (by exact (by decide : ∀ w, Pipeline.arrRef spec0 w ≠ main_arg3))]
  exact V_main_arg3 m c
/-- The region finds argument 4 as given, -/
theorem V_main_arg4 (c : Dev nD) : V m c main_arg4 = m ((c : Thread nD τ).loc main_arg4) :=
  StableHlo.after_of_forall_not_mem (b := Proc.devRef .tc main_arg4) _ _ (List.forall_iff_forall_mem.mp (by apart_from_results))
/-- and it ends as given: the second stretch does not write it and it is none of the region's arrays. -/
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by apart_from_results)),
    Pipeline.withArrays_of_ne _ c (V0 m c) _ main_arg4 (by exact (by decide : ∀ w, Pipeline.arrRef spec0 w ≠ main_arg4))]
  exact V_main_arg4 m c
/-- The region finds argument 5 as given, -/
theorem V_main_arg5 (c : Dev nD) : V m c main_arg5 = m ((c : Thread nD τ).loc main_arg5) :=
  StableHlo.after_of_forall_not_mem (b := Proc.devRef .tc main_arg5) _ _ (List.forall_iff_forall_mem.mp (by apart_from_results))
/-- and it ends as given: the second stretch does not write it and it is none of the region's arrays. -/
theorem W_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by apart_from_results)),
    Pipeline.withArrays_of_ne _ c (V0 m c) _ main_arg5 (by exact (by decide : ∀ w, Pipeline.arrRef spec0 w ≠ main_arg5))]
  exact V_main_arg5 m c
/-- The region finds argument 6 as given, -/
theorem V_main_arg6 (c : Dev nD) : V m c main_arg6 = m ((c : Thread nD τ).loc main_arg6) :=
  StableHlo.after_of_forall_not_mem (b := Proc.devRef .tc main_arg6) _ _ (List.forall_iff_forall_mem.mp (by apart_from_results))
/-- and it ends as given: the second stretch does not write it and it is none of the region's arrays. -/
theorem W_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by apart_from_results)),
    Pipeline.withArrays_of_ne _ c (V0 m c) _ main_arg6 (by exact (by decide : ∀ w, Pipeline.arrRef spec0 w ≠ main_arg6))]
  exact V_main_arg6 m c
/-- The region finds argument 7 as given, -/
theorem V_main_arg7 (c : Dev nD) : V m c main_arg7 = m ((c : Thread nD τ).loc main_arg7) :=
  StableHlo.after_of_forall_not_mem (b := Proc.devRef .tc main_arg7) _ _ (List.forall_iff_forall_mem.mp (by apart_from_results))
/-- and it ends as given: the second stretch does not write it and it is none of the region's arrays. -/
theorem W_main_arg7 (dats : (p : Fin 1) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by apart_from_results)),
    Pipeline.withArrays_of_ne _ c (V0 m c) _ main_arg7 (by exact (by decide : ∀ w, Pipeline.arrRef spec0 w ≠ main_arg7))]
  exact V_main_arg7 m c
/-- The region finds argument 8 as given, -/
theorem V_main_arg8 (c : Dev nD) : V m c main_arg8 = m ((c : Thread nD τ).loc main_arg8) :=
  StableHlo.after_of_forall_not_mem (b := Proc.devRef .tc main_arg8) _ _ (List.forall_iff_forall_mem.mp (by apart_from_results))
/-- and it ends as given: the second stretch does not write it and it is none of the region's arrays. -/
theorem W_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by apart_from_results)),
    Pipeline.withArrays_of_ne _ c (V0 m c) _ main_arg8 (by exact (by decide : ∀ w, Pipeline.arrRef spec0 w ≠ main_arg8))]
  exact V_main_arg8 m c
/-- The region finds argument 9 as given, -/
theorem V_main_arg9 (c : Dev nD) : V m c main_arg9 = m ((c : Thread nD τ).loc main_arg9) :=
  StableHlo.after_of_forall_not_mem (b := Proc.devRef .tc main_arg9) _ _ (List.forall_iff_forall_mem.mp (by apart_from_results))
/-- and it ends as given: the second stretch does not write it and it is none of the region's arrays. -/
theorem W_main_arg9 (dats : (p : Fin 1) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by apart_from_results)),
    Pipeline.withArrays_of_ne _ c (V0 m c) _ main_arg9 (by exact (by decide : ∀ w, Pipeline.arrRef spec0 w ≠ main_arg9))]
  exact V_main_arg9 m c
/-- The region finds argument 10 as given, -/
theorem V_main_arg10 (c : Dev nD) : V m c main_arg10 = m ((c : Thread nD τ).loc main_arg10) :=
  StableHlo.after_of_forall_not_mem (b := Proc.devRef .tc main_arg10) _ _ (List.forall_iff_forall_mem.mp (by apart_from_results))
/-- and it ends as given: the second stretch does not write it and it is none of the region's arrays. -/
theorem W_main_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by apart_from_results)),
    Pipeline.withArrays_of_ne _ c (V0 m c) _ main_arg10 (by exact (by decide : ∀ w, Pipeline.arrRef spec0 w ≠ main_arg10))]
  exact V_main_arg10 m c

/-! ## The frame from a run -/

/-- From a run that ends with every buffer outside the region and outside the nine the second stretch writes at its
    region-entry contents (whatever the region's arrays end at): every argument array ends as given. -/
theorem frame_of_forgetful (rdat : (c : Dev nD) → RDat τ (Elt F) Unit ℕ (UR sig nD τ) ℕ cfg0 c)
    (h : θ_run defs (onTc (τ := τ) (main (F := F))) (s₀ m ρ)
      (Pipeline.RDat.FramePostR cfg0 rdat tailWritten (fun c b => V0 m c (Proc.devRef .tc b)))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c),
      ((h c).2 main_arg9 (Finset.mem_sdiff.mpr ⟨Pipeline.mem_restRefs_of main_arg9 (by decide) (by decide), by decide⟩)).trans (V_main_arg9 m c),
      ((h c).2 main_arg10 (Finset.mem_sdiff.mpr ⟨Pipeline.mem_restRefs_of main_arg10 (by decide) (by decide), by decide⟩)).trans (V_main_arg10 m c)⟩) h

end Cert.Kernel.Hand

end
-- ==== Proof.PackedBits.lean ====
/-
  The value the kernel body stores into its output block, as ONE function of the thirteen blocks it loads: the
  activations' block `x0` (nine features by 16384 batch columns), the forward weights in output-major orientation
  with their bias columns (`a1` … `a8`), and the backward weights in input-major orientation with the last layer's
  weight column (`a9` … `a12`).  It composes the body's payloads in the order the body computes them: the three
  pre-activations, the output row, the gradient pushed back through the three rectifiers, and the ten rows stacked.
-/
import proofs.«149670_j23579370455607_2_alg».proof.Proof.Gen.Kernel.Skeleton

noncomputable section

namespace Cert.Kernel.Hand

open Cert.Kernel Cert.Kernel.Gen Idealize.ShloMosaic

variable {F : FTy → Type} [FloatOps F]

/-- The output block (row 0 the network's value, rows 1‥9 the input gradient) from the thirteen input blocks. -/
def packed (x0 : Vec F S9x16384 .f32) (a1 : Vec F S30x9 .bf16) (a2 : Vec F S30x1 .f32) (a3 : Vec F S30x30 .bf16)
    (a4 : Vec F S30x1 .f32) (a5 : Vec F S30x30 .bf16) (a6 : Vec F S30x1 .f32) (a7 : Vec F S1x30 .bf16)
    (a8 : Vec F S1x1 .f32) (a9 : Vec F S9x30 .bf16) (a10 : Vec F S30x30 .bf16) (a11 : Vec F S30x30 .bf16)
    (a12 : Vec F S30x1 .f32) : Vec F S10x16384 .f32 :=
  k0_pay1 (k0_pay6 (k0_pay4 x0 a1 a2 a3 a4 a5 a6) (k0_pay5 (F := F)) a7 a8)
    (k0_pay7 (k0_pay3 x0 a1 a2 a3 a4) (k0_pay4 x0 a1 a2 a3 a4 a5 a6) a12 a11)
    (k0_pay8 (k0_pay2 x0 a1 a2)) a10 a9

end Cert.Kernel.Hand

end
-- ==== Proof.BodyBits.lean ====
/-
  The kernel body, once per batch block, and the frame.

  At a grid point the body reads thirteen staging buffers whole — the activations' block (nine features by 16384
  batch columns) and the twelve parameter blocks —, computes, and overwrites the fourteenth whole with the packed
  block (row 0 the network's value on each column, rows 1‥9 the input gradient).  So after the body each input
  buffer holds what it held and the output buffer holds the packed value of the thirteen.

  The batch has 1,000,000 columns and a block 16384, so the last of the 62 blocks hangs 15,808 columns over the
  arrays' end: its fetch lands only the 576 columns inside the array and leaves the buffer's other columns at words
  nothing names, and its write-back writes only those 576 columns.  What a buffer holds is therefore stated as the
  array's block FILLED OUT with some filler past the array's end.  For the frame nothing more is needed: the output
  window is forgotten (handed over and taken back at any contents), every parameter block is refetched or kept
  unchanged, and the arguments are untouched.
-/
import proofs.«149670_j23579370455607_2_alg».proof.Proof.KitBits
import proofs.«149670_j23579370455607_2_alg».proof.Proof.Gen.Kernel.Skeleton
import proofs.«149670_j23579370455607_2_alg».proof.Proof.PackedBits
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each buffer whole -/

abbrev r9x16384 : Rect S9x16384 := Rect.unit (s := S9x16384) ![0, 0] S9x16384.size inb_S9x16384_S9x16384_0_0
abbrev r30x9 : Rect S30x9 := Rect.unit (s := S30x9) ![0, 0] S30x9.size inb_S30x9_S30x9_0_0
abbrev r30x1 : Rect S30x1 := Rect.unit (s := S30x1) ![0, 0] S30x1.size inb_S30x1_S30x1_0_0
abbrev r30x30 : Rect S30x30 := Rect.unit (s := S30x30) ![0, 0] S30x30.size inb_S30x30_S30x30_0_0
abbrev r1x30 : Rect S1x30 := Rect.unit (s := S1x30) ![0, 0] S1x30.size inb_S1x30_S1x30_0_0
abbrev r1x1 : Rect S1x1 := Rect.unit (s := S1x1) ![0, 0] S1x1.size inb_S1x1_S1x1_0_0
abbrev r9x30 : Rect S9x30 := Rect.unit (s := S9x30) ![0, 0] S9x30.size inb_S9x30_S9x30_0_0
abbrev r10x16384 : Rect S10x16384 := Rect.unit (s := S10x16384) ![0, 0] S10x16384.size inb_S10x16384_S10x16384_0_0

/-- What the body stores into the output buffer, from the contents of the thirteen it loads: one store covering
    the buffer, its value the packed block of the loaded values. -/
def stored (x0 : Vec F S9x16384 .f32) (a1 : Vec F S30x9 .bf16) (a2 : Vec F S30x1 .f32) (a3 : Vec F S30x30 .bf16) (a4 : Vec F S30x1 .f32) (a5 : Vec F S30x30 .bf16) (a6 : Vec F S30x1 .f32) (a7 : Vec F S1x30 .bf16) (a8 : Vec F S1x1 .f32) (a9 : Vec F S9x30 .bf16) (a10 : Vec F S30x30 .bf16) (a11 : Vec F S30x30 .bf16) (a12 : Vec F S30x1 .f32) : Vec F S10x16384 .f32 :=
  View.canon [⟨r10x16384, packed (View.ld x0 r9x16384) (View.ld a1 r30x9) (View.ld a2 r30x1) (View.ld a3 r30x30) (View.ld a4 r30x1) (View.ld a5 r30x30) (View.ld a6 r30x1) (View.ld a7 r1x30) (View.ld a8 r1x1) (View.ld a9 r9x30) (View.ld a10 r30x30) (View.ld a11 r30x30) (View.ld a12 r30x1)⟩]

/-- The one store covers the output buffer. -/
theorem stored_covers (p0 : Vec F S10x16384 .f32) (y : S10x16384.Idx) :
    ∃ pc ∈ ([⟨r10x16384, p0⟩] : List (View.Piece (Elt F) S10x16384 .f32)), y ∈ pc.1.set :=
  View.cover_of_tiled [⟨r10x16384, p0⟩] S10x16384.size (by rfl) y

/-! ## The body's triple -/

set_option maxHeartbeats 4000000 in
set_option maxRecDepth 100000 in
/-- On whole staging buffers, the thirteen inputs' at given contents and the output's at anything, the body runs to
    its end with the inputs' unchanged and the output's at `stored` of them. -/
theorem sound_kernel (c : Dev nD) (E : Set ℕ) (i : grid0.Coords) (arg1 : Memref sig .tc .vmem S9x16384 .f32) (harg1 : arg1.IsWhole) (arg2 : Memref sig .tc .vmem S30x9 .bf16) (harg2 : arg2.IsWhole) (arg3 : Memref sig .tc .vmem S30x1 .f32) (harg3 : arg3.IsWhole) (arg4 : Memref sig .tc .vmem S30x30 .bf16) (harg4 : arg4.IsWhole) (arg5 : Memref sig .tc .vmem S30x1 .f32) (harg5 : arg5.IsWhole) (arg6 : Memref sig .tc .vmem S30x30 .bf16) (harg6 : arg6.IsWhole) (arg7 : Memref sig .tc .vmem S30x1 .f32) (harg7 : arg7.IsWhole) (arg8 : Memref sig .tc .vmem S1x30 .bf16) (harg8 : arg8.IsWhole) (arg9 : Memref sig .tc .vmem S1x1 .f32) (harg9 : arg9.IsWhole) (arg10 : Memref sig .tc .vmem S9x30 .bf16) (harg10 : arg10.IsWhole) (arg11 : Memref sig .tc .vmem S30x30 .bf16) (harg11 : arg11.IsWhole) (arg12 : Memref sig .tc .vmem S30x30 .bf16) (harg12 : arg12.IsWhole) (arg13 : Memref sig .tc .vmem S30x1 .f32) (harg13 : arg13.IsWhole) (arg14 : Memref sig .tc .vmem S10x16384 .f32) (harg14 : arg14.IsWhole)
    (x0 : Vec F S9x16384 .f32) (a1 : Vec F S30x9 .bf16) (a2 : Vec F S30x1 .f32) (a3 : Vec F S30x30 .bf16) (a4 : Vec F S30x1 .f32) (a5 : Vec F S30x30 .bf16) (a6 : Vec F S30x1 .f32) (a7 : Vec F S1x30 .bf16) (a8 : Vec F S1x1 .f32) (a9 : Vec F S9x30 .bf16) (a10 : Vec F S30x30 .bf16) (a11 : Vec F S30x30 .bf16) (a12 : Vec F S30x1 .f32) (K : PUnit → sProp 𝕄) :
    iprop(owns (c : Thread nD τ) arg1 fullShare x0 ∗ owns (c : Thread nD τ) arg2 fullShare a1 ∗ owns (c : Thread nD τ) arg3 fullShare a2 ∗ owns (c : Thread nD τ) arg4 fullShare a3 ∗ owns (c : Thread nD τ) arg5 fullShare a4 ∗ owns (c : Thread nD τ) arg6 fullShare a5 ∗ owns (c : Thread nD τ) arg7 fullShare a6 ∗ owns (c : Thread nD τ) arg8 fullShare a7 ∗ owns (c : Thread nD τ) arg9 fullShare a8 ∗ owns (c : Thread nD τ) arg10 fullShare a9 ∗ owns (c : Thread nD τ) arg11 fullShare a10 ∗ owns (c : Thread nD τ) arg12 fullShare a11 ∗ owns (c : Thread nD τ) arg13 fullShare a12 ∗ (∃ d, owns (c : Thread nD τ) arg14 fullShare d)
        ∗ (iprop(owns (c : Thread nD τ) arg1 fullShare x0 ∗ owns (c : Thread nD τ) arg2 fullShare a1 ∗ owns (c : Thread nD τ) arg3 fullShare a2 ∗ owns (c : Thread nD τ) arg4 fullShare a3 ∗ owns (c : Thread nD τ) arg5 fullShare a4 ∗ owns (c : Thread nD τ) arg6 fullShare a5 ∗ owns (c : Thread nD τ) arg7 fullShare a6 ∗ owns (c : Thread nD τ) arg8 fullShare a7 ∗ owns (c : Thread nD τ) arg9 fullShare a8 ∗ owns (c : Thread nD τ) arg10 fullShare a9 ∗ owns (c : Thread nD τ) arg11 fullShare a10 ∗ owns (c : Thread nD τ) arg12 fullShare a11 ∗ owns (c : Thread nD τ) arg13 fullShare a12 ∗ owns (c : Thread nD τ) arg14 fullShare (stored x0 a1 a2 a3 a4 a5 a6 a7 a8 a9 a10 a11 a12)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__mlp_kernel_eq_skeleton]; unfold cc0__mlp_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (stored_covers _)

end Cert.Kernel.Hand

end
-- ==== Proof.DataBits.lean ====
/-
  The proof data of the one kernel region, and the frame.

  The region's arrays hold, at entry, what the first stretch of host lines computed.  After the body at batch block
  `t`: the activations' buffer holds block `t` of the feature-major activations, filled out past the array's end
  (only the last block overhangs); each parameter buffer holds its whole array, fetched at the first point and
  kept since; the output buffer holds the stored value of those thirteen.  The body obligation hands the body each
  input buffer at exactly that (whatever filled the activations' buffer past the array's end is carried along as
  `d`) and, the output window forgotten, takes every buffer back: which is the frame.
-/
import proofs.«149670_j23579370455607_2_alg».proof.Proof.BodyBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it: its part inside the array. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The activations' buffer at point `t`: block `t` on the columns inside the array, `d` on the others. -/
def xfill (c : Dev nD) (t : Fin cfg0.N) (d : S9x16384.Idx → Elt F .f32) : S9x16384.Idx → Elt F .f32 :=
  win0_0.fill (grid0.coords t) d (blk m c 0 t)

/-- The filler the proof data names (nothing reads it): the zero word. -/
abbrev filler : S9x16384.Idx → Elt F .f32 := fun _ => Scalar.ofBits .f32 0#32

/-! ## The proof data -/

/-- The arrays as the region finds them; after the body at point `t` the activations' buffer at its block filled out,
    each parameter buffer at its block (the whole array), the output buffer at the stored value of those; the
    invariant the scoped rest, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfill m c t filler
    | ⟨1, _⟩ => blk m c 1 t
    | ⟨2, _⟩ => blk m c 2 t
    | ⟨3, _⟩ => blk m c 3 t
    | ⟨4, _⟩ => blk m c 4 t
    | ⟨5, _⟩ => blk m c 5 t
    | ⟨6, _⟩ => blk m c 6 t
    | ⟨7, _⟩ => blk m c 7 t
    | ⟨8, _⟩ => blk m c 8 t
    | ⟨9, _⟩ => blk m c 9 t
    | ⟨10, _⟩ => blk m c 10 t
    | ⟨11, _⟩ => blk m c 11 t
    | ⟨12, _⟩ => blk m c 12 t
    | ⟨13, _⟩ => stored (xfill m c t filler) (blk m c 1 t) (blk m c 2 t) (blk m c 3 t) (blk m c 4 t) (blk m c 5 t) (blk m c 6 t) (blk m c 7 t) (blk m c 8 t) (blk m c 9 t) (blk m c 10 t) (blk m c 11 t) (blk m c 12 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = xfill m c t filler := by dsimp only [dats]
theorem after_1 (c : Dev nD) (t : Fin cfg0.N) : (dats m 0 c).after 1 t = blk m c 1 t := by dsimp only [dats]
theorem after_2 (c : Dev nD) (t : Fin cfg0.N) : (dats m 0 c).after 2 t = blk m c 2 t := by dsimp only [dats]
theorem after_3 (c : Dev nD) (t : Fin cfg0.N) : (dats m 0 c).after 3 t = blk m c 3 t := by dsimp only [dats]
theorem after_4 (c : Dev nD) (t : Fin cfg0.N) : (dats m 0 c).after 4 t = blk m c 4 t := by dsimp only [dats]
theorem after_5 (c : Dev nD) (t : Fin cfg0.N) : (dats m 0 c).after 5 t = blk m c 5 t := by dsimp only [dats]
theorem after_6 (c : Dev nD) (t : Fin cfg0.N) : (dats m 0 c).after 6 t = blk m c 6 t := by dsimp only [dats]
theorem after_7 (c : Dev nD) (t : Fin cfg0.N) : (dats m 0 c).after 7 t = blk m c 7 t := by dsimp only [dats]
theorem after_8 (c : Dev nD) (t : Fin cfg0.N) : (dats m 0 c).after 8 t = blk m c 8 t := by dsimp only [dats]
theorem after_9 (c : Dev nD) (t : Fin cfg0.N) : (dats m 0 c).after 9 t = blk m c 9 t := by dsimp only [dats]
theorem after_10 (c : Dev nD) (t : Fin cfg0.N) : (dats m 0 c).after 10 t = blk m c 10 t := by dsimp only [dats]
theorem after_11 (c : Dev nD) (t : Fin cfg0.N) : (dats m 0 c).after 11 t = blk m c 11 t := by dsimp only [dats]
theorem after_12 (c : Dev nD) (t : Fin cfg0.N) : (dats m 0 c).after 12 t = blk m c 12 t := by dsimp only [dats]
theorem after_13 (c : Dev nD) (t : Fin cfg0.N) :
    (dats m 0 c).after 13 t = stored (xfill m c t filler) (blk m c 1 t) (blk m c 2 t) (blk m c 3 t) (blk m c 4 t) (blk m c 5 t) (blk m c 6 t) (blk m c 7 t) (blk m c 8 t) (blk m c 9 t) (blk m c 10 t) (blk m c 11 t) (blk m c 12 t) := by dsimp only [dats]

/-! ## What the body finds in each input buffer -/

/-- Two points with one block index of the activations' window are one point: its index is the point. -/
theorem index0_inj : ∀ t t' : Fin cfg0.N, (cfg0.win 0).index t = (cfg0.win 0).index t' → t = t' :=
  (by decide +kernel : ∀ t t' : Fin grid0.N, win0_0.index t = win0_0.index t' → t = t')

/-- The activations' buffer, fetched at every point, holds block `t` filled out with whatever it held. -/
theorem before_0 (c : Dev nD) (t : Fin cfg0.N) (d) : (dats m 0 c).before 0 t d = xfill m c t d :=
  ((dats m 0 c).before_in_eq_fetched 0 rfl (fun _ => rfl)
      (fun t t' h => by obtain rfl := index0_inj t t' h; rfl)
      (fun t => by rw [after_0]; unfold Dat.blockOf xfill blk; rw [A_eq]; exact win0_0.cut_fill _ _ _) t d).trans
    (by unfold Dat.fetched Dat.blockOf xfill blk; rw [A_eq]; try rfl)

/-- Parameter window 1's buffer holds its block at every point: fetched at the first, kept since. -/
theorem before_1 (c : Dev nD) (t : Fin cfg0.N) (d) : (dats m 0 c).before 1 t d = blk m c 1 t :=
  ((dats m 0 c).before_in_eq_fetched 1 rfl (fun _ => rfl) (fun _ _ _ => rfl)
      (fun t => by rw [after_1]; unfold Dat.blockOf blk; rw [A_eq]; try rfl) t d).trans
    (by unfold Dat.fetched Dat.blockOf blk; rw [A_eq]; try rfl)
/-- Parameter window 2's buffer holds its block at every point: fetched at the first, kept since. -/
theorem before_2 (c : Dev nD) (t : Fin cfg0.N) (d) : (dats m 0 c).before 2 t d = blk m c 2 t :=
  ((dats m 0 c).before_in_eq_fetched 2 rfl (fun _ => rfl) (fun _ _ _ => rfl)
      (fun t => by rw [after_2]; unfold Dat.blockOf blk; rw [A_eq]; try rfl) t d).trans
    (by unfold Dat.fetched Dat.blockOf blk; rw [A_eq]; try rfl)
/-- Parameter window 3's buffer holds its block at every point: fetched at the first, kept since. -/
theorem before_3 (c : Dev nD) (t : Fin cfg0.N) (d) : (dats m 0 c).before 3 t d = blk m c 3 t :=
  ((dats m 0 c).before_in_eq_fetched 3 rfl (fun _ => rfl) (fun _ _ _ => rfl)
      (fun t => by rw [after_3]; unfold Dat.blockOf blk; rw [A_eq]; try rfl) t d).trans
    (by unfold Dat.fetched Dat.blockOf blk; rw [A_eq]; try rfl)
/-- Parameter window 4's buffer holds its block at every point: fetched at the first, kept since. -/
theorem before_4 (c : Dev nD) (t : Fin cfg0.N) (d) : (dats m 0 c).before 4 t d = blk m c 4 t :=
  ((dats m 0 c).before_in_eq_fetched 4 rfl (fun _ => rfl) (fun _ _ _ => rfl)
      (fun t => by rw [after_4]; unfold Dat.blockOf blk; rw [A_eq]; try rfl) t d).trans
    (by unfold Dat.fetched Dat.blockOf blk; rw [A_eq]; try rfl)
/-- Parameter window 5's buffer holds its block at every point: fetched at the first, kept since. -/
theorem before_5 (c : Dev nD) (t : Fin cfg0.N) (d) : (dats m 0 c).before 5 t d = blk m c 5 t :=
  ((dats m 0 c).before_in_eq_fetched 5 rfl (fun _ => rfl) (fun _ _ _ => rfl)
      (fun t => by rw [after_5]; unfold Dat.blockOf blk; rw [A_eq]; try rfl) t d).trans
    (by unfold Dat.fetched Dat.blockOf blk; rw [A_eq]; try rfl)
/-- Parameter window 6's buffer holds its block at every point: fetched at the first, kept since. -/
theorem before_6 (c : Dev nD) (t : Fin cfg0.N) (d) : (dats m 0 c).before 6 t d = blk m c 6 t :=
  ((dats m 0 c).before_in_eq_fetched 6 rfl (fun _ => rfl) (fun _ _ _ => rfl)
      (fun t => by rw [after_6]; unfold Dat.blockOf blk; rw [A_eq]; try rfl) t d).trans
    (by unfold Dat.fetched Dat.blockOf blk; rw [A_eq]; try rfl)
/-- Parameter window 7's buffer holds its block at every point: fetched at the first, kept since. -/
theorem before_7 (c : Dev nD) (t : Fin cfg0.N) (d) : (dats m 0 c).before 7 t d = blk m c 7 t :=
  ((dats m 0 c).before_in_eq_fetched 7 rfl (fun _ => rfl) (fun _ _ _ => rfl)
      (fun t => by rw [after_7]; unfold Dat.blockOf blk; rw [A_eq]; try rfl) t d).trans
    (by unfold Dat.fetched Dat.blockOf blk; rw [A_eq]; try rfl)
/-- Parameter window 8's buffer holds its block at every point: fetched at the first, kept since. -/
theorem before_8 (c : Dev nD) (t : Fin cfg0.N) (d) : (dats m 0 c).before 8 t d = blk m c 8 t :=
  ((dats m 0 c).before_in_eq_fetched 8 rfl (fun _ => rfl) (fun _ _ _ => rfl)
      (fun t => by rw [after_8]; unfold Dat.blockOf blk; rw [A_eq]; try rfl) t d).trans
    (by unfold Dat.fetched Dat.blockOf blk; rw [A_eq]; try rfl)
/-- Parameter window 9's buffer holds its block at every point: fetched at the first, kept since. -/
theorem before_9 (c : Dev nD) (t : Fin cfg0.N) (d) : (dats m 0 c).before 9 t d = blk m c 9 t :=
  ((dats m 0 c).before_in_eq_fetched 9 rfl (fun _ => rfl) (fun _ _ _ => rfl)
      (fun t => by rw [after_9]; unfold Dat.blockOf blk; rw [A_eq]; try rfl) t d).trans
    (by unfold Dat.fetched Dat.blockOf blk; rw [A_eq]; try rfl)
/-- Parameter window 10's buffer holds its block at every point: fetched at the first, kept since. -/
theorem before_10 (c : Dev nD) (t : Fin cfg0.N) (d) : (dats m 0 c).before 10 t d = blk m c 10 t :=
  ((dats m 0 c).before_in_eq_fetched 10 rfl (fun _ => rfl) (fun _ _ _ => rfl)
      (fun t => by rw [after_10]; unfold Dat.blockOf blk; rw [A_eq]; try rfl) t d).trans
    (by unfold Dat.fetched Dat.blockOf blk; rw [A_eq]; try rfl)
/-- Parameter window 11's buffer holds its block at every point: fetched at the first, kept since. -/
theorem before_11 (c : Dev nD) (t : Fin cfg0.N) (d) : (dats m 0 c).before 11 t d = blk m c 11 t :=
  ((dats m 0 c).before_in_eq_fetched 11 rfl (fun _ => rfl) (fun _ _ _ => rfl)
      (fun t => by rw [after_11]; unfold Dat.blockOf blk; rw [A_eq]; try rfl) t d).trans
    (by unfold Dat.fetched Dat.blockOf blk; rw [A_eq]; try rfl)
/-- Parameter window 12's buffer holds its block at every point: fetched at the first, kept since. -/
theorem before_12 (c : Dev nD) (t : Fin cfg0.N) (d) : (dats m 0 c).before 12 t d = blk m c 12 t :=
  ((dats m 0 c).before_in_eq_fetched 12 rfl (fun _ => rfl) (fun _ _ _ => rfl)
      (fun t => by rw [after_12]; unfold Dat.blockOf blk; rw [A_eq]; try rfl) t d).trans
    (by unfold Dat.fetched Dat.blockOf blk; rw [A_eq]; try rfl)

/-- The activations' buffer, handed back holding block `t` filled out with `d0`, is the proof data's contents
    restated on the columns inside the array: cutting what the proof data names gives the block back. -/
theorem leaves_0 (c : Dev nD) (t : Fin cfg0.N) (d0 : S9x16384.Idx → Elt F .f32) :
    (owns (c : Thread nD τ) (stage0_0 (cfg0.slots t 0)) fullShare (xfill m c t d0) : sProp 𝕄)
      ⊢ iprop(∃ d, owns (c : Thread nD τ) (stage0_0 (cfg0.slots t 0)) fullShare
          (win0_0.fill (grid0.coords t) d (win0_0.cut (grid0.coords t) ((dats m 0 c).after 0 t)))) := by
  rw [after_0, show win0_0.cut (grid0.coords t) (xfill m c t filler) = blk m c 0 t from win0_0.cut_fill _ _ _]
  unfold xfill
  iintro H; iexists d0; iexact H

/-! ## The body obligation, the output window forgotten -/

/-- Only the output window is forgotten. -/
abbrev forgetOut : Fin 14 → Bool := fun | 0 => false | 1 => false | 2 => false | 3 => false | 4 => false | 5 => false | 6 => false | 7 => false | 8 => false | 9 => false | 10 => false | 11 => false | 12 => false | 13 => true | ⟨_ + 14, h⟩ => absurd h (Nat.not_lt.2 (Nat.le_add_left _ _))

/-- At every point the body, handed each input buffer at its block (the activations' filled out with some `d`) and
    the output buffer at anything, hands every input buffer back as it was — the activations' restated on the columns
    inside the array, which is all its loose window asks — and the output buffer at something. -/
theorem body_obligation_forgetful (c : Dev nD) :
    BodyObligationLoose (dats (F := F) m 0 c) (defs₀ (F := F)) Variants.none () Set.univ forgetOut := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%X, H13⟩⟩
  rw [before_0 m c t d0, before_1 m c t d1, before_2 m c t d2, before_3 m c t d3, before_4 m c t d4, before_5 m c t d5, before_6 m c t d6, before_7 m c t d7, before_8 m c t d8, before_9 m c t d9, before_10 m c t d10, before_11 m c t d11, before_12 m c t d12]
  iapply (sound_kernel (F := F) c Set.univ (grid0.coords t) _ _ _ _ _ _ _ _ _ _ _ _ _ _ _ _ _ _ _ _ _ _ _ _ _ _ _ _
    (xfill m c t d0) (blk m c 1 t) (blk m c 2 t) (blk m c 3 t) (blk m c 4 t) (blk m c 5 t) (blk m c 6 t) (blk m c 7 t) (blk m c 8 t) (blk m c 9 t) (blk m c 10 t) (blk m c 11 t) (blk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]
  · iapply (leaves_0 (F := F) m c t d0); iexact H0
  isplitl [H1]; · rw [after_1]; iexact H1
  isplitl [H2]; · rw [after_2]; iexact H2
  isplitl [H3]; · rw [after_3]; iexact H3
  isplitl [H4]; · rw [after_4]; iexact H4
  isplitl [H5]; · rw [after_5]; iexact H5
  isplitl [H6]; · rw [after_6]; iexact H6
  isplitl [H7]; · rw [after_7]; iexact H7
  isplitl [H8]; · rw [after_8]; iexact H8
  isplitl [H9]; · rw [after_9]; iexact H9
  isplitl [H10]; · rw [after_10]; iexact H10
  isplitl [H11]; · rw [after_11]; iexact H11
  isplitl [H12]; · rw [after_12]; iexact H12
  iexists _; iexact H13

/-! ## The run and the frame -/

/-- The proof data read as a relation, the output window's contents left unsaid. -/
abbrev rdats (c : Dev nD) : RDat τ (Elt F) Unit ℕ (UR sig nD τ) ℕ cfg0 c := (dats m 0 c).toRForget forgetOut

set_option backward.isDefEq.respectTransparency.types false in
/-- From any memory with zero counters every weakly fair execution of @main terminates without a fault, and every
    buffer outside the region's arrays and outside the nine the later host lines write ends as the region found it. -/
theorem run_forgetful : θ_run defs (onTc (τ := τ) (main (F := F))) (s₀ m ρ)
    (Pipeline.RDat.FramePostR cfg0 (rdats m) tailWritten (fun c b => V0 m c (Proc.devRef .tc b))) :=
  Pipeline.RDat.θ_run_frame_around_T cfgs (0 : Fin 1) launch0 defs₀ Variants.none (rdats m) tailWritten m ρ main
    (hbody := fun c => (body_obligation_forgetful m c).toRForget)
    (hshare := fun c => (rdats m c).share_full fun _ => rfl)
    (howed := fun _ _ => rfl) (V₀ := V0 m) (opss := [hostOps1]) (hsub := sfx_sub) (hfresh := sfx_fresh) (hkeep := sfx_keeps)
    (hT := sfx_written) (hmain := hmain m Variants.none) (hA := A_eq m) (hΦ := fun _ _ => rfl)

/-- The frame: the program runs to its end without a fault and leaves its eleven argument arrays as given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of_forgetful m ρ (rdats m) (run_forgetful m ρ)

end Cert.Kernel.Hand

end
-- ==== Proof.KitIdeal.lean ====
/-
  The program around its one kernel region.  @main is nineteen host lines (the batch's three input arrays joined
  side by side and transposed to feature-major; the weights transposed and narrowed; the biases reshaped to
  columns), the region, and nine host lines (the packed result transposed back and cut into the four results).
  This module states what the region finds in every buffer (the host lines' composed value of the arguments), that
  @main is those three pieces in order, that the later lines touch only what they may and write none of the
  region's arrays, and that neither stretch of host lines writes an argument array: so a run that ends with the
  buffers outside the region as the host lines leave them ends with every argument as it was given.
-/
import proofs.«149670_j23579370455607_2_alg».proof.Proof.Gen.KernelIdeal.Launch
import proofs.«149670_j23579370455607_2_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- Every buffer's contents when the region is entered: the first stretch of host lines applied to the memory as given. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

/-- No host line allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the first stretch of host lines, the region, the second stretch: it reduces to the region continued by
    the second stretch, entered with every buffer at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The second stretch touches only the region's arrays and buffers the region does not stage, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and writes none of the region's fourteen arrays: each line writes its own result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl
  all_goals intro w; fin_cases w <;> simp only [StableHlo.unary_writes, StableHlo.reshape_writes, Finset.mem_singleton] <;> exact StableHlo.devRef_ne_of_ne (by decide)

/-- The nine buffers the second stretch writes. -/
abbrev tailWritten : Finset (Ref sig .tc) :=
  {main_v20, main_v21, main_v22, main_v23, main_v24, main_v25, main_v26, main_v27, main_v28}

/-- Every buffer a line of the second stretch writes is one of those nine. -/
theorem sfx_written : ∀ ops ∈ ([hostOps1] : List (List (HloOp τ sig (Elt F)))), ∀ op ∈ ops,
    ∀ b : Ref sig .tc, Proc.devRef .tc b ∈ op.writes → b ∈ tailWritten := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl
  all_goals
    intro b hb
    simp only [StableHlo.unary_writes, StableHlo.reshape_writes, Finset.mem_singleton] at hb
    obtain rfl := Proc.devRef_injective _ hb
    decide

/-! ## The arguments are written by no host line -/

/-- Telling a reference apart from each result buffer of a stretch of host lines. -/
local macro "apart_from_results" : tactic => `(tactic| (
  simp only [hostOps0, hostOps1, List.flatten_cons, List.flatten_nil, List.append_nil, List.cons_append,
    List.nil_append, List.Forall, StableHlo.nullary_writes, StableHlo.unary_writes, StableHlo.binary_writes,
    StableHlo.reshape_writes, StableHlo.nary_writes, Finset.mem_singleton]
  repeat' apply And.intro
  all_goals exact StableHlo.devRef_ne_of_ne (by decide)))

/-- The region finds argument 0 as given, -/
theorem V_main_arg0 (c : Dev nD) : V m c main_arg0 = m ((c : Thread nD τ).loc main_arg0) :=
  StableHlo.after_of_forall_not_mem (b := Proc.devRef .tc main_arg0) _ _ (List.forall_iff_forall_mem.mp (by apart_from_results))
/-- and it ends as given: the second stretch does not write it and it is none of the region's arrays. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by apart_from_results)),
    Pipeline.withArrays_of_ne _ c (V0 m c) _ main_arg0 (by exact (by decide : ∀ w, Pipeline.arrRef spec0 w ≠ main_arg0))]
  exact V_main_arg0 m c
/-- The region finds argument 1 as given, -/
theorem V_main_arg1 (c : Dev nD) : V m c main_arg1 = m ((c : Thread nD τ).loc main_arg1) :=
  StableHlo.after_of_forall_not_mem (b := Proc.devRef .tc main_arg1) _ _ (List.forall_iff_forall_mem.mp (by apart_from_results))
/-- and it ends as given: the second stretch does not write it and it is none of the region's arrays. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by apart_from_results)),
    Pipeline.withArrays_of_ne _ c (V0 m c) _ main_arg1 (by exact (by decide : ∀ w, Pipeline.arrRef spec0 w ≠ main_arg1))]
  exact V_main_arg1 m c
/-- The region finds argument 2 as given, -/
theorem V_main_arg2 (c : Dev nD) : V m c main_arg2 = m ((c : Thread nD τ).loc main_arg2) :=
  StableHlo.after_of_forall_not_mem (b := Proc.devRef .tc main_arg2) _ _ (List.forall_iff_forall_mem.mp (by apart_from_results))
/-- and it ends as given: the second stretch does not write it and it is none of the region's arrays. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by apart_from_results)),
    Pipeline.withArrays_of_ne _ c (V0 m c) _ main_arg2 (by exact (by decide : ∀ w, Pipeline.arrRef spec0 w ≠ main_arg2))]
  exact V_main_arg2 m c
/-- The region finds argument 3 as given, -/
theorem V_main_arg3 (c : Dev nD) : V m c main_arg3 = m ((c : Thread nD τ).loc main_arg3) :=
  StableHlo.after_of_forall_not_mem (b := Proc.devRef .tc main_arg3) _ _ (List.forall_iff_forall_mem.mp (by apart_from_results))
/-- and it ends as given: the second stretch does not write it and it is none of the region's arrays. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by apart_from_results)),
    Pipeline.withArrays_of_ne _ c (V0 m c) _ main_arg3 (by exact (by decide : ∀ w, Pipeline.arrRef spec0 w ≠ main_arg3))]
  exact V_main_arg3 m c
/-- The region finds argument 4 as given, -/
theorem V_main_arg4 (c : Dev nD) : V m c main_arg4 = m ((c : Thread nD τ).loc main_arg4) :=
  StableHlo.after_of_forall_not_mem (b := Proc.devRef .tc main_arg4) _ _ (List.forall_iff_forall_mem.mp (by apart_from_results))
/-- and it ends as given: the second stretch does not write it and it is none of the region's arrays. -/
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by apart_from_results)),
    Pipeline.withArrays_of_ne _ c (V0 m c) _ main_arg4 (by exact (by decide : ∀ w, Pipeline.arrRef spec0 w ≠ main_arg4))]
  exact V_main_arg4 m c
/-- The region finds argument 5 as given, -/
theorem V_main_arg5 (c : Dev nD) : V m c main_arg5 = m ((c : Thread nD τ).loc main_arg5) :=
  StableHlo.after_of_forall_not_mem (b := Proc.devRef .tc main_arg5) _ _ (List.forall_iff_forall_mem.mp (by apart_from_results))
/-- and it ends as given: the second stretch does not write it and it is none of the region's arrays. -/
theorem W_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by apart_from_results)),
    Pipeline.withArrays_of_ne _ c (V0 m c) _ main_arg5 (by exact (by decide : ∀ w, Pipeline.arrRef spec0 w ≠ main_arg5))]
  exact V_main_arg5 m c
/-- The region finds argument 6 as given, -/
theorem V_main_arg6 (c : Dev nD) : V m c main_arg6 = m ((c : Thread nD τ).loc main_arg6) :=
  StableHlo.after_of_forall_not_mem (b := Proc.devRef .tc main_arg6) _ _ (List.forall_iff_forall_mem.mp (by apart_from_results))
/-- and it ends as given: the second stretch does not write it and it is none of the region's arrays. -/
theorem W_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by apart_from_results)),
    Pipeline.withArrays_of_ne _ c (V0 m c) _ main_arg6 (by exact (by decide : ∀ w, Pipeline.arrRef spec0 w ≠ main_arg6))]
  exact V_main_arg6 m c
/-- The region finds argument 7 as given, -/
theorem V_main_arg7 (c : Dev nD) : V m c main_arg7 = m ((c : Thread nD τ).loc main_arg7) :=
  StableHlo.after_of_forall_not_mem (b := Proc.devRef .tc main_arg7) _ _ (List.forall_iff_forall_mem.mp (by apart_from_results))
/-- and it ends as given: the second stretch does not write it and it is none of the region's arrays. -/
theorem W_main_arg7 (dats : (p : Fin 1) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by apart_from_results)),
    Pipeline.withArrays_of_ne _ c (V0 m c) _ main_arg7 (by exact (by decide : ∀ w, Pipeline.arrRef spec0 w ≠ main_arg7))]
  exact V_main_arg7 m c
/-- The region finds argument 8 as given, -/
theorem V_main_arg8 (c : Dev nD) : V m c main_arg8 = m ((c : Thread nD τ).loc main_arg8) :=
  StableHlo.after_of_forall_not_mem (b := Proc.devRef .tc main_arg8) _ _ (List.forall_iff_forall_mem.mp (by apart_from_results))
/-- and it ends as given: the second stretch does not write it and it is none of the region's arrays. -/
theorem W_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by apart_from_results)),
    Pipeline.withArrays_of_ne _ c (V0 m c) _ main_arg8 (by exact (by decide : ∀ w, Pipeline.arrRef spec0 w ≠ main_arg8))]
  exact V_main_arg8 m c
/-- The region finds argument 9 as given, -/
theorem V_main_arg9 (c : Dev nD) : V m c main_arg9 = m ((c : Thread nD τ).loc main_arg9) :=
  StableHlo.after_of_forall_not_mem (b := Proc.devRef .tc main_arg9) _ _ (List.forall_iff_forall_mem.mp (by apart_from_results))
/-- and it ends as given: the second stretch does not write it and it is none of the region's arrays. -/
theorem W_main_arg9 (dats : (p : Fin 1) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by apart_from_results)),
    Pipeline.withArrays_of_ne _ c (V0 m c) _ main_arg9 (by exact (by decide : ∀ w, Pipeline.arrRef spec0 w ≠ main_arg9))]
  exact V_main_arg9 m c
/-- The region finds argument 10 as given, -/
theorem V_main_arg10 (c : Dev nD) : V m c main_arg10 = m ((c : Thread nD τ).loc main_arg10) :=
  StableHlo.after_of_forall_not_mem (b := Proc.devRef .tc main_arg10) _ _ (List.forall_iff_forall_mem.mp (by apart_from_results))
/-- and it ends as given: the second stretch does not write it and it is none of the region's arrays. -/
theorem W_main_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by apart_from_results)),
    Pipeline.withArrays_of_ne _ c (V0 m c) _ main_arg10 (by exact (by decide : ∀ w, Pipeline.arrRef spec0 w ≠ main_arg10))]
  exact V_main_arg10 m c

/-! ## The frame from a run -/

/-- From a run that ends with every buffer outside the region and outside the nine the second stretch writes at its
    region-entry contents (whatever the region's arrays end at): every argument array ends as given. -/
theorem frame_of_forgetful (rdat : (c : Dev nD) → RDat τ (Elt F) Unit ℕ (UR sig nD τ) ℕ cfg0 c)
    (h : θ_run defs (onTc (τ := τ) (main (F := F))) (s₀ m ρ)
      (Pipeline.RDat.FramePostR cfg0 rdat tailWritten (fun c b => V0 m c (Proc.devRef .tc b)))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c),
      ((h c).2 main_arg9 (Finset.mem_sdiff.mpr ⟨Pipeline.mem_restRefs_of main_arg9 (by decide) (by decide), by decide⟩)).trans (V_main_arg9 m c),
      ((h c).2 main_arg10 (Finset.mem_sdiff.mpr ⟨Pipeline.mem_restRefs_of main_arg10 (by decide) (by decide), by decide⟩)).trans (V_main_arg10 m c)⟩) h

end Cert.KernelIdeal.Hand

end
-- ==== Proof.PackedIdeal.lean ====
/-
  The value the kernel body stores into its output block, as ONE function of the thirteen blocks it loads: the
  activations' block `x0` (nine features by 16384 batch columns), the forward weights in output-major orientation
  with their bias columns (`a1` … `a8`), and the backward weights in input-major orientation with the last layer's
  weight column (`a9` … `a12`).  It composes the body's payloads in the order the body computes them: the three
  pre-activations, the output row, the gradient pushed back through the three rectifiers, and the ten rows stacked.
-/
import proofs.«149670_j23579370455607_2_alg».proof.Proof.Gen.KernelIdeal.Skeleton

noncomputable section

namespace Cert.KernelIdeal.Hand

open Cert.KernelIdeal Cert.KernelIdeal.Gen Idealize.ShloMosaic

variable {F : FTy → Type} [FloatOps F]

/-- The output block (row 0 the network's value, rows 1‥9 the input gradient) from the thirteen input blocks. -/
def packed (x0 : Vec F S9x16384 .f32) (a1 : Vec F S30x9 .bf16) (a2 : Vec F S30x1 .f32) (a3 : Vec F S30x30 .bf16)
    (a4 : Vec F S30x1 .f32) (a5 : Vec F S30x30 .bf16) (a6 : Vec F S30x1 .f32) (a7 : Vec F S1x30 .bf16)
    (a8 : Vec F S1x1 .f32) (a9 : Vec F S9x30 .bf16) (a10 : Vec F S30x30 .bf16) (a11 : Vec F S30x30 .bf16)
    (a12 : Vec F S30x1 .f32) : Vec F S10x16384 .f32 :=
  k0_pay1 (k0_pay6 (k0_pay4 x0 a1 a2 a3 a4 a5 a6) (k0_pay5 (F := F)) a7 a8)
    (k0_pay7 (k0_pay3 x0 a1 a2 a3 a4) (k0_pay4 x0 a1 a2 a3 a4 a5 a6) a12 a11)
    (k0_pay8 (k0_pay2 x0 a1 a2)) a10 a9

end Cert.KernelIdeal.Hand

end
-- ==== Proof.BodyIdeal.lean ====
/-
  The kernel body, once per batch block, and the frame.

  At a grid point the body reads thirteen staging buffers whole — the activations' block (nine features by 16384
  batch columns) and the twelve parameter blocks —, computes, and overwrites the fourteenth whole with the packed
  block (row 0 the network's value on each column, rows 1‥9 the input gradient).  So after the body each input
  buffer holds what it held and the output buffer holds the packed value of the thirteen.

  The batch has 1,000,000 columns and a block 16384, so the last of the 62 blocks hangs 15,808 columns over the
  arrays' end: its fetch lands only the 576 columns inside the array and leaves the buffer's other columns at words
  nothing names, and its write-back writes only those 576 columns.  What a buffer holds is therefore stated as the
  array's block FILLED OUT with some filler past the array's end.  For the frame nothing more is needed: the output
  window is forgotten (handed over and taken back at any contents), every parameter block is refetched or kept
  unchanged, and the arguments are untouched.
-/
import proofs.«149670_j23579370455607_2_alg».proof.Proof.KitIdeal
import proofs.«149670_j23579370455607_2_alg».proof.Proof.Gen.KernelIdeal.Skeleton
import proofs.«149670_j23579370455607_2_alg».proof.Proof.PackedIdeal
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each buffer whole -/

abbrev r9x16384 : Rect S9x16384 := Rect.unit (s := S9x16384) ![0, 0] S9x16384.size inb_S9x16384_S9x16384_0_0
abbrev r30x9 : Rect S30x9 := Rect.unit (s := S30x9) ![0, 0] S30x9.size inb_S30x9_S30x9_0_0
abbrev r30x1 : Rect S30x1 := Rect.unit (s := S30x1) ![0, 0] S30x1.size inb_S30x1_S30x1_0_0
abbrev r30x30 : Rect S30x30 := Rect.unit (s := S30x30) ![0, 0] S30x30.size inb_S30x30_S30x30_0_0
abbrev r1x30 : Rect S1x30 := Rect.unit (s := S1x30) ![0, 0] S1x30.size inb_S1x30_S1x30_0_0
abbrev r1x1 : Rect S1x1 := Rect.unit (s := S1x1) ![0, 0] S1x1.size inb_S1x1_S1x1_0_0
abbrev r9x30 : Rect S9x30 := Rect.unit (s := S9x30) ![0, 0] S9x30.size inb_S9x30_S9x30_0_0
abbrev r10x16384 : Rect S10x16384 := Rect.unit (s := S10x16384) ![0, 0] S10x16384.size inb_S10x16384_S10x16384_0_0

/-- What the body stores into the output buffer, from the contents of the thirteen it loads: one store covering
    the buffer, its value the packed block of the loaded values. -/
def stored (x0 : Vec F S9x16384 .f32) (a1 : Vec F S30x9 .bf16) (a2 : Vec F S30x1 .f32) (a3 : Vec F S30x30 .bf16) (a4 : Vec F S30x1 .f32) (a5 : Vec F S30x30 .bf16) (a6 : Vec F S30x1 .f32) (a7 : Vec F S1x30 .bf16) (a8 : Vec F S1x1 .f32) (a9 : Vec F S9x30 .bf16) (a10 : Vec F S30x30 .bf16) (a11 : Vec F S30x30 .bf16) (a12 : Vec F S30x1 .f32) : Vec F S10x16384 .f32 :=
  View.canon [⟨r10x16384, packed (View.ld x0 r9x16384) (View.ld a1 r30x9) (View.ld a2 r30x1) (View.ld a3 r30x30) (View.ld a4 r30x1) (View.ld a5 r30x30) (View.ld a6 r30x1) (View.ld a7 r1x30) (View.ld a8 r1x1) (View.ld a9 r9x30) (View.ld a10 r30x30) (View.ld a11 r30x30) (View.ld a12 r30x1)⟩]

/-- The one store covers the output buffer. -/
theorem stored_covers (p0 : Vec F S10x16384 .f32) (y : S10x16384.Idx) :
    ∃ pc ∈ ([⟨r10x16384, p0⟩] : List (View.Piece (Elt F) S10x16384 .f32)), y ∈ pc.1.set :=
  View.cover_of_tiled [⟨r10x16384, p0⟩] S10x16384.size (by rfl) y

/-! ## The body's triple -/

set_option maxHeartbeats 4000000 in
set_option maxRecDepth 100000 in
/-- On whole staging buffers, the thirteen inputs' at given contents and the output's at anything, the body runs to
    its end with the inputs' unchanged and the output's at `stored` of them. -/
theorem sound_kernel (c : Dev nD) (E : Set ℕ) (i : grid0.Coords) (arg1 : Memref sig .tc .vmem S9x16384 .f32) (harg1 : arg1.IsWhole) (arg2 : Memref sig .tc .vmem S30x9 .bf16) (harg2 : arg2.IsWhole) (arg3 : Memref sig .tc .vmem S30x1 .f32) (harg3 : arg3.IsWhole) (arg4 : Memref sig .tc .vmem S30x30 .bf16) (harg4 : arg4.IsWhole) (arg5 : Memref sig .tc .vmem S30x1 .f32) (harg5 : arg5.IsWhole) (arg6 : Memref sig .tc .vmem S30x30 .bf16) (harg6 : arg6.IsWhole) (arg7 : Memref sig .tc .vmem S30x1 .f32) (harg7 : arg7.IsWhole) (arg8 : Memref sig .tc .vmem S1x30 .bf16) (harg8 : arg8.IsWhole) (arg9 : Memref sig .tc .vmem S1x1 .f32) (harg9 : arg9.IsWhole) (arg10 : Memref sig .tc .vmem S9x30 .bf16) (harg10 : arg10.IsWhole) (arg11 : Memref sig .tc .vmem S30x30 .bf16) (harg11 : arg11.IsWhole) (arg12 : Memref sig .tc .vmem S30x30 .bf16) (harg12 : arg12.IsWhole) (arg13 : Memref sig .tc .vmem S30x1 .f32) (harg13 : arg13.IsWhole) (arg14 : Memref sig .tc .vmem S10x16384 .f32) (harg14 : arg14.IsWhole)
    (x0 : Vec F S9x16384 .f32) (a1 : Vec F S30x9 .bf16) (a2 : Vec F S30x1 .f32) (a3 : Vec F S30x30 .bf16) (a4 : Vec F S30x1 .f32) (a5 : Vec F S30x30 .bf16) (a6 : Vec F S30x1 .f32) (a7 : Vec F S1x30 .bf16) (a8 : Vec F S1x1 .f32) (a9 : Vec F S9x30 .bf16) (a10 : Vec F S30x30 .bf16) (a11 : Vec F S30x30 .bf16) (a12 : Vec F S30x1 .f32) (K : PUnit → sProp 𝕄) :
    iprop(owns (c : Thread nD τ) arg1 fullShare x0 ∗ owns (c : Thread nD τ) arg2 fullShare a1 ∗ owns (c : Thread nD τ) arg3 fullShare a2 ∗ owns (c : Thread nD τ) arg4 fullShare a3 ∗ owns (c : Thread nD τ) arg5 fullShare a4 ∗ owns (c : Thread nD τ) arg6 fullShare a5 ∗ owns (c : Thread nD τ) arg7 fullShare a6 ∗ owns (c : Thread nD τ) arg8 fullShare a7 ∗ owns (c : Thread nD τ) arg9 fullShare a8 ∗ owns (c : Thread nD τ) arg10 fullShare a9 ∗ owns (c : Thread nD τ) arg11 fullShare a10 ∗ owns (c : Thread nD τ) arg12 fullShare a11 ∗ owns (c : Thread nD τ) arg13 fullShare a12 ∗ (∃ d, owns (c : Thread nD τ) arg14 fullShare d)
        ∗ (iprop(owns (c : Thread nD τ) arg1 fullShare x0 ∗ owns (c : Thread nD τ) arg2 fullShare a1 ∗ owns (c : Thread nD τ) arg3 fullShare a2 ∗ owns (c : Thread nD τ) arg4 fullShare a3 ∗ owns (c : Thread nD τ) arg5 fullShare a4 ∗ owns (c : Thread nD τ) arg6 fullShare a5 ∗ owns (c : Thread nD τ) arg7 fullShare a6 ∗ owns (c : Thread nD τ) arg8 fullShare a7 ∗ owns (c : Thread nD τ) arg9 fullShare a8 ∗ owns (c : Thread nD τ) arg10 fullShare a9 ∗ owns (c : Thread nD τ) arg11 fullShare a10 ∗ owns (c : Thread nD τ) arg12 fullShare a11 ∗ owns (c : Thread nD τ) arg13 fullShare a12 ∗ owns (c : Thread nD τ) arg14 fullShare (stored x0 a1 a2 a3 a4 a5 a6 a7 a8 a9 a10 a11 a12)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__mlp_kernel_eq_skeleton]; unfold cc0__mlp_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (stored_covers _)

end Cert.KernelIdeal.Hand

end
-- ==== Proof.DataIdeal.lean ====
/-
  The proof data of the one kernel region, and the frame.

  The region's arrays hold, at entry, what the first stretch of host lines computed.  After the body at batch block
  `t`: the activations' buffer holds block `t` of the feature-major activations, filled out past the array's end
  (only the last block overhangs); each parameter buffer holds its whole array, fetched at the first point and
  kept since; the output buffer holds the stored value of those thirteen.  The body obligation hands the body each
  input buffer at exactly that (whatever filled the activations' buffer past the array's end is carried along as
  `d`) and, the output window forgotten, takes every buffer back: which is the frame.
-/
import proofs.«149670_j23579370455607_2_alg».proof.Proof.BodyIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it: its part inside the array. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The activations' buffer at point `t`: block `t` on the columns inside the array, `d` on the others. -/
def xfill (c : Dev nD) (t : Fin cfg0.N) (d : S9x16384.Idx → Elt F .f32) : S9x16384.Idx → Elt F .f32 :=
  win0_0.fill (grid0.coords t) d (blk m c 0 t)

/-- The filler the proof data names (nothing reads it): the zero word. -/
abbrev filler : S9x16384.Idx → Elt F .f32 := fun _ => Scalar.ofBits .f32 0#32

/-! ## The proof data -/

/-- The arrays as the region finds them; after the body at point `t` the activations' buffer at its block filled out,
    each parameter buffer at its block (the whole array), the output buffer at the stored value of those; the
    invariant the scoped rest, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfill m c t filler
    | ⟨1, _⟩ => blk m c 1 t
    | ⟨2, _⟩ => blk m c 2 t
    | ⟨3, _⟩ => blk m c 3 t
    | ⟨4, _⟩ => blk m c 4 t
    | ⟨5, _⟩ => blk m c 5 t
    | ⟨6, _⟩ => blk m c 6 t
    | ⟨7, _⟩ => blk m c 7 t
    | ⟨8, _⟩ => blk m c 8 t
    | ⟨9, _⟩ => blk m c 9 t
    | ⟨10, _⟩ => blk m c 10 t
    | ⟨11, _⟩ => blk m c 11 t
    | ⟨12, _⟩ => blk m c 12 t
    | ⟨13, _⟩ => stored (xfill m c t filler) (blk m c 1 t) (blk m c 2 t) (blk m c 3 t) (blk m c 4 t) (blk m c 5 t) (blk m c 6 t) (blk m c 7 t) (blk m c 8 t) (blk m c 9 t) (blk m c 10 t) (blk m c 11 t) (blk m c 12 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = xfill m c t filler := by dsimp only [dats]
theorem after_1 (c : Dev nD) (t : Fin cfg0.N) : (dats m 0 c).after 1 t = blk m c 1 t := by dsimp only [dats]
theorem after_2 (c : Dev nD) (t : Fin cfg0.N) : (dats m 0 c).after 2 t = blk m c 2 t := by dsimp only [dats]
theorem after_3 (c : Dev nD) (t : Fin cfg0.N) : (dats m 0 c).after 3 t = blk m c 3 t := by dsimp only [dats]
theorem after_4 (c : Dev nD) (t : Fin cfg0.N) : (dats m 0 c).after 4 t = blk m c 4 t := by dsimp only [dats]
theorem after_5 (c : Dev nD) (t : Fin cfg0.N) : (dats m 0 c).after 5 t = blk m c 5 t := by dsimp only [dats]
theorem after_6 (c : Dev nD) (t : Fin cfg0.N) : (dats m 0 c).after 6 t = blk m c 6 t := by dsimp only [dats]
theorem after_7 (c : Dev nD) (t : Fin cfg0.N) : (dats m 0 c).after 7 t = blk m c 7 t := by dsimp only [dats]
theorem after_8 (c : Dev nD) (t : Fin cfg0.N) : (dats m 0 c).after 8 t = blk m c 8 t := by dsimp only [dats]
theorem after_9 (c : Dev nD) (t : Fin cfg0.N) : (dats m 0 c).after 9 t = blk m c 9 t := by dsimp only [dats]
theorem after_10 (c : Dev nD) (t : Fin cfg0.N) : (dats m 0 c).after 10 t = blk m c 10 t := by dsimp only [dats]
theorem after_11 (c : Dev nD) (t : Fin cfg0.N) : (dats m 0 c).after 11 t = blk m c 11 t := by dsimp only [dats]
theorem after_12 (c : Dev nD) (t : Fin cfg0.N) : (dats m 0 c).after 12 t = blk m c 12 t := by dsimp only [dats]
theorem after_13 (c : Dev nD) (t : Fin cfg0.N) :
    (dats m 0 c).after 13 t = stored (xfill m c t filler) (blk m c 1 t) (blk m c 2 t) (blk m c 3 t) (blk m c 4 t) (blk m c 5 t) (blk m c 6 t) (blk m c 7 t) (blk m c 8 t) (blk m c 9 t) (blk m c 10 t) (blk m c 11 t) (blk m c 12 t) := by dsimp only [dats]

/-! ## What the body finds in each input buffer -/

/-- Two points with one block index of the activations' window are one point: its index is the point. -/
theorem index0_inj : ∀ t t' : Fin cfg0.N, (cfg0.win 0).index t = (cfg0.win 0).index t' → t = t' :=
  (by decide +kernel : ∀ t t' : Fin grid0.N, win0_0.index t = win0_0.index t' → t = t')

/-- The activations' buffer, fetched at every point, holds block `t` filled out with whatever it held. -/
theorem before_0 (c : Dev nD) (t : Fin cfg0.N) (d) : (dats m 0 c).before 0 t d = xfill m c t d :=
  ((dats m 0 c).before_in_eq_fetched 0 rfl (fun _ => rfl)
      (fun t t' h => by obtain rfl := index0_inj t t' h; rfl)
      (fun t => by rw [after_0]; unfold Dat.blockOf xfill blk; rw [A_eq]; exact win0_0.cut_fill _ _ _) t d).trans
    (by unfold Dat.fetched Dat.blockOf xfill blk; rw [A_eq]; try rfl)

/-- Parameter window 1's buffer holds its block at every point: fetched at the first, kept since. -/
theorem before_1 (c : Dev nD) (t : Fin cfg0.N) (d) : (dats m 0 c).before 1 t d = blk m c 1 t :=
  ((dats m 0 c).before_in_eq_fetched 1 rfl (fun _ => rfl) (fun _ _ _ => rfl)
      (fun t => by rw [after_1]; unfold Dat.blockOf blk; rw [A_eq]; try rfl) t d).trans
    (by unfold Dat.fetched Dat.blockOf blk; rw [A_eq]; try rfl)
/-- Parameter window 2's buffer holds its block at every point: fetched at the first, kept since. -/
theorem before_2 (c : Dev nD) (t : Fin cfg0.N) (d) : (dats m 0 c).before 2 t d = blk m c 2 t :=
  ((dats m 0 c).before_in_eq_fetched 2 rfl (fun _ => rfl) (fun _ _ _ => rfl)
      (fun t => by rw [after_2]; unfold Dat.blockOf blk; rw [A_eq]; try rfl) t d).trans
    (by unfold Dat.fetched Dat.blockOf blk; rw [A_eq]; try rfl)
/-- Parameter window 3's buffer holds its block at every point: fetched at the first, kept since. -/
theorem before_3 (c : Dev nD) (t : Fin cfg0.N) (d) : (dats m 0 c).before 3 t d = blk m c 3 t :=
  ((dats m 0 c).before_in_eq_fetched 3 rfl (fun _ => rfl) (fun _ _ _ => rfl)
      (fun t => by rw [after_3]; unfold Dat.blockOf blk; rw [A_eq]; try rfl) t d).trans
    (by unfold Dat.fetched Dat.blockOf blk; rw [A_eq]; try rfl)
/-- Parameter window 4's buffer holds its block at every point: fetched at the first, kept since. -/
theorem before_4 (c : Dev nD) (t : Fin cfg0.N) (d) : (dats m 0 c).before 4 t d = blk m c 4 t :=
  ((dats m 0 c).before_in_eq_fetched 4 rfl (fun _ => rfl) (fun _ _ _ => rfl)
      (fun t => by rw [after_4]; unfold Dat.blockOf blk; rw [A_eq]; try rfl) t d).trans
    (by unfold Dat.fetched Dat.blockOf blk; rw [A_eq]; try rfl)
/-- Parameter window 5's buffer holds its block at every point: fetched at the first, kept since. -/
theorem before_5 (c : Dev nD) (t : Fin cfg0.N) (d) : (dats m 0 c).before 5 t d = blk m c 5 t :=
  ((dats m 0 c).before_in_eq_fetched 5 rfl (fun _ => rfl) (fun _ _ _ => rfl)
      (fun t => by rw [after_5]; unfold Dat.blockOf blk; rw [A_eq]; try rfl) t d).trans
    (by unfold Dat.fetched Dat.blockOf blk; rw [A_eq]; try rfl)
/-- Parameter window 6's buffer holds its block at every point: fetched at the first, kept since. -/
theorem before_6 (c : Dev nD) (t : Fin cfg0.N) (d) : (dats m 0 c).before 6 t d = blk m c 6 t :=
  ((dats m 0 c).before_in_eq_fetched 6 rfl (fun _ => rfl) (fun _ _ _ => rfl)
      (fun t => by rw [after_6]; unfold Dat.blockOf blk; rw [A_eq]; try rfl) t d).trans
    (by unfold Dat.fetched Dat.blockOf blk; rw [A_eq]; try rfl)
/-- Parameter window 7's buffer holds its block at every point: fetched at the first, kept since. -/
theorem before_7 (c : Dev nD) (t : Fin cfg0.N) (d) : (dats m 0 c).before 7 t d = blk m c 7 t :=
  ((dats m 0 c).before_in_eq_fetched 7 rfl (fun _ => rfl) (fun _ _ _ => rfl)
      (fun t => by rw [after_7]; unfold Dat.blockOf blk; rw [A_eq]; try rfl) t d).trans
    (by unfold Dat.fetched Dat.blockOf blk; rw [A_eq]; try rfl)
/-- Parameter window 8's buffer holds its block at every point: fetched at the first, kept since. -/
theorem before_8 (c : Dev nD) (t : Fin cfg0.N) (d) : (dats m 0 c).before 8 t d = blk m c 8 t :=
  ((dats m 0 c).before_in_eq_fetched 8 rfl (fun _ => rfl) (fun _ _ _ => rfl)
      (fun t => by rw [after_8]; unfold Dat.blockOf blk; rw [A_eq]; try rfl) t d).trans
    (by unfold Dat.fetched Dat.blockOf blk; rw [A_eq]; try rfl)
/-- Parameter window 9's buffer holds its block at every point: fetched at the first, kept since. -/
theorem before_9 (c : Dev nD) (t : Fin cfg0.N) (d) : (dats m 0 c).before 9 t d = blk m c 9 t :=
  ((dats m 0 c).before_in_eq_fetched 9 rfl (fun _ => rfl) (fun _ _ _ => rfl)
      (fun t => by rw [after_9]; unfold Dat.blockOf blk; rw [A_eq]; try rfl) t d).trans
    (by unfold Dat.fetched Dat.blockOf blk; rw [A_eq]; try rfl)
/-- Parameter window 10's buffer holds its block at every point: fetched at the first, kept since. -/
theorem before_10 (c : Dev nD) (t : Fin cfg0.N) (d) : (dats m 0 c).before 10 t d = blk m c 10 t :=
  ((dats m 0 c).before_in_eq_fetched 10 rfl (fun _ => rfl) (fun _ _ _ => rfl)
      (fun t => by rw [after_10]; unfold Dat.blockOf blk; rw [A_eq]; try rfl) t d).trans
    (by unfold Dat.fetched Dat.blockOf blk; rw [A_eq]; try rfl)
/-- Parameter window 11's buffer holds its block at every point: fetched at the first, kept since. -/
theorem before_11 (c : Dev nD) (t : Fin cfg0.N) (d) : (dats m 0 c).before 11 t d = blk m c 11 t :=
  ((dats m 0 c).before_in_eq_fetched 11 rfl (fun _ => rfl) (fun _ _ _ => rfl)
      (fun t => by rw [after_11]; unfold Dat.blockOf blk; rw [A_eq]; try rfl) t d).trans
    (by unfold Dat.fetched Dat.blockOf blk; rw [A_eq]; try rfl)
/-- Parameter window 12's buffer holds its block at every point: fetched at the first, kept since. -/
theorem before_12 (c : Dev nD) (t : Fin cfg0.N) (d) : (dats m 0 c).before 12 t d = blk m c 12 t :=
  ((dats m 0 c).before_in_eq_fetched 12 rfl (fun _ => rfl) (fun _ _ _ => rfl)
      (fun t => by rw [after_12]; unfold Dat.blockOf blk; rw [A_eq]; try rfl) t d).trans
    (by unfold Dat.fetched Dat.blockOf blk; rw [A_eq]; try rfl)

/-- The activations' buffer, handed back holding block `t` filled out with `d0`, is the proof data's contents
    restated on the columns inside the array: cutting what the proof data names gives the block back. -/
theorem leaves_0 (c : Dev nD) (t : Fin cfg0.N) (d0 : S9x16384.Idx → Elt F .f32) :
    (owns (c : Thread nD τ) (stage0_0 (cfg0.slots t 0)) fullShare (xfill m c t d0) : sProp 𝕄)
      ⊢ iprop(∃ d, owns (c : Thread nD τ) (stage0_0 (cfg0.slots t 0)) fullShare
          (win0_0.fill (grid0.coords t) d (win0_0.cut (grid0.coords t) ((dats m 0 c).after 0 t)))) := by
  rw [after_0, show win0_0.cut (grid0.coords t) (xfill m c t filler) = blk m c 0 t from win0_0.cut_fill _ _ _]
  unfold xfill
  iintro H; iexists d0; iexact H

/-! ## The body obligation, the output window forgotten -/

/-- Only the output window is forgotten. -/
abbrev forgetOut : Fin 14 → Bool := fun | 0 => false | 1 => false | 2 => false | 3 => false | 4 => false | 5 => false | 6 => false | 7 => false | 8 => false | 9 => false | 10 => false | 11 => false | 12 => false | 13 => true | ⟨_ + 14, h⟩ => absurd h (Nat.not_lt.2 (Nat.le_add_left _ _))

/-- At every point the body, handed each input buffer at its block (the activations' filled out with some `d`) and
    the output buffer at anything, hands every input buffer back as it was — the activations' restated on the columns
    inside the array, which is all its loose window asks — and the output buffer at something. -/
theorem body_obligation_forgetful (c : Dev nD) :
    BodyObligationLoose (dats (F := F) m 0 c) (defs₀ (F := F)) Variants.none () Set.univ forgetOut := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%X, H13⟩⟩
  rw [before_0 m c t d0, before_1 m c t d1, before_2 m c t d2, before_3 m c t d3, before_4 m c t d4, before_5 m c t d5, before_6 m c t d6, before_7 m c t d7, before_8 m c t d8, before_9 m c t d9, before_10 m c t d10, before_11 m c t d11, before_12 m c t d12]
  iapply (sound_kernel (F := F) c Set.univ (grid0.coords t) _ _ _ _ _ _ _ _ _ _ _ _ _ _ _ _ _ _ _ _ _ _ _ _ _ _ _ _
    (xfill m c t d0) (blk m c 1 t) (blk m c 2 t) (blk m c 3 t) (blk m c 4 t) (blk m c 5 t) (blk m c 6 t) (blk m c 7 t) (blk m c 8 t) (blk m c 9 t) (blk m c 10 t) (blk m c 11 t) (blk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]
  · iapply (leaves_0 (F := F) m c t d0); iexact H0
  isplitl [H1]; · rw [after_1]; iexact H1
  isplitl [H2]; · rw [after_2]; iexact H2
  isplitl [H3]; · rw [after_3]; iexact H3
  isplitl [H4]; · rw [after_4]; iexact H4
  isplitl [H5]; · rw [after_5]; iexact H5
  isplitl [H6]; · rw [after_6]; iexact H6
  isplitl [H7]; · rw [after_7]; iexact H7
  isplitl [H8]; · rw [after_8]; iexact H8
  isplitl [H9]; · rw [after_9]; iexact H9
  isplitl [H10]; · rw [after_10]; iexact H10
  isplitl [H11]; · rw [after_11]; iexact H11
  isplitl [H12]; · rw [after_12]; iexact H12
  iexists _; iexact H13

/-! ## The run and the frame -/

/-- The proof data read as a relation, the output window's contents left unsaid. -/
abbrev rdats (c : Dev nD) : RDat τ (Elt F) Unit ℕ (UR sig nD τ) ℕ cfg0 c := (dats m 0 c).toRForget forgetOut

set_option backward.isDefEq.respectTransparency.types false in
/-- From any memory with zero counters every weakly fair execution of @main terminates without a fault, and every
    buffer outside the region's arrays and outside the nine the later host lines write ends as the region found it. -/
theorem run_forgetful : θ_run defs (onTc (τ := τ) (main (F := F))) (s₀ m ρ)
    (Pipeline.RDat.FramePostR cfg0 (rdats m) tailWritten (fun c b => V0 m c (Proc.devRef .tc b))) :=
  Pipeline.RDat.θ_run_frame_around_T cfgs (0 : Fin 1) launch0 defs₀ Variants.none (rdats m) tailWritten m ρ main
    (hbody := fun c => (body_obligation_forgetful m c).toRForget)
    (hshare := fun c => (rdats m c).share_full fun _ => rfl)
    (howed := fun _ _ => rfl) (V₀ := V0 m) (opss := [hostOps1]) (hsub := sfx_sub) (hfresh := sfx_fresh) (hkeep := sfx_keeps)
    (hT := sfx_written) (hmain := hmain m Variants.none) (hA := A_eq m) (hΦ := fun _ _ => rfl)

/-- The frame: the program runs to its end without a fault and leaves its eleven argument arrays as given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of_forgetful m ρ (rdats m) (run_forgetful m ρ)

end Cert.KernelIdeal.Hand

end
-- ==== Proof.RowNet.lean ====
/-
  The mathematics both programs compute, for ONE row of the batch, on the extended reals.

  A row `x` of nine numbers goes through a dense network 9 → 30 → 30 → 30 → 1 with the leaky rectifier
  `z ↦ if z > 0 then z else s · z` between the layers (`s` the f32 nearest 0.01), giving one number `out`; and the
  gradient of `out` with respect to `x` is propagated back through the same three rectifiers, whose derivative is
  `1` where the pre-activation is positive and `s` elsewhere.  Every sum is a finite sum over a layer's width and
  every product is of two extended reals, so the definitions need no finiteness: on the extended reals addition and
  multiplication are commutative and associative, which is all that rearranging these sums uses.
-/
import Idealize.ShloMosaic.PureOps.Ideal
import Idealize.ShloMosaic.PureOps.Ideal.Laws
import Idealize.ShloMosaic.Lib.ValueIdx

noncomputable section

namespace Cert.RowNet

open Idealize.ShloMosaic

/-- The three scalars the programs spell as f32 words: zero, the rectifier's slope, one. -/
def zero : EReal := Ideal.ofBits .f32 0x00000000#32
def slope : EReal := Ideal.ofBits .f32 0x3C23D70A#32
def one : EReal := Ideal.ofBits .f32 0x3F800000#32

/-- The leaky rectifier: `z` where `z > 0`, `slope · z` elsewhere. -/
def leaky (z : EReal) : EReal := Scalar.select (Ideal.cmp .ogt z zero) z (slope * z)
/-- Its derivative: `1` where `z > 0`, `slope` elsewhere. -/
def dleaky (z : EReal) : EReal := Scalar.select (Ideal.cmp .ogt z zero) one slope

/-- The network's parameters: three hidden layers' weights (input-major: `W k j` multiplies input `k` into unit `j`)
    and biases, and the output unit's weights and bias. -/
structure Net where
  W1 : Fin 9 → Fin 30 → EReal
  b1 : Fin 30 → EReal
  W2 : Fin 30 → Fin 30 → EReal
  b2 : Fin 30 → EReal
  W3 : Fin 30 → Fin 30 → EReal
  b3 : Fin 30 → EReal
  W4 : Fin 30 → EReal
  b4 : EReal

variable (N : Net) (x : Fin 9 → EReal)

/-- The three layers' pre-activations. -/
def z1 (j : Fin 30) : EReal := (∑ k : Fin 9, x k * N.W1 k j) + N.b1 j
def z2 (j : Fin 30) : EReal := (∑ i : Fin 30, leaky (z1 N x i) * N.W2 i j) + N.b2 j
def z3 (j : Fin 30) : EReal := (∑ i : Fin 30, leaky (z2 N x i) * N.W3 i j) + N.b3 j
/-- The network's value on the row. -/
def out : EReal := (∑ i : Fin 30, leaky (z3 N x i) * N.W4 i) + N.b4

/-- The gradient of `out` with respect to each layer's pre-activation, last layer first. -/
def g3 (j : Fin 30) : EReal := N.W4 j * dleaky (z3 N x j)
def g2 (i : Fin 30) : EReal := (∑ j : Fin 30, g3 N x j * N.W3 i j) * dleaky (z2 N x i)
def g1 (i : Fin 30) : EReal := (∑ j : Fin 30, g2 N x j * N.W2 i j) * dleaky (z1 N x i)
/-- The gradient of `out` with respect to the row's nine entries. -/
def gx (k : Fin 9) : EReal := ∑ j : Fin 30, g1 N x j * N.W1 k j

/-! ## The arrays the programs are given, and the four results as functions of them -/

open ValueIdx

/-- A matrix and a vector of extended reals over literal extents. -/
abbrev Mat (a b : Nat) : Type := (⟨2, ![a, b]⟩ : Shape).Idx → EReal
abbrev Vect (a : Nat) : Type := (⟨1, ![a]⟩ : Shape).Idx → EReal
abbrev Cube (a b c : Nat) : Type := (⟨3, ![a, b, c]⟩ : Shape).Idx → EReal

/-- The network whose parameters are the eight parameter arrays, read entry by entry. -/
def netOf (w1 : Mat 9 30) (b1 : Vect 30) (w2 : Mat 30 30) (b2 : Vect 30) (w3 : Mat 30 30) (b3 : Vect 30)
    (w4 : Mat 30 1) (b4 : Vect 1) : Net where
  W1 k j := w1 (ix2 k j)
  b1 j := b1 (ix1 j)
  W2 i j := w2 (ix2 i j)
  b2 j := b2 (ix1 j)
  W3 i j := w3 (ix2 i j)
  b3 j := b3 (ix1 j)
  W4 i := w4 (ix2 i 0)
  b4 := b4 (ix1 0)

/-- Row `n` of the batch: its four `pe` entries, its one `q` entry, its four `s` entries, side by side. -/
def rowOf (pe : Mat 1000000 4) (q : Mat 1000000 1) (s : Mat 1000000 4) (n : Fin 1000000) (k : Fin 9) : EReal :=
  if h : k.val < 4 then pe (ix2 n ⟨k.val, h⟩)
  else if k.val = 4 then q (ix2 n 0)
  else s (ix2 n ⟨k.val - 5, by omega⟩)

section Results

variable (pe : Mat 1000000 4) (q : Mat 1000000 1) (s : Mat 1000000 4)
  (w1 : Mat 9 30) (b1 : Vect 30) (w2 : Mat 30 30) (b2 : Vect 30) (w3 : Mat 30 30) (b3 : Vect 30) (w4 : Mat 30 1) (b4 : Vect 1)

/-- The first result: the network's value on every row. -/
def resOut : Mat 1000000 1 := fun i => out (netOf w1 b1 w2 b2 w3 b3 w4 b4) (rowOf pe q s (i 0))
/-- The gradient's entries 0‥3 (with respect to `pe`), 4 (with respect to `q`) and 5‥8 (with respect to `s`). -/
def resPe : Cube 1000000 1 4 := fun i =>
  gx (netOf w1 b1 w2 b2 w3 b3 w4 b4) (rowOf pe q s (i 0)) ⟨(i 2).val, lt_of_lt_of_le (i 2).isLt (by decide)⟩
def resQ : Cube 1000000 1 1 := fun i =>
  gx (netOf w1 b1 w2 b2 w3 b3 w4 b4) (rowOf pe q s (i 0)) ⟨4, by decide⟩
def resS : Cube 1000000 1 4 := fun i =>
  gx (netOf w1 b1 w2 b2 w3 b3 w4 b4) (rowOf pe q s (i 0)) ⟨5 + (i 2).val, by have := (i 2).isLt; have h4 : (⟨3, ![1000000, 1, 4]⟩ : Shape).size 2 = 4 := rfl; omega⟩

end Results

end Cert.RowNet

end
-- ==== Proof.PackedValue.lean ====
/-
  The block the kernel body stores, read entry by entry, is the row-wise specification applied to one batch column.

  The body works feature-major: the activations' block has one column per batch row, every weight matrix multiplies
  from the left (weight × activation), and each bias is a column broadcast along the batch axis.  The specification
  works on one row and multiplies activation × weight.  On the extended reals the two agree term by term: a matrix
  product into a zero accumulator is, at row `p` and column `q`, the finite sum over the contracted axis of the
  products of the two operands' entries; commuting each product turns the kernel's sum into the specification's; the
  narrowing between layers is the identity; and the rectifier and its derivative are the same selection on the same
  comparison with the zero word.  No finiteness and no distributivity is used: only commutativity of multiplication
  and the shapes of the sums.

  The order below: the product at coordinates (once for any extents, then for the four products of the body); the
  column broadcast and the two-block stack at coordinates; the rectifier and its derivative at an index; one lemma per
  stage of the body (three pre-activations, the output row, the gradient through the three rectifiers, the stacked
  rows); and the theorem, for an arbitrary network tied to the loaded blocks entry by entry.
-/
import proofs.«149670_j23579370455607_2_alg».proof.Proof.PackedIdeal
import proofs.«149670_j23579370455607_2_alg».proof.Proof.RowNet
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PackedValue

open Cert.KernelIdeal Cert.KernelIdeal.Gen Idealize.ShloMosaic Idealize.ShloMosaic.ValueIdx

/-! ## A plain matrix product into the zero accumulator, read at coordinates -/

/-- A product of an `m × K` by a `K × n` block whose dimension numbers contract the left operand's second axis
    against the right operand's first, accumulated into zero, is at row `p` and column `q` the sum over `k` of the
    left operand at `(p, k)` times the right operand at `(k, q)`. -/
theorem matmul_zero_ix2 {m K n : Nat} {φ₁ φ₂ : FTy}
    (D : DotDims (⟨2, ![m, K]⟩ : Shape) (⟨2, ![K, n]⟩ : Shape) (⟨2, ![m, n]⟩ : Shape))
    (hr : D.contr.rank = 1) (hs : D.contr.size ⟨0, by omega⟩ = K)
    (hlc : D.lhsContracting = [1]) (hrc : D.rhsContracting = [0])
    (hl0 : ∀ j k, (D.lhsIdx j k 0).val = (j 0).val) (hr1 : ∀ j k, (D.rhsIdx j k 1).val = (j 1).val)
    (lhs : FVec Ideal (⟨2, ![m, K]⟩ : Shape) φ₁) (rhs : FVec Ideal (⟨2, ![K, n]⟩ : Shape) φ₂) (p : Fin m) (q : Fin n) :
    matmul D none lhs rhs (constant (F := Ideal) (⟨2, ![m, n]⟩ : Shape) .f32 0x00000000#32) (ix2 p q)
      = ∑ k : Fin K, lhs (ix2 p k) * rhs (ix2 k q) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact hr1 _ _)
  rw [el, er]

/-- The first layer's product: a `30 × 9` block by a `9 × 16384` block. -/
theorem matmul_30x9 {φ₁ φ₂ : FTy} (lhs : FVec Ideal S30x9 φ₁) (rhs : FVec Ideal S9x16384 φ₂) (p : Fin 30) (q : Fin 16384) :
    matmul dot_S30x9_S9x16384_S30x16384_1_0_0_1_n_n none lhs rhs (constant (F := Ideal) S30x16384 .f32 0x00000000#32) (ix2 p q)
      = ∑ k : Fin 9, lhs (ix2 p k) * rhs (ix2 k q) :=
  matmul_zero_ix2 dot_S30x9_S9x16384_S30x16384_1_0_0_1_n_n rfl rfl rfl rfl
    (fun j k => by
      unfold DotDims.lhsIdx
      rw [dif_neg (show ¬(0 : Fin S30x9.rank) ∈ dot_S30x9_S9x16384_S30x16384_1_0_0_1_n_n.lhsBatch by decide),
        dif_pos (show (0 : Fin S30x9.rank) ∈ dot_S30x9_S9x16384_S30x16384_1_0_0_1_n_n.lhsNonContracting by decide)]
      rfl)
    (fun j k => by
      unfold DotDims.rhsIdx
      rw [dif_neg (show ¬(1 : Fin S9x16384.rank) ∈ dot_S30x9_S9x16384_S30x16384_1_0_0_1_n_n.rhsBatch by decide),
        dif_pos (show (1 : Fin S9x16384.rank) ∈ dot_S30x9_S9x16384_S30x16384_1_0_0_1_n_n.rhsNonContracting by decide)]
      rfl)
    lhs rhs p q

/-- A hidden layer's product, forward or backward: a `30 × 30` block by a `30 × 16384` block. -/
theorem matmul_30x30 {φ₁ φ₂ : FTy} (lhs : FVec Ideal S30x30 φ₁) (rhs : FVec Ideal S30x16384 φ₂) (p : Fin 30) (q : Fin 16384) :
    matmul dot_S30x30_S30x16384_S30x16384_1_0_0_1_n_n none lhs rhs (constant (F := Ideal) S30x16384 .f32 0x00000000#32) (ix2 p q)
      = ∑ k : Fin 30, lhs (ix2 p k) * rhs (ix2 k q) :=
  matmul_zero_ix2 dot_S30x30_S30x16384_S30x16384_1_0_0_1_n_n rfl rfl rfl rfl
    (fun j k => by
      unfold DotDims.lhsIdx
      rw [dif_neg (show ¬(0 : Fin S30x30.rank) ∈ dot_S30x30_S30x16384_S30x16384_1_0_0_1_n_n.lhsBatch by decide),
        dif_pos (show (0 : Fin S30x30.rank) ∈ dot_S30x30_S30x16384_S30x16384_1_0_0_1_n_n.lhsNonContracting by decide)]
      rfl)
    (fun j k => by
      unfold DotDims.rhsIdx
      rw [dif_neg (show ¬(1 : Fin S30x16384.rank) ∈ dot_S30x30_S30x16384_S30x16384_1_0_0_1_n_n.rhsBatch by decide),
        dif_pos (show (1 : Fin S30x16384.rank) ∈ dot_S30x30_S30x16384_S30x16384_1_0_0_1_n_n.rhsNonContracting by decide)]
      rfl)
    lhs rhs p q

/-- The output unit's product: a `1 × 30` row by a `30 × 16384` block. -/
theorem matmul_1x30 {φ₁ φ₂ : FTy} (lhs : FVec Ideal S1x30 φ₁) (rhs : FVec Ideal S30x16384 φ₂) (p : Fin 1) (q : Fin 16384) :
    matmul dot_S1x30_S30x16384_S1x16384_1_0_0_1_n_n none lhs rhs (constant (F := Ideal) S1x16384 .f32 0x00000000#32) (ix2 p q)
      = ∑ k : Fin 30, lhs (ix2 p k) * rhs (ix2 k q) :=
  matmul_zero_ix2 dot_S1x30_S30x16384_S1x16384_1_0_0_1_n_n rfl rfl rfl rfl
    (fun j k => by
      unfold DotDims.lhsIdx
      rw [dif_neg (show ¬(0 : Fin S1x30.rank) ∈ dot_S1x30_S30x16384_S1x16384_1_0_0_1_n_n.lhsBatch by decide),
        dif_pos (show (0 : Fin S1x30.rank) ∈ dot_S1x30_S30x16384_S1x16384_1_0_0_1_n_n.lhsNonContracting by decide)]
      rfl)
    (fun j k => by
      unfold DotDims.rhsIdx
      rw [dif_neg (show ¬(1 : Fin S30x16384.rank) ∈ dot_S1x30_S30x16384_S1x16384_1_0_0_1_n_n.rhsBatch by decide),
        dif_pos (show (1 : Fin S30x16384.rank) ∈ dot_S1x30_S30x16384_S1x16384_1_0_0_1_n_n.rhsNonContracting by decide)]
      rfl)
    lhs rhs p q

/-- The input gradient's product: a `9 × 30` block by a `30 × 16384` block. -/
theorem matmul_9x30 {φ₁ φ₂ : FTy} (lhs : FVec Ideal S9x30 φ₁) (rhs : FVec Ideal S30x16384 φ₂) (p : Fin 9) (q : Fin 16384) :
    matmul dot_S9x30_S30x16384_S9x16384_1_0_0_1_n_n none lhs rhs (constant (F := Ideal) S9x16384 .f32 0x00000000#32) (ix2 p q)
      = ∑ k : Fin 30, lhs (ix2 p k) * rhs (ix2 k q) :=
  matmul_zero_ix2 dot_S9x30_S30x16384_S9x16384_1_0_0_1_n_n rfl rfl rfl rfl
    (fun j k => by
      unfold DotDims.lhsIdx
      rw [dif_neg (show ¬(0 : Fin S9x30.rank) ∈ dot_S9x30_S30x16384_S9x16384_1_0_0_1_n_n.lhsBatch by decide),
        dif_pos (show (0 : Fin S9x30.rank) ∈ dot_S9x30_S30x16384_S9x16384_1_0_0_1_n_n.lhsNonContracting by decide)]
      rfl)
    (fun j k => by
      unfold DotDims.rhsIdx
      rw [dif_neg (show ¬(1 : Fin S30x16384.rank) ∈ dot_S9x30_S30x16384_S9x16384_1_0_0_1_n_n.rhsBatch by decide),
        dif_pos (show (1 : Fin S30x16384.rank) ∈ dot_S9x30_S30x16384_S9x16384_1_0_0_1_n_n.rhsNonContracting by decide)]
      rfl)
    lhs rhs p q

/-! ## A column broadcast along the batch axis, and the two stacked blocks, read at coordinates -/

/-- An `[a, 1]` column broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The stack of a one-row block on a nine-row block reads its row `0` from the one-row block. -/
theorem stack_zero {α : Type} (u : S1x16384.Idx → α) (w : S9x16384.Idx → α) (q : Fin 16384) :
    concatenate S10x16384 0 [⟨S1x16384, u⟩, ⟨S9x16384, w⟩] concatenates_S1x16384_S9x16384_S10x16384_d0 (ix2 (0 : Fin 10) q)
      = u (ix2 (0 : Fin 1) q) :=
  concatenate_pair_apply_left 0 u w concatenates_S1x16384_S9x16384_S10x16384_d0 (ix2 (0 : Fin 10) q) rfl (ix2 (0 : Fin 1) q)
    (fun b => match b with
      | ⟨0, _⟩ => rfl
      | ⟨1, _⟩ => rfl)

/-- The same stack reads its row `k + 1` from the nine-row block's row `k`. -/
theorem stack_succ {α : Type} (u : S1x16384.Idx → α) (w : S9x16384.Idx → α) (k : Fin 9) (q : Fin 16384) :
    concatenate S10x16384 0 [⟨S1x16384, u⟩, ⟨S9x16384, w⟩] concatenates_S1x16384_S9x16384_S10x16384_d0 (ix2 k.succ q)
      = w (ix2 k q) :=
  concatenate_pair_apply_right 0 u w concatenates_S1x16384_S9x16384_S10x16384_d0 (ix2 k.succ q) rfl rfl (ix2 k q)
    (fun b => match b with
      | ⟨0, _⟩ => fun hb => absurd rfl hb
      | ⟨1, _⟩ => fun _ => rfl)
    (by show k.val + 1 = k.succ.val; rw [Fin.val_succ])

/-! ## The rectifier and its derivative, read at an index -/

/-- The kernel's rectifier (compare with the zero word, scale by the slope word, select, and the identity narrowing)
    is the specification's `leaky` of the entry. -/
theorem leaky_apply {s : Shape} (v : FVec Ideal s .f32) (i : s.Idx) :
    (truncf .bf16 (select (cmpf .ogt v (broadcast s (Scalar.ofBits (F := Ideal) .f32 0x00000000#32))) v
      (mulf (broadcast s (Scalar.ofBits (F := Ideal) .f32 0x3C23D70A#32)) v)) bitsLt_bf16_f32 : FVec Ideal s .bf16) i
      = RowNet.leaky (v i) := rfl

/-- The kernel's rectifier derivative (compare with the zero word, select the one word or the slope word) is the
    specification's `dleaky` of the entry. -/
theorem dleaky_apply {s : Shape} (v : FVec Ideal s .f32) (i : s.Idx) :
    (select (cmpf .ogt v (broadcast s (Scalar.ofBits (F := Ideal) .f32 0x00000000#32)))
      (broadcast s (Scalar.ofBits (F := Ideal) .f32 0x3F800000#32))
      (broadcast s (Scalar.ofBits (F := Ideal) .f32 0x3C23D70A#32)) : FVec Ideal s .f32) i
      = RowNet.dleaky (v i) := rfl

/-! ## The payloads at coordinates -/

/-- The first pre-activation: unit `j` of batch column `q`. -/
theorem pay2_apply (N : RowNet.Net) (x0 : Vec Ideal S9x16384 .f32) (a1 : Vec Ideal S30x9 .bf16) (a2 : Vec Ideal S30x1 .f32)
    (h1 : ∀ (j : Fin 30) (k : Fin 9), a1 (ix2 j k) = N.W1 k j) (h2 : ∀ j : Fin 30, a2 (ix2 j 0) = N.b1 j)
    (j : Fin 30) (q : Fin 16384) :
    k0_pay2 (F := Ideal) x0 a1 a2 (ix2 j q) = RowNet.z1 N (fun k => x0 (ix2 k q)) j := by
  unfold k0_pay2
  simp only [shapeCast_self]
  rw [addf_apply, matmul_30x9, broadcastTo_a1_ab_apply, h2]
  unfold RowNet.z1
  refine congrArg (· + N.b1 j) (Finset.sum_congr rfl fun k _ => ?_)
  rw [truncf_apply, h1, mul_comm]

/-- The second pre-activation. -/
theorem pay3_apply (N : RowNet.Net) (x0 : Vec Ideal S9x16384 .f32) (a1 : Vec Ideal S30x9 .bf16) (a2 : Vec Ideal S30x1 .f32)
    (a3 : Vec Ideal S30x30 .bf16) (a4 : Vec Ideal S30x1 .f32)
    (h1 : ∀ (j : Fin 30) (k : Fin 9), a1 (ix2 j k) = N.W1 k j) (h2 : ∀ j : Fin 30, a2 (ix2 j 0) = N.b1 j)
    (h3 : ∀ j i : Fin 30, a3 (ix2 j i) = N.W2 i j) (h4 : ∀ j : Fin 30, a4 (ix2 j 0) = N.b2 j)
    (j : Fin 30) (q : Fin 16384) :
    k0_pay3 (F := Ideal) x0 a1 a2 a3 a4 (ix2 j q) = RowNet.z2 N (fun k => x0 (ix2 k q)) j := by
  unfold k0_pay3
  simp only [shapeCast_self]
  rw [addf_apply, matmul_30x30, broadcastTo_a1_ab_apply, h4]
  unfold RowNet.z2
  refine congrArg (· + N.b2 j) (Finset.sum_congr rfl fun i _ => ?_)
  rw [leaky_apply, pay2_apply N x0 a1 a2 h1 h2, h3, mul_comm]

/-- The third pre-activation. -/
theorem pay4_apply (N : RowNet.Net) (x0 : Vec Ideal S9x16384 .f32) (a1 : Vec Ideal S30x9 .bf16) (a2 : Vec Ideal S30x1 .f32)
    (a3 : Vec Ideal S30x30 .bf16) (a4 : Vec Ideal S30x1 .f32) (a5 : Vec Ideal S30x30 .bf16) (a6 : Vec Ideal S30x1 .f32)
    (h1 : ∀ (j : Fin 30) (k : Fin 9), a1 (ix2 j k) = N.W1 k j) (h2 : ∀ j : Fin 30, a2 (ix2 j 0) = N.b1 j)
    (h3 : ∀ j i : Fin 30, a3 (ix2 j i) = N.W2 i j) (h4 : ∀ j : Fin 30, a4 (ix2 j 0) = N.b2 j)
    (h5 : ∀ j i : Fin 30, a5 (ix2 j i) = N.W3 i j) (h6 : ∀ j : Fin 30, a6 (ix2 j 0) = N.b3 j)
    (j : Fin 30) (q : Fin 16384) :
    k0_pay4 (F := Ideal) x0 a1 a2 a3 a4 a5 a6 (ix2 j q) = RowNet.z3 N (fun k => x0 (ix2 k q)) j := by
  unfold k0_pay4
  simp only [shapeCast_self]
  rw [addf_apply, matmul_30x30, broadcastTo_a1_ab_apply, h6]
  unfold RowNet.z3
  refine congrArg (· + N.b3 j) (Finset.sum_congr rfl fun i _ => ?_)
  rw [leaky_apply, pay3_apply N x0 a1 a2 a3 a4 h1 h2 h3 h4, h5, mul_comm]

/-- The output row, from any third pre-activation block `v`: the rectified column of `v` against the last weights. -/
theorem pay6_apply (N : RowNet.Net) (v : FVec Ideal S30x16384 .f32) (a7 : Vec Ideal S1x30 .bf16) (a8 : Vec Ideal S1x1 .f32)
    (h7 : ∀ i : Fin 30, a7 (ix2 0 i) = N.W4 i) (h8 : a8 (ix2 0 0) = N.b4) (q : Fin 16384) :
    k0_pay6 (F := Ideal) v (k0_pay5 (F := Ideal)) a7 a8 (ix2 (0 : Fin 1) q)
      = (∑ i : Fin 30, RowNet.leaky (v (ix2 i q)) * N.W4 i) + N.b4 := by
  unfold k0_pay6 k0_pay5
  simp only [shapeCast_self]
  rw [addf_apply, matmul_1x30, broadcastTo_a1_ab_apply, h8]
  refine congrArg (· + N.b4) (Finset.sum_congr rfl fun i _ => ?_)
  rw [leaky_apply, h7, mul_comm]

/-- The first rectifier's derivative, from any first pre-activation block `v`. -/
theorem pay8_apply (v : FVec Ideal S30x16384 .f32) (i : S30x16384.Idx) :
    k0_pay8 (F := Ideal) v i = RowNet.dleaky (v i) := rfl

/-- The gradient at the second pre-activation, from any second and third pre-activation blocks `u`, `v`. -/
theorem pay7_apply (N : RowNet.Net) (u v : FVec Ideal S30x16384 .f32) (a12 : Vec Ideal S30x1 .f32) (a11 : Vec Ideal S30x30 .bf16)
    (h11 : ∀ i j : Fin 30, a11 (ix2 i j) = N.W3 i j) (h12 : ∀ j : Fin 30, a12 (ix2 j 0) = N.W4 j)
    (i : Fin 30) (q : Fin 16384) :
    k0_pay7 (F := Ideal) u v a12 a11 (ix2 i q)
      = (∑ j : Fin 30, (N.W4 j * RowNet.dleaky (v (ix2 j q))) * N.W3 i j) * RowNet.dleaky (u (ix2 i q)) := by
  unfold k0_pay7
  simp only [shapeCast_self]
  rw [truncf_apply, mulf_apply, matmul_30x30, dleaky_apply]
  refine congrArg (· * RowNet.dleaky (u (ix2 i q))) (Finset.sum_congr rfl fun j _ => ?_)
  rw [truncf_apply, mulf_apply, broadcastTo_a1_ab_apply, dleaky_apply, h11, h12, mul_comm]

/-- The stored block's row `0` is the output row. -/
theorem pay1_zero (v48 : FVec Ideal S1x16384 .f32) (v68 : FVec Ideal S30x16384 .bf16) (v73 : FVec Ideal S30x16384 .f32)
    (a10 : Vec Ideal S30x30 .bf16) (a9 : Vec Ideal S9x30 .bf16) (q : Fin 16384) :
    k0_pay1 (F := Ideal) v48 v68 v73 a10 a9 (ix2 (0 : Fin 10) q) = v48 (ix2 (0 : Fin 1) q) := by
  unfold k0_pay1
  simp only [shapeCast_self]
  rw [stack_zero]

/-- The stored block's row `k + 1`: the gradient block `v68` pushed back through the second weights, the first
    rectifier's derivative `v73` and the first weights. -/
theorem pay1_succ (N : RowNet.Net) (v48 : FVec Ideal S1x16384 .f32) (v68 : FVec Ideal S30x16384 .bf16) (v73 : FVec Ideal S30x16384 .f32)
    (a10 : Vec Ideal S30x30 .bf16) (a9 : Vec Ideal S9x30 .bf16)
    (h9 : ∀ (k : Fin 9) (j : Fin 30), a9 (ix2 k j) = N.W1 k j) (h10 : ∀ i j : Fin 30, a10 (ix2 i j) = N.W2 i j)
    (k : Fin 9) (q : Fin 16384) :
    k0_pay1 (F := Ideal) v48 v68 v73 a10 a9 (ix2 k.succ q)
      = ∑ j : Fin 30, ((∑ i : Fin 30, v68 (ix2 i q) * N.W2 j i) * v73 (ix2 j q)) * N.W1 k j := by
  unfold k0_pay1
  simp only [shapeCast_self]
  rw [stack_succ, matmul_9x30]
  refine Finset.sum_congr rfl fun j _ => ?_
  rw [truncf_apply, mulf_apply, matmul_30x30, h9, mul_comm]
  refine congrArg (fun t => t * v73 (ix2 j q) * N.W1 k j) (Finset.sum_congr rfl fun i _ => ?_)
  rw [h10, mul_comm]

/-! ## The stored block is the specification applied to the batch column -/

/-- For a network `N` whose parameters the loaded blocks hold (the forward weights output-major, the backward weights
    input-major, the biases and the last weights as columns), the stored block's row `0` at batch column `q` is the
    network's value on that column, and its row `k + 1` is the gradient's entry `k`. -/
theorem packed_apply (N : RowNet.Net) (x0 : Vec Ideal S9x16384 .f32) (a1 : Vec Ideal S30x9 .bf16) (a2 : Vec Ideal S30x1 .f32)
    (a3 : Vec Ideal S30x30 .bf16) (a4 : Vec Ideal S30x1 .f32) (a5 : Vec Ideal S30x30 .bf16) (a6 : Vec Ideal S30x1 .f32)
    (a7 : Vec Ideal S1x30 .bf16) (a8 : Vec Ideal S1x1 .f32) (a9 : Vec Ideal S9x30 .bf16) (a10 a11 : Vec Ideal S30x30 .bf16)
    (a12 : Vec Ideal S30x1 .f32)
    (h1 : ∀ (j : Fin 30) (k : Fin 9), a1 (ix2 j k) = N.W1 k j) (h2 : ∀ j : Fin 30, a2 (ix2 j 0) = N.b1 j)
    (h3 : ∀ j i : Fin 30, a3 (ix2 j i) = N.W2 i j) (h4 : ∀ j : Fin 30, a4 (ix2 j 0) = N.b2 j)
    (h5 : ∀ j i : Fin 30, a5 (ix2 j i) = N.W3 i j) (h6 : ∀ j : Fin 30, a6 (ix2 j 0) = N.b3 j)
    (h7 : ∀ i : Fin 30, a7 (ix2 0 i) = N.W4 i) (h8 : a8 (ix2 0 0) = N.b4)
    (h9 : ∀ (k : Fin 9) (j : Fin 30), a9 (ix2 k j) = N.W1 k j) (h10 : ∀ i j : Fin 30, a10 (ix2 i j) = N.W2 i j)
    (h11 : ∀ i j : Fin 30, a11 (ix2 i j) = N.W3 i j) (h12 : ∀ j : Fin 30, a12 (ix2 j 0) = N.W4 j)
    (q : Fin 16384) :
    Hand.packed (F := Ideal) x0 a1 a2 a3 a4 a5 a6 a7 a8 a9 a10 a11 a12 (ix2 (0 : Fin 10) q)
        = RowNet.out N (fun k => x0 (ix2 k q))
      ∧ ∀ k : Fin 9, Hand.packed (F := Ideal) x0 a1 a2 a3 a4 a5 a6 a7 a8 a9 a10 a11 a12 (ix2 k.succ q)
        = RowNet.gx N (fun k' => x0 (ix2 k' q)) k := by
  have e2 := pay2_apply N x0 a1 a2 h1 h2
  have e3 := pay3_apply N x0 a1 a2 a3 a4 h1 h2 h3 h4
  have e4 := pay4_apply N x0 a1 a2 a3 a4 a5 a6 h1 h2 h3 h4 h5 h6
  unfold Hand.packed
  refine ⟨?_, fun k => ?_⟩
  · rw [pay1_zero, pay6_apply N _ a7 a8 h7 h8]
    unfold RowNet.out
    refine congrArg (· + N.b4) (Finset.sum_congr rfl fun i _ => ?_)
    rw [e4]
  · rw [pay1_succ N _ _ _ a10 a9 h9 h10]
    unfold RowNet.gx
    refine Finset.sum_congr rfl fun j _ => ?_
    unfold RowNet.g1
    rw [pay8_apply, e2]
    refine congrArg (fun t => t * RowNet.dleaky (RowNet.z1 N (fun k' => x0 (ix2 k' q)) j) * N.W1 k j)
      (Finset.sum_congr rfl fun i _ => ?_)
    rw [pay7_apply N _ _ a12 a11 h11 h12, e3]
    unfold RowNet.g2
    refine congrArg (fun t => t * RowNet.dleaky (RowNet.z2 N (fun k' => x0 (ix2 k' q)) i) * N.W2 j i)
      (Finset.sum_congr rfl fun l _ => ?_)
    rw [e4]
    rfl

end Cert.KernelIdeal.PackedValue

end
-- ==== Proof.ValueIdeal.lean ====
/-
  The idealized kernel's value.

  At the ideal values the body's stored block, read at feature row `r` and batch column `q` of block `t`, is the
  row network applied to batch row `n = 16384 · t + q`: entry 0 the network's value, entries 1‥9 the input gradient.
  It depends on the activations' buffer only through column `q`, and a column inside the array holds the array's
  own entries whatever filled the buffer past the array's end; so the part of the stored block that the write-back
  moves does not depend on that filler, which is what the clipped last block needs.  The 62 blocks' parts inside the
  array cover all 1,000,000 columns (block `t` holds columns 16384 · t up to the array's end or the next block), so
  the output array ends holding, at (r, n), the network's value (r = 0) or gradient entry r − 1 on batch row n; the
  later host lines transpose it back and cut it into the four results.
-/
import proofs.«149670_j23579370455607_2_alg».proof.Proof.DataIdeal
import proofs.«149670_j23579370455607_2_alg».proof.Proof.PackedValue
import proofs.«149670_j23579370455607_2_alg».proof.Proof.RowNet
import Idealize.ShloMosaic.Lib.Pipeline.Value
import Idealize.ShloMosaic.Lib.ValueIdx

set_option maxRecDepth 16384

noncomputable section

namespace Cert.KernelIdeal.Exact

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The network and the batch rows the program is given -/

/-- The network whose parameters are the eight parameter arrays as given. -/
def net (c : Dev nD) : RowNet.Net :=
  RowNet.netOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- Batch row `n` as given. -/
def rowAt (c : Dev nD) (n : Fin 1000000) : Fin 9 → EReal :=
  RowNet.rowOf (m ((c : Thread nD τ).loc main_arg0)) (m ((c : Thread nD τ).loc main_arg1)) (m ((c : Thread nD τ).loc main_arg2)) n

/-- Column `n` of the packed result: the network's value on batch row `n`, then its nine gradient entries. -/
def column (c : Dev nD) (n : Fin 1000000) (r : Fin (9 + 1)) : EReal :=
  Fin.cases (motive := fun _ => EReal) (RowNet.out (net m c) (rowAt m c n)) (fun k => RowNet.gx (net m c) (rowAt m c n) k) r

theorem column_zero (c : Dev nD) (n : Fin 1000000) (r : Fin (9 + 1)) (hr : r.val = 0) :
    column m c n r = RowNet.out (net m c) (rowAt m c n) := by
  obtain rfl : r = 0 := Fin.ext hr
  rfl
theorem column_succ (c : Dev nD) (n : Fin 1000000) (k : Fin 9) (r : Fin (9 + 1)) (hr : r.val = k.val + 1) :
    column m c n r = RowNet.gx (net m c) (rowAt m c n) k := by
  obtain rfl : r = k.succ := Fin.ext hr
  rfl
theorem column_congr (c : Dev nD) (n n' : Fin 1000000) (r r' : Fin (9 + 1)) (hn : n.val = n'.val) (hr : r.val = r'.val) :
    column m c n r = column m c n' r' := by
  obtain rfl : n = n' := Fin.ext hn
  obtain rfl : r = r' := Fin.ext hr
  rfl

/-- What the region finds in its thirteen input arrays: the feature-major activations hold the batch rows as
    columns; the forward weights are the parameters transposed, the biases and the last layer's weights columns;
    the backward weights are the parameters themselves. -/
structure Entry (c : Dev nD) : Prop where
  x   : ∀ (k : Fin 9) (n : Fin 1000000), (V m c main_v1 : S9x1000000.Idx → EReal) (ix2 k n) = rowAt m c n k
  w1t : ∀ (j : Fin 30) (k : Fin 9), (V m c main_v3 : S30x9.Idx → EReal) (ix2 j k) = (net m c).W1 k j
  b1  : ∀ j : Fin 30, (V m c main_v15 : S30x1.Idx → EReal) (ix2 j 0) = (net m c).b1 j
  w2t : ∀ j i : Fin 30, (V m c main_v5 : S30x30.Idx → EReal) (ix2 j i) = (net m c).W2 i j
  b2  : ∀ j : Fin 30, (V m c main_v16 : S30x1.Idx → EReal) (ix2 j 0) = (net m c).b2 j
  w3t : ∀ j i : Fin 30, (V m c main_v7 : S30x30.Idx → EReal) (ix2 j i) = (net m c).W3 i j
  b3  : ∀ j : Fin 30, (V m c main_v17 : S30x1.Idx → EReal) (ix2 j 0) = (net m c).b3 j
  w4t : ∀ i : Fin 30, (V m c main_v9 : S1x30.Idx → EReal) (ix2 0 i) = (net m c).W4 i
  b4  : (V m c main_v18 : S1x1.Idx → EReal) (ix2 0 0) = (net m c).b4
  w1  : ∀ (k : Fin 9) (j : Fin 30), (V m c main_v10 : S9x30.Idx → EReal) (ix2 k j) = (net m c).W1 k j
  w2  : ∀ i j : Fin 30, (V m c main_v11 : S30x30.Idx → EReal) (ix2 i j) = (net m c).W2 i j
  w3  : ∀ i j : Fin 30, (V m c main_v12 : S30x30.Idx → EReal) (ix2 i j) = (net m c).W3 i j
  w4c : ∀ j : Fin 30, (V m c main_v14 : S30x1.Idx → EReal) (ix2 j 0) = (net m c).W4 j

/-! ## The windows' index maps and cuts, decided over the 62 points -/

/-- The activations' and the output's block index is (0, t); their blocks keep every feature row, and of the 16384
    batch columns the part inside the array: all of them but for the last block's 576. -/
theorem moving_facts : ∀ t : Fin cfg0.N,
    win0_0.index t (0 : Fin 2) = 0 ∧ win0_0.index t (1 : Fin 2) = t.val
    ∧ win0_13.index t (0 : Fin 2) = 0 ∧ win0_13.index t (1 : Fin 2) = t.val
    ∧ win0_0.xsize (grid0.coords t) (0 : Fin 2) = 9 ∧ win0_13.xsize (grid0.coords t) (0 : Fin 2) = 10
    ∧ win0_0.xsize (grid0.coords t) (1 : Fin 2) = min 16384 (1000000 - t.val * 16384)
    ∧ win0_13.xsize (grid0.coords t) (1 : Fin 2) = min 16384 (1000000 - t.val * 16384) :=
  (by decide +kernel : ∀ t : Fin grid0.N, _)

/-- Every parameter window's block index is (0, 0) at every point. -/
theorem fixed_facts : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

theorem point_lt (t : Fin cfg0.N) : t.val < 62 := lt_of_lt_of_eq t.isLt N_0

/-! ## The blocks, read at an index -/

/-- Parameter window 1's block is its whole array. -/
theorem blk_1 (c : Dev nD) (t : Fin cfg0.N) (i : Fin 30) (j : Fin 9) :
    blk m c 1 t (ix2 i j) = (V m c main_v3 : S30x9.Idx → EReal) (ix2 i j) := by
  have hf := fixed_facts t
  show V m c main_v3 (((cfg0.win 1).blk t).view.emb (ix2 i j)) = V m c main_v3 (ix2 i j)
  refine congrArg _ (funext fun a => Fin.ext ?_)
  match a with
  | ⟨0, _⟩ => show win0_1.index t (0 : Fin 2) * 30 + 1 * i.val = i.val; omega
  | ⟨1, _⟩ => show win0_1.index t (1 : Fin 2) * 9 + 1 * j.val = j.val; omega
/-- Parameter window 2's block is its whole array. -/
theorem blk_2 (c : Dev nD) (t : Fin cfg0.N) (i : Fin 30) (j : Fin 1) :
    blk m c 2 t (ix2 i j) = (V m c main_v15 : S30x1.Idx → EReal) (ix2 i j) := by
  have hf := fixed_facts t
  show V m c main_v15 (((cfg0.win 2).blk t).view.emb (ix2 i j)) = V m c main_v15 (ix2 i j)
  refine congrArg _ (funext fun a => Fin.ext ?_)
  match a with
  | ⟨0, _⟩ => show win0_2.index t (0 : Fin 2) * 30 + 1 * i.val = i.val; omega
  | ⟨1, _⟩ => show win0_2.index t (1 : Fin 2) * 1 + 1 * j.val = j.val; omega
/-- Parameter window 3's block is its whole array. -/
theorem blk_3 (c : Dev nD) (t : Fin cfg0.N) (i : Fin 30) (j : Fin 30) :
    blk m c 3 t (ix2 i j) = (V m c main_v5 : S30x30.Idx → EReal) (ix2 i j) := by
  have hf := fixed_facts t
  show V m c main_v5 (((cfg0.win 3).blk t).view.emb (ix2 i j)) = V m c main_v5 (ix2 i j)
  refine congrArg _ (funext fun a => Fin.ext ?_)
  match a with
  | ⟨0, _⟩ => show win0_3.index t (0 : Fin 2) * 30 + 1 * i.val = i.val; omega
  | ⟨1, _⟩ => show win0_3.index t (1 : Fin 2) * 30 + 1 * j.val = j.val; omega
/-- Parameter window 4's block is its whole array. -/
theorem blk_4 (c : Dev nD) (t : Fin cfg0.N) (i : Fin 30) (j : Fin 1) :
    blk m c 4 t (ix2 i j) = (V m c main_v16 : S30x1.Idx → EReal) (ix2 i j) := by
  have hf := fixed_facts t
  show V m c main_v16 (((cfg0.win 4).blk t).view.emb (ix2 i j)) = V m c main_v16 (ix2 i j)
  refine congrArg _ (funext fun a => Fin.ext ?_)
  match a with
  | ⟨0, _⟩ => show win0_4.index t (0 : Fin 2) * 30 + 1 * i.val = i.val; omega
  | ⟨1, _⟩ => show win0_4.index t (1 : Fin 2) * 1 + 1 * j.val = j.val; omega
/-- Parameter window 5's block is its whole array. -/
theorem blk_5 (c : Dev nD) (t : Fin cfg0.N) (i : Fin 30) (j : Fin 30) :
    blk m c 5 t (ix2 i j) = (V m c main_v7 : S30x30.Idx → EReal) (ix2 i j) := by
  have hf := fixed_facts t
  show V m c main_v7 (((cfg0.win 5).blk t).view.emb (ix2 i j)) = V m c main_v7 (ix2 i j)
  refine congrArg _ (funext fun a => Fin.ext ?_)
  match a with
  | ⟨0, _⟩ => show win0_5.index t (0 : Fin 2) * 30 + 1 * i.val = i.val; omega
  | ⟨1, _⟩ => show win0_5.index t (1 : Fin 2) * 30 + 1 * j.val = j.val; omega
/-- Parameter window 6's block is its whole array. -/
theorem blk_6 (c : Dev nD) (t : Fin cfg0.N) (i : Fin 30) (j : Fin 1) :
    blk m c 6 t (ix2 i j) = (V m c main_v17 : S30x1.Idx → EReal) (ix2 i j) := by
  have hf := fixed_facts t
  show V m c main_v17 (((cfg0.win 6).blk t).view.emb (ix2 i j)) = V m c main_v17 (ix2 i j)
  refine congrArg _ (funext fun a => Fin.ext ?_)
  match a with
  | ⟨0, _⟩ => show win0_6.index t (0 : Fin 2) * 30 + 1 * i.val = i.val; omega
  | ⟨1, _⟩ => show win0_6.index t (1 : Fin 2) * 1 + 1 * j.val = j.val; omega
/-- Parameter window 7's block is its whole array. -/
theorem blk_7 (c : Dev nD) (t : Fin cfg0.N) (i : Fin 1) (j : Fin 30) :
    blk m c 7 t (ix2 i j) = (V m c main_v9 : S1x30.Idx → EReal) (ix2 i j) := by
  have hf := fixed_facts t
  show V m c main_v9 (((cfg0.win 7).blk t).view.emb (ix2 i j)) = V m c main_v9 (ix2 i j)
  refine congrArg _ (funext fun a => Fin.ext ?_)
  match a with
  | ⟨0, _⟩ => show win0_7.index t (0 : Fin 2) * 1 + 1 * i.val = i.val; omega
  | ⟨1, _⟩ => show win0_7.index t (1 : Fin 2) * 30 + 1 * j.val = j.val; omega
/-- Parameter window 8's block is its whole array. -/
theorem blk_8 (c : Dev nD) (t : Fin cfg0.N) (i : Fin 1) (j : Fin 1) :
    blk m c 8 t (ix2 i j) = (V m c main_v18 : S1x1.Idx → EReal) (ix2 i j) := by
  have hf := fixed_facts t
  show V m c main_v18 (((cfg0.win 8).blk t).view.emb (ix2 i j)) = V m c main_v18 (ix2 i j)
  refine congrArg _ (funext fun a => Fin.ext ?_)
  match a with
  | ⟨0, _⟩ => show win0_8.index t (0 : Fin 2) * 1 + 1 * i.val = i.val; omega
  | ⟨1, _⟩ => show win0_8.index t (1 : Fin 2) * 1 + 1 * j.val = j.val; omega
/-- Parameter window 9's block is its whole array. -/
theorem blk_9 (c : Dev nD) (t : Fin cfg0.N) (i : Fin 9) (j : Fin 30) :
    blk m c 9 t (ix2 i j) = (V m c main_v10 : S9x30.Idx → EReal) (ix2 i j) := by
  have hf := fixed_facts t
  show V m c main_v10 (((cfg0.win 9).blk t).view.emb (ix2 i j)) = V m c main_v10 (ix2 i j)
  refine congrArg _ (funext fun a => Fin.ext ?_)
  match a with
  | ⟨0, _⟩ => show win0_9.index t (0 : Fin 2) * 9 + 1 * i.val = i.val; omega
  | ⟨1, _⟩ => show win0_9.index t (1 : Fin 2) * 30 + 1 * j.val = j.val; omega
/-- Parameter window 10's block is its whole array. -/
theorem blk_10 (c : Dev nD) (t : Fin cfg0.N) (i : Fin 30) (j : Fin 30) :
    blk m c 10 t (ix2 i j) = (V m c main_v11 : S30x30.Idx → EReal) (ix2 i j) := by
  have hf := fixed_facts t
  show V m c main_v11 (((cfg0.win 10).blk t).view.emb (ix2 i j)) = V m c main_v11 (ix2 i j)
  refine congrArg _ (funext fun a => Fin.ext ?_)
  match a with
  | ⟨0, _⟩ => show win0_10.index t (0 : Fin 2) * 30 + 1 * i.val = i.val; omega
  | ⟨1, _⟩ => show win0_10.index t (1 : Fin 2) * 30 + 1 * j.val = j.val; omega
/-- Parameter window 11's block is its whole array. -/
theorem blk_11 (c : Dev nD) (t : Fin cfg0.N) (i : Fin 30) (j : Fin 30) :
    blk m c 11 t (ix2 i j) = (V m c main_v12 : S30x30.Idx → EReal) (ix2 i j) := by
  have hf := fixed_facts t
  show V m c main_v12 (((cfg0.win 11).blk t).view.emb (ix2 i j)) = V m c main_v12 (ix2 i j)
  refine congrArg _ (funext fun a => Fin.ext ?_)
  match a with
  | ⟨0, _⟩ => show win0_11.index t (0 : Fin 2) * 30 + 1 * i.val = i.val; omega
  | ⟨1, _⟩ => show win0_11.index t (1 : Fin 2) * 30 + 1 * j.val = j.val; omega
/-- Parameter window 12's block is its whole array. -/
theorem blk_12 (c : Dev nD) (t : Fin cfg0.N) (i : Fin 30) (j : Fin 1) :
    blk m c 12 t (ix2 i j) = (V m c main_v14 : S30x1.Idx → EReal) (ix2 i j) := by
  have hf := fixed_facts t
  show V m c main_v14 (((cfg0.win 12).blk t).view.emb (ix2 i j)) = V m c main_v14 (ix2 i j)
  refine congrArg _ (funext fun a => Fin.ext ?_)
  match a with
  | ⟨0, _⟩ => show win0_12.index t (0 : Fin 2) * 30 + 1 * i.val = i.val; omega
  | ⟨1, _⟩ => show win0_12.index t (1 : Fin 2) * 1 + 1 * j.val = j.val; omega

set_option maxRecDepth 400000 in
/-- The activations' block at point `t`, at feature row `k` and a column inside the array, is the feature-major
    activations at (k, 16384 · t + that column). -/
theorem blk_0 (c : Dev nD) (t : Fin cfg0.N) (y : (win0_0.xblock (grid0.coords t)).Idx) (k : Fin 9) (n : Fin 1000000)
    (hk : (y 0).val = k.val) (hn : t.val * 16384 + (y 1).val = n.val) :
    blk m c 0 t y = (V m c main_v1 : S9x1000000.Idx → EReal) (ix2 k n) := by
  obtain ⟨e0, e1, -⟩ := moving_facts t
  show V m c main_v1 (((cfg0.win 0).blk t).view.emb y) = V m c main_v1 (ix2 k n)
  refine congrArg _ (funext fun a => Fin.ext ?_)
  match a with
  | ⟨0, _⟩ => show win0_0.index t (0 : Fin 2) * 9 + 1 * (y 0).val = k.val; omega
  | ⟨1, _⟩ => show win0_0.index t (1 : Fin 2) * 16384 + 1 * (y 1).val = n.val; omega

/-- The activations' buffer at a column inside the array holds the array's entry, whatever fills the rest. -/
theorem xfill_inside (c : Dev nD) (t : Fin cfg0.N) (d : S9x16384.Idx → Elt Ideal .f32) (k : Fin 9) (q : Fin 16384)
    (hq : q.val < win0_0.xsize (grid0.coords t) (1 : Fin 2)) (n : Fin 1000000) (hn : t.val * 16384 + q.val = n.val) :
    xfill m c t d (ix2 k q) = (V m c main_v1 : S9x1000000.Idx → EReal) (ix2 k n) := by
  obtain ⟨-, -, -, -, e4, -⟩ := moving_facts t
  have hm : win0_0.moved (grid0.coords t) (ix2 k q) = true := (win0_0.moved_iff _ _).mpr fun a => by
    match a with
    | ⟨0, _⟩ => show k.val < win0_0.xsize (grid0.coords t) (0 : Fin 2); omega
    | ⟨1, _⟩ => exact hq
  unfold xfill Window.fill
  rw [dif_pos hm]
  exact blk_0 m c t _ k n rfl hn

/-! ## The stored block at an index inside the array -/

theorem offsets_zero : (![0, 0] : Fin 2 → Nat) = fun _ => 0 := funext fun a => by fin_cases a <;> rfl

/-- One store covering the buffer leaves its payload, and whole loads read the buffers' contents: the stored block is
    the packed value of the thirteen buffers' contents. -/
theorem stored_eq (x0 : Vec Ideal S9x16384 .f32) (a1 : Vec Ideal S30x9 .bf16) (a2 : Vec Ideal S30x1 .f32) (a3 : Vec Ideal S30x30 .bf16) (a4 : Vec Ideal S30x1 .f32) (a5 : Vec Ideal S30x30 .bf16) (a6 : Vec Ideal S30x1 .f32) (a7 : Vec Ideal S1x30 .bf16) (a8 : Vec Ideal S1x1 .f32) (a9 : Vec Ideal S9x30 .bf16) (a10 : Vec Ideal S30x30 .bf16) (a11 : Vec Ideal S30x30 .bf16) (a12 : Vec Ideal S30x1 .f32) :
    stored (F := Ideal) x0 a1 a2 a3 a4 a5 a6 a7 a8 a9 a10 a11 a12 = packed x0 a1 a2 a3 a4 a5 a6 a7 a8 a9 a10 a11 a12 := by
  unfold stored
  rw [View.canon_unit_zero offsets_zero]
  simp only [View.ld_unit_zero (S := S9x16384) offsets_zero, View.ld_unit_zero (S := S30x9) offsets_zero, View.ld_unit_zero (S := S30x1) offsets_zero, View.ld_unit_zero (S := S30x30) offsets_zero, View.ld_unit_zero (S := S1x30) offsets_zero, View.ld_unit_zero (S := S1x1) offsets_zero, View.ld_unit_zero (S := S9x30) offsets_zero]

/-- The stored block at feature row `r` and a batch column inside the array is the packed column of that batch row:
    whatever fills the activations' buffer past the array's end. -/
theorem stored_inside (c : Dev nD) (E : Entry m c) (t : Fin cfg0.N) (d : S9x16384.Idx → Elt Ideal .f32) (r : Fin (9 + 1)) (q : Fin 16384)
    (hq : q.val < win0_0.xsize (grid0.coords t) (1 : Fin 2)) (n : Fin 1000000) (hn : t.val * 16384 + q.val = n.val) :
    stored (xfill m c t d) (blk m c 1 t) (blk m c 2 t) (blk m c 3 t) (blk m c 4 t) (blk m c 5 t) (blk m c 6 t) (blk m c 7 t) (blk m c 8 t) (blk m c 9 t) (blk m c 10 t) (blk m c 11 t) (blk m c 12 t) (ix2 r q) = column m c n r := by
  rw [stored_eq]
  have hx : (fun k : Fin 9 => xfill m c t d (ix2 k q)) = rowAt m c n :=
    funext fun k => (xfill_inside m c t d k q hq n hn).trans (E.x k n)
  obtain ⟨h0, hs⟩ := PackedValue.packed_apply (net m c) (xfill m c t d) (blk m c 1 t) (blk m c 2 t) (blk m c 3 t) (blk m c 4 t) (blk m c 5 t) (blk m c 6 t) (blk m c 7 t) (blk m c 8 t) (blk m c 9 t) (blk m c 10 t) (blk m c 11 t) (blk m c 12 t)
    (fun j k => (blk_1 m c t j k).trans (E.w1t j k)) (fun j => (blk_2 m c t j 0).trans (E.b1 j))
    (fun j i => (blk_3 m c t j i).trans (E.w2t j i)) (fun j => (blk_4 m c t j 0).trans (E.b2 j))
    (fun j i => (blk_5 m c t j i).trans (E.w3t j i)) (fun j => (blk_6 m c t j 0).trans (E.b3 j))
    (fun i => (blk_7 m c t 0 i).trans (E.w4t i)) ((blk_8 m c t 0 0).trans E.b4)
    (fun k j => (blk_9 m c t k j).trans (E.w1 k j)) (fun i j => (blk_10 m c t i j).trans (E.w2 i j))
    (fun i j => (blk_11 m c t i j).trans (E.w3 i j)) (fun j => (blk_12 m c t j 0).trans (E.w4c j)) q
  refine Fin.cases ?_ (fun k => ?_) r
  · rw [h0, hx]; rfl
  · rw [hs k, hx]; rfl

/-- The part of the stored block that the write-back at point `t` moves: at (r, q) the packed column of batch row
    16384 · t + q.  It does not mention the filler. -/
theorem cut_stored (c : Dev nD) (E : Entry m c) (t : Fin cfg0.N) (d : S9x16384.Idx → Elt Ideal .f32)
    (j : (win0_13.xblock (grid0.coords t)).Idx) (n : Fin 1000000) (r : Fin (9 + 1))
    (hn : t.val * 16384 + (j 1).val = n.val) (hr : (j 0).val = r.val) :
    win0_13.cut (grid0.coords t) (stored (xfill m c t d) (blk m c 1 t) (blk m c 2 t) (blk m c 3 t) (blk m c 4 t) (blk m c 5 t) (blk m c 6 t) (blk m c 7 t) (blk m c 8 t) (blk m c 9 t) (blk m c 10 t) (blk m c 11 t) (blk m c 12 t)) j = column m c n r := by
  obtain ⟨-, -, -, -, -, e5, e6, e7⟩ := moving_facts t
  have hj1 : (j 1).val < win0_13.xsize (grid0.coords t) (1 : Fin 2) := (j 1).isLt
  have hq : (j 1).val < 16384 := by omega
  show stored (xfill m c t d) (blk m c 1 t) (blk m c 2 t) (blk m c 3 t) (blk m c 4 t) (blk m c 5 t) (blk m c 6 t) (blk m c 7 t) (blk m c 8 t) (blk m c 9 t) (blk m c 10 t) (blk m c 11 t) (blk m c 12 t) (win0_13.xinj (grid0.coords t) j) = _
  have hix : win0_13.xinj (grid0.coords t) j = ix2 r ⟨(j 1).val, hq⟩ := funext fun a => Fin.ext (by
    match a with
    | ⟨0, _⟩ => exact hr
    | ⟨1, _⟩ => rfl)
  rw [hix]
  exact stored_inside m c E t d r ⟨(j 1).val, hq⟩ (by show (j 1).val < _; omega) n hn

/-! ## The body obligation, every window named -/

/-- The output buffer, handed back holding the stored value of what the body found, is the proof data's contents
    restated on the columns inside the array: on those columns the stored value does not depend on the filler. -/
theorem leaves_13 (c : Dev nD) (E : Entry m c) (t : Fin cfg0.N) (d0 : S9x16384.Idx → Elt Ideal .f32) :
    (owns (c : Thread nD τ) (stage0_13 (cfg0.slots t 13)) fullShare (stored (xfill m c t d0) (blk m c 1 t) (blk m c 2 t) (blk m c 3 t) (blk m c 4 t) (blk m c 5 t) (blk m c 6 t) (blk m c 7 t) (blk m c 8 t) (blk m c 9 t) (blk m c 10 t) (blk m c 11 t) (blk m c 12 t)) : sProp 𝕄)
      ⊢ iprop(∃ d, owns (c : Thread nD τ) (stage0_13 (cfg0.slots t 13)) fullShare
          (win0_13.fill (grid0.coords t) d (win0_13.cut (grid0.coords t) ((dats m 0 c).after 13 t)))) := by
  have hpt := point_lt t
  obtain ⟨-, -, -, -, -, e5, e6, e7⟩ := moving_facts t
  have hcut : win0_13.cut (grid0.coords t) ((dats m 0 c).after 13 t)
      = win0_13.cut (grid0.coords t) (stored (xfill m c t d0) (blk m c 1 t) (blk m c 2 t) (blk m c 3 t) (blk m c 4 t) (blk m c 5 t) (blk m c 6 t) (blk m c 7 t) (blk m c 8 t) (blk m c 9 t) (blk m c 10 t) (blk m c 11 t) (blk m c 12 t)) := by
    rw [after_13]
    funext j
    have hj0 : (j 0).val < win0_13.xsize (grid0.coords t) (0 : Fin 2) := (j 0).isLt
    have hj1 : (j 1).val < win0_13.xsize (grid0.coords t) (1 : Fin 2) := (j 1).isLt
    rw [cut_stored m c E t filler j ⟨t.val * 16384 + (j 1).val, by omega⟩ ⟨(j 0).val, by omega⟩ rfl rfl,
      cut_stored m c E t d0 j ⟨t.val * 16384 + (j 1).val, by omega⟩ ⟨(j 0).val, by omega⟩ rfl rfl]
  rw [hcut]
  iintro H
  iexists (stored (xfill m c t d0) (blk m c 1 t) (blk m c 2 t) (blk m c 3 t) (blk m c 4 t) (blk m c 5 t) (blk m c 6 t) (blk m c 7 t) (blk m c 8 t) (blk m c 9 t) (blk m c 10 t) (blk m c 11 t) (blk m c 12 t))
  rw [win0_13.fill_cut]
  iexact H

/-- At every point the body, handed each input buffer at its block (the activations' filled out with some `d`) and
    the output buffer at anything, hands every buffer back at what the proof data names, the two overhanging windows'
    restated on the columns inside the array. -/
theorem body_obligation_exact (c : Dev nD) (E : Entry m c) :
    BodyObligationLoose (dats (F := Ideal) m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  rw [before_0 m c t d0, before_1 m c t d1, before_2 m c t d2, before_3 m c t d3, before_4 m c t d4, before_5 m c t d5, before_6 m c t d6, before_7 m c t d7, before_8 m c t d8, before_9 m c t d9, before_10 m c t d10, before_11 m c t d11, before_12 m c t d12]
  iapply (sound_kernel (F := Ideal) c Set.univ (grid0.coords t) _ _ _ _ _ _ _ _ _ _ _ _ _ _ _ _ _ _ _ _ _ _ _ _ _ _ _ _
    (xfill m c t d0) (blk m c 1 t) (blk m c 2 t) (blk m c 3 t) (blk m c 4 t) (blk m c 5 t) (blk m c 6 t) (blk m c 7 t) (blk m c 8 t) (blk m c 9 t) (blk m c 10 t) (blk m c 11 t) (blk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]
  · iapply (leaves_0 (F := Ideal) m c t d0); iexact H0
  isplitl [H1]; · rw [after_1]; iexact H1
  isplitl [H2]; · rw [after_2]; iexact H2
  isplitl [H3]; · rw [after_3]; iexact H3
  isplitl [H4]; · rw [after_4]; iexact H4
  isplitl [H5]; · rw [after_5]; iexact H5
  isplitl [H6]; · rw [after_6]; iexact H6
  isplitl [H7]; · rw [after_7]; iexact H7
  isplitl [H8]; · rw [after_8]; iexact H8
  isplitl [H9]; · rw [after_9]; iexact H9
  isplitl [H10]; · rw [after_10]; iexact H10
  isplitl [H11]; · rw [after_11]; iexact H11
  isplitl [H12]; · rw [after_12]; iexact H12
  iapply (leaves_13 m c E t d0); iexact H13

/-! ## The output array after the run -/

/-- The packed result as one function of the arguments: at (r, n) entry `r` of batch row `n`'s packed column. -/
def packedAll (c : Dev nD) : S10x1000000.Idx → EReal := fun i =>
  column m c ⟨(i 1).val, (i 1).isLt⟩ ⟨(i 0).val, (i 0).isLt⟩

/-- What point `t` writes back is block `t` of the packed result. -/
theorem flushed_eq (c : Dev nD) (E : Entry m c) (t : Fin cfg0.N) :
    (dats m 0 c).flushed 13 t = ((cfg0.win 13).blk t).view.read (Elt Ideal) (packedAll m c) := by
  have hpt := point_lt t
  obtain ⟨-, -, e2, e3, -, e5, e6, e7⟩ := moving_facts t
  show (cfg0.win 13).cut (grid0.coords t) ((dats m 0 c).after 13 t) = _
  rw [after_13]
  funext j
  have hj0 : (j 0).val < win0_13.xsize (grid0.coords t) (0 : Fin 2) := (j 0).isLt
  have hj1 : (j 1).val < win0_13.xsize (grid0.coords t) (1 : Fin 2) := (j 1).isLt
  refine (cut_stored m c E t filler j ⟨t.val * 16384 + (j 1).val, by omega⟩ ⟨(j 0).val, by omega⟩ rfl rfl).trans ?_
  show _ = packedAll m c (((cfg0.win 13).blk t).view.emb j)
  unfold packedAll
  refine column_congr m c _ _ _ _ ?_ ?_
  · show t.val * 16384 + (j 1).val = win0_13.index t (1 : Fin 2) * 16384 + 1 * (j 1).val; omega
  · show (j 0).val = win0_13.index t (0 : Fin 2) * 10 + 1 * (j 0).val; omega

/-- An index of the output array is in point `t`'s block iff each coordinate is in the block's range, cut at the
    array's end. -/
theorem mem_blk13 (t : Fin cfg0.N) (i : S10x1000000.Idx) :
    i ∈ ((cfg0.win 13).blk t).view.set ↔ ∀ a : Fin 2, win0_13.index t a * S10x16384.size a ≤ (i a).val
      ∧ (i a).val < win0_13.index t a * S10x16384.size a + win0_13.xsize (grid0.coords t) a := by
  show i ∈ ((View.whole main_v19).slice (win0_13.rect t)).set ↔ _
  rw [View.set_slice_whole, Rect.mem_set_unit]
  exact Iff.rfl

/-- Every index of the output array is in the block of the point its column falls in. -/
theorem cover13 (i : S10x1000000.Idx) :
    ∃ t : Fin cfg0.N, (cfg0.win 13).flush t = true ∧ i ∈ ((cfg0.win 13).blk t).view.set := by
  have hi0 : (i 0).val < 10 := (i 0).isLt
  have hi1 : (i 1).val < 1000000 := (i 1).isLt
  have ht : (i 1).val / 16384 < cfg0.N := by rw [show cfg0.N = 62 from N_0]; omega
  refine ⟨⟨(i 1).val / 16384, ht⟩, flush0_13 _, ?_⟩
  obtain ⟨-, -, e2, e3, -, e5, e6, e7⟩ := moving_facts ⟨(i 1).val / 16384, ht⟩
  rw [mem_blk13]
  intro a
  match a with
  | ⟨0, _⟩ =>
    show win0_13.index ⟨(i 1).val / 16384, ht⟩ (0 : Fin 2) * 10 ≤ (i 0).val
      ∧ (i 0).val < win0_13.index ⟨(i 1).val / 16384, ht⟩ (0 : Fin 2) * 10 + win0_13.xsize (grid0.coords ⟨(i 1).val / 16384, ht⟩) (0 : Fin 2)
    omega
  | ⟨1, _⟩ =>
    show win0_13.index ⟨(i 1).val / 16384, ht⟩ (1 : Fin 2) * 16384 ≤ (i 1).val
      ∧ (i 1).val < win0_13.index ⟨(i 1).val / 16384, ht⟩ (1 : Fin 2) * 16384 + win0_13.xsize (grid0.coords ⟨(i 1).val / 16384, ht⟩) (1 : Fin 2)
    have e3' : win0_13.index ⟨(i 1).val / 16384, ht⟩ (1 : Fin 2) = (i 1).val / 16384 := e3
    have e7' : win0_13.xsize (grid0.coords ⟨(i 1).val / 16384, ht⟩) (1 : Fin 2) = min 16384 (1000000 - (i 1).val / 16384 * 16384) := e7
    omega

/-- The output array ends holding the packed result. -/
theorem final13 (c : Dev nD) (E : Entry m c) : (dats m 0 c).arrAt 13 cfg0.N = packedAll m c :=
  (dats m 0 c).arrAt_eq_of_cover 13 (packedAll m c) (fun t _ => flushed_eq m c E t) cover13

/-! ## The run -/

set_option backward.isDefEq.respectTransparency.types false in
/-- From any memory with zero counters every weakly fair execution of @main terminates without a fault, with every
    array of the region at what the proof data computes and every other buffer as the later host lines leave it. -/
theorem run_exact (E : ∀ c, Entry m c) : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation_exact m c (E c)) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.Exact

end
-- ==== Proof.HostValue.lean ====
/-
  The host lines of the program, read at an index, on the extended reals.

  Before the kernel region the program lays the batch's three input arrays side by side and transposes the result to
  feature-major, transposes and narrows the weights, and reshapes the biases to columns; after it, the packed result
  is transposed back and cut into the four results.  None of these lines does arithmetic: a concatenation, a
  transposition, a reshape and a slice each read one entry of their operand, and narrowing a float is the identity
  on the extended reals.  This module says which entry: every array the region is given, at an index, is an entry of
  an argument array as given; and each of the four results, at an index, is an entry of the region's output array.
-/
import proofs.«149670_j23579370455607_2_alg».proof.Proof.KitIdeal
import proofs.«149670_j23579370455607_2_alg».proof.Proof.RowNet
import Idealize.ShloMosaic.Lib.ValueIdx
import Idealize.ShloMosaic.Lib.Pipeline.Value
import Idealize.ShloMosaic.Lib.ValueLayout
import Idealize.ShloMosaic.Lib.StableHlo.Run
import Idealize.ShloMosaic.Lib.Pipeline.FrameSuffix

set_option maxRecDepth 16384

noncomputable section

namespace Cert.KernelIdeal.HostValue

open Cert.KernelIdeal Cert.KernelIdeal.Gen Cert.KernelIdeal.Hand
open Idealize.ShloMosaic Idealize.ShloMosaic.TcCoe Idealize.ShloMosaic.Tactic
open Idealize.ShloMosaic.StableHlo (after_cons after_nil)
open Idealize.ShloMosaic.ValueIdx

variable (m : (ℓ : Loc nD τ sig) → Buf (Elt Ideal) ℓ) (c : Dev nD)

/-! ## Layout steps at an index, for the shapes met here -/

section Layout
variable {α : Type}

/-- A vector cast to a one-column matrix reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A one-column matrix cast to a vector reads, at `i`, the matrix at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A matrix cast to a stack of one-row matrices reads, at `(i, u, j)`, the matrix at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Layout

/-! ## What the region finds in its thirteen input arrays -/

/-- Unfolds a buffer's contents at the region's entry to the host lines' term over the memory as given. -/
local macro "host_term" : tactic => `(tactic| (
  dsimp only [Cert.KernelIdeal.Hand.V, Cert.KernelIdeal.Hand.V0]
  simp only [Cert.KernelIdeal.Gen.hostOps0, List.flatten_cons, List.flatten_nil, List.append_nil]
  after_results
  try rfl))

/-- The first layer's weights, transposed: entry `(j, k)` is the given entry `(k, j)`. -/
theorem pre_w1t (j : Fin 30) (k : Fin 9) :
    (V m c main_v3 : S30x9.Idx → EReal) (ix2 j k) = (m ((c : Thread nD τ).loc main_arg3) : S9x30.Idx → EReal) (ix2 k j) := by
  have e : @Eq (S30x9.Idx → EReal) (V m c main_v3)
      (truncf (F := Ideal) .bf16 (transpose S30x9 [1, 0] (m ((c : Thread nD τ).loc main_arg3) : S9x30.Idx → EReal) transposes_S9x30_S30x9_1_0) bitsLt_bf16_f32) := by
    host_term
  rw [e, truncf_apply, transpose_ix2_apply]

/-- The second layer's weights, transposed. -/
theorem pre_w2t (j i : Fin 30) :
    (V m c main_v5 : S30x30.Idx → EReal) (ix2 j i) = (m ((c : Thread nD τ).loc main_arg5) : S30x30.Idx → EReal) (ix2 i j) := by
  have e : @Eq (S30x30.Idx → EReal) (V m c main_v5)
      (truncf (F := Ideal) .bf16 (transpose S30x30 [1, 0] (m ((c : Thread nD τ).loc main_arg5) : S30x30.Idx → EReal) transposes_S30x30_S30x30_1_0) bitsLt_bf16_f32) := by
    host_term
  rw [e, truncf_apply, transpose_ix2_apply]

/-- The third layer's weights, transposed. -/
theorem pre_w3t (j i : Fin 30) :
    (V m c main_v7 : S30x30.Idx → EReal) (ix2 j i) = (m ((c : Thread nD τ).loc main_arg7) : S30x30.Idx → EReal) (ix2 i j) := by
  have e : @Eq (S30x30.Idx → EReal) (V m c main_v7)
      (truncf (F := Ideal) .bf16 (transpose S30x30 [1, 0] (m ((c : Thread nD τ).loc main_arg7) : S30x30.Idx → EReal) transposes_S30x30_S30x30_1_0) bitsLt_bf16_f32) := by
    host_term
  rw [e, truncf_apply, transpose_ix2_apply]

/-- The output unit's weights, transposed to a row. -/
theorem pre_w4t (i : Fin 30) :
    (V m c main_v9 : S1x30.Idx → EReal) (ix2 0 i) = (m ((c : Thread nD τ).loc main_arg9) : S30x1.Idx → EReal) (ix2 i 0) := by
  have e : @Eq (S1x30.Idx → EReal) (V m c main_v9)
      (truncf (F := Ideal) .bf16 (transpose S1x30 [1, 0] (m ((c : Thread nD τ).loc main_arg9) : S30x1.Idx → EReal) transposes_S30x1_S1x30_1_0) bitsLt_bf16_f32) := by
    host_term
  rw [e, truncf_apply, transpose_ix2_apply]

/-- The three hidden layers' weights as given (narrowing is the identity on the extended reals). -/
theorem pre_w1 (k : Fin 9) (j : Fin 30) :
    (V m c main_v10 : S9x30.Idx → EReal) (ix2 k j) = (m ((c : Thread nD τ).loc main_arg3) : S9x30.Idx → EReal) (ix2 k j) := by
  have e : @Eq (S9x30.Idx → EReal) (V m c main_v10)
      (truncf (F := Ideal) .bf16 (m ((c : Thread nD τ).loc main_arg3) : S9x30.Idx → EReal) bitsLt_bf16_f32) := by
    host_term
  rw [e, truncf_apply]
theorem pre_w2 (i j : Fin 30) :
    (V m c main_v11 : S30x30.Idx → EReal) (ix2 i j) = (m ((c : Thread nD τ).loc main_arg5) : S30x30.Idx → EReal) (ix2 i j) := by
  have e : @Eq (S30x30.Idx → EReal) (V m c main_v11)
      (truncf (F := Ideal) .bf16 (m ((c : Thread nD τ).loc main_arg5) : S30x30.Idx → EReal) bitsLt_bf16_f32) := by
    host_term
  rw [e, truncf_apply]
theorem pre_w3 (i j : Fin 30) :
    (V m c main_v12 : S30x30.Idx → EReal) (ix2 i j) = (m ((c : Thread nD τ).loc main_arg7) : S30x30.Idx → EReal) (ix2 i j) := by
  have e : @Eq (S30x30.Idx → EReal) (V m c main_v12)
      (truncf (F := Ideal) .bf16 (m ((c : Thread nD τ).loc main_arg7) : S30x30.Idx → EReal) bitsLt_bf16_f32) := by
    host_term
  rw [e, truncf_apply]

/-- The output unit's weights, flattened to a vector and cast back to a column: the column as given. -/
theorem pre_w4c (j : Fin 30) :
    (V m c main_v14 : S30x1.Idx → EReal) (ix2 j 0) = (m ((c : Thread nD τ).loc main_arg9) : S30x1.Idx → EReal) (ix2 j 0) := by
  have e : @Eq (S30x1.Idx → EReal) (V m c main_v14)
      (shapeCast S30x1 (shapeCast S30 (m ((c : Thread nD τ).loc main_arg9) : S30x1.Idx → EReal) shapeCasts_S30x1_S30) shapeCasts_S30_S30x1) := by
    host_term
  rw [e, shapeCast_a_a1_apply, shapeCast_a1_a_apply]

/-- The three hidden layers' biases as columns. -/
theorem pre_b1 (j : Fin 30) :
    (V m c main_v15 : S30x1.Idx → EReal) (ix2 j 0) = (m ((c : Thread nD τ).loc main_arg4) : S30.Idx → EReal) (ix1 j) := by
  have e : @Eq (S30x1.Idx → EReal) (V m c main_v15)
      (shapeCast S30x1 (m ((c : Thread nD τ).loc main_arg4) : S30.Idx → EReal) shapeCasts_S30_S30x1) := by
    host_term
  rw [e, shapeCast_a_a1_apply]
theorem pre_b2 (j : Fin 30) :
    (V m c main_v16 : S30x1.Idx → EReal) (ix2 j 0) = (m ((c : Thread nD τ).loc main_arg6) : S30.Idx → EReal) (ix1 j) := by
  have e : @Eq (S30x1.Idx → EReal) (V m c main_v16)
      (shapeCast S30x1 (m ((c : Thread nD τ).loc main_arg6) : S30.Idx → EReal) shapeCasts_S30_S30x1) := by
    host_term
  rw [e, shapeCast_a_a1_apply]
theorem pre_b3 (j : Fin 30) :
    (V m c main_v17 : S30x1.Idx → EReal) (ix2 j 0) = (m ((c : Thread nD τ).loc main_arg8) : S30.Idx → EReal) (ix1 j) := by
  have e : @Eq (S30x1.Idx → EReal) (V m c main_v17)
      (shapeCast S30x1 (m ((c : Thread nD τ).loc main_arg8) : S30.Idx → EReal) shapeCasts_S30_S30x1) := by
    host_term
  rw [e, shapeCast_a_a1_apply]
/-- The output unit's bias as a one-entry matrix. -/
theorem pre_b4 :
    (V m c main_v18 : S1x1.Idx → EReal) (ix2 0 0) = (m ((c : Thread nD τ).loc main_arg10) : S1.Idx → EReal) (ix1 0) := by
  have e : @Eq (S1x1.Idx → EReal) (V m c main_v18)
      (shapeCast S1x1 (m ((c : Thread nD τ).loc main_arg10) : S1.Idx → EReal) shapeCasts_S1_S1x1) := by
    host_term
  rw [e, shapeCast_a_a1_apply]

/-- The batch, feature-major: entry `(k, n)` is entry `k` of row `n` of the three given arrays laid side by side. -/
theorem pre_x (k : Fin 9) (n : Fin 1000000) :
    (V m c main_v1 : S9x1000000.Idx → EReal) (ix2 k n)
      = Cert.RowNet.rowOf (m ((c : Thread nD τ).loc main_arg0)) (m ((c : Thread nD τ).loc main_arg1))
          (m ((c : Thread nD τ).loc main_arg2)) n k := by
  have e : @Eq (S9x1000000.Idx → EReal) (V m c main_v1)
      (transpose S9x1000000 [1, 0]
        (concatenate S1000000x9 1 [⟨S1000000x4, (m ((c : Thread nD τ).loc main_arg0) : S1000000x4.Idx → EReal)⟩,
          ⟨S1000000x1, (m ((c : Thread nD τ).loc main_arg1) : S1000000x1.Idx → EReal)⟩,
          ⟨S1000000x4, (m ((c : Thread nD τ).loc main_arg2) : S1000000x4.Idx → EReal)⟩]
          concatenates_S1000000x4_S1000000x1_S1000000x4_S1000000x9_d1)
        transposes_S1000000x9_S9x1000000_1_0) := by
    host_term
  rw [e, transpose_ix2_apply]
  unfold Cert.RowNet.rowOf
  have hk := k.isLt
  split
  · next h =>
    refine concatenate_apply_piece (1 : Fin 2) [⟨S1000000x4, _⟩, ⟨S1000000x1, _⟩, ⟨S1000000x4, _⟩] _ (ix2 n k) 0
      (by show (0 : ℕ) < 3; omega) S1000000x4 _ rfl rfl 0 ?_ (ix2 n ⟨k.val, h⟩) (fun b hb => ?_) ?_
    · first | rfl | decide | (simp; done)
    · match b with
      | ⟨0, _⟩ => rfl
      | ⟨1, _⟩ => exact absurd rfl hb
    · show 0 + k.val = k.val
      omega
  · next h =>
    split
    · next h4 =>
      refine concatenate_apply_piece (1 : Fin 2) [⟨S1000000x4, _⟩, ⟨S1000000x1, _⟩, ⟨S1000000x4, _⟩] _ (ix2 n k) 1
        (by show (1 : ℕ) < 3; omega) S1000000x1 _ rfl rfl 4 ?_ (ix2 n 0) (fun b hb => ?_) ?_
      · first | rfl | decide | (simp; done)
      · match b with
        | ⟨0, _⟩ => rfl
        | ⟨1, _⟩ => exact absurd rfl hb
      · show 4 + 0 = k.val
        omega
    · next h4 =>
      refine concatenate_apply_piece (1 : Fin 2) [⟨S1000000x4, _⟩, ⟨S1000000x1, _⟩, ⟨S1000000x4, _⟩] _ (ix2 n k) 2
        (by show (2 : ℕ) < 3; omega) S1000000x4 _ rfl rfl 5 ?_ (ix2 n ⟨k.val - 5, by omega⟩) (fun b hb => ?_) ?_
      · first | rfl | decide | (simp; done)
      · match b with
        | ⟨0, _⟩ => rfl
        | ⟨1, _⟩ => exact absurd rfl hb
      · show 5 + (k.val - 5) = k.val
        omega

/-! ## The four results from the region's output array -/

section Tail

variable (dats : (p : Fin 1) → (c : Dev nD) → Pipeline.Dat τ (Elt Ideal) Unit ℕ (UR sig nD τ) ℕ (cfgs p) c)

/-- When the region is left, its output array holds what the proof data say it holds after the last point. -/
theorem exit_out : @Eq (S10x1000000.Idx → EReal)
    (Pipeline.withArrays spec0 c (V0 m c) (fun w => (dats 0 c).arrAt w cfg0.N) (Proc.devRef .tc main_v19))
    ((dats 0 c).arrAt 13 cfg0.N) :=
  Pipeline.withArrays_arr spec0 launch0.win.arr_inj c _ _ 13

/-- Unfolds a buffer's contents after the later host lines to the lines' term over the region's exit contents. -/
local macro "tail_term" : tactic => `(tactic| (
  unfold Pipeline.afterTail₀
  simp only [Cert.KernelIdeal.Gen.hostOps1, List.flatten_cons, List.flatten_nil, List.append_nil]
  after_results
  try rfl))

/-- The first result: row `n`'s one entry is entry `(0, n)` of the output array. -/
theorem tail_out (n : Fin 1000000) :
    (Pipeline.afterTail₀ cfgs dats 0 (V0 m) [hostOps1] c main_v21 : S1000000x1.Idx → EReal) (ix2 n 0)
      = ((dats 0 c).arrAt 13 cfg0.N : S10x1000000.Idx → EReal) (ix2 0 n) := by
  have e : @Eq (S1000000x1.Idx → EReal) (Pipeline.afterTail₀ cfgs dats 0 (V0 m) [hostOps1] c main_v21)
      (extractStridedSlice S1000000x1 ![0, 0]
        (transpose S1000000x10 [1, 0]
          (Pipeline.withArrays spec0 c (V0 m c) (fun w => (dats 0 c).arrAt w cfg0.N) (Proc.devRef .tc main_v19) : S10x1000000.Idx → EReal)
          transposes_S10x1000000_S1000000x10_1_0)
        slices_S1000000x10_S1000000x1_0_0) := by
    tail_term
  rw [e, slice2_axis1_apply 0 _ _ n 0 (0 : Fin 10) rfl, transpose_ix2_apply, exit_out]

/-- The gradient's entries with respect to the first input array: entry `k` of row `n` is entry `(1 + k, n)` of the
    output array. -/
theorem tail_pe (n : Fin 1000000) (k : Fin 4) :
    (Pipeline.afterTail₀ cfgs dats 0 (V0 m) [hostOps1] c main_v24 : S1000000x1x4.Idx → EReal) (ix3 n 0 k)
      = ((dats 0 c).arrAt 13 cfg0.N : S10x1000000.Idx → EReal) (ix2 ⟨1 + k.val, by omega⟩ n) := by
  have e : @Eq (S1000000x1x4.Idx → EReal) (Pipeline.afterTail₀ cfgs dats 0 (V0 m) [hostOps1] c main_v24)
      (shapeCast S1000000x1x4
        (extractStridedSlice S1000000x4 ![0, 0]
          (extractStridedSlice S1000000x9 ![0, 1]
            (transpose S1000000x10 [1, 0]
              (Pipeline.withArrays spec0 c (V0 m c) (fun w => (dats 0 c).arrAt w cfg0.N) (Proc.devRef .tc main_v19) : S10x1000000.Idx → EReal)
              transposes_S10x1000000_S1000000x10_1_0)
            slices_S1000000x10_S1000000x9_0_1)
          slices_S1000000x9_S1000000x4_0_0)
        shapeCasts_S1000000x4_S1000000x1x4) := by
    tail_term
  have hk := k.isLt
  rw [e, shapeCast_ab_a1b_apply,
    slice2_axis1_apply 0 _ _ n k (⟨k.val, by omega⟩ : Fin 9) (by show k.val = 0 + k.val; omega),
    slice2_axis1_apply 1 _ _ n (⟨k.val, by omega⟩ : Fin 9) (⟨1 + k.val, by omega⟩ : Fin 10) rfl,
    transpose_ix2_apply, exit_out]

/-- The gradient's entry with respect to the second input array: row `n`'s is entry `(5, n)` of the output array. -/
theorem tail_q (n : Fin 1000000) :
    (Pipeline.afterTail₀ cfgs dats 0 (V0 m) [hostOps1] c main_v26 : S1000000x1x1.Idx → EReal) (ix3 n 0 0)
      = ((dats 0 c).arrAt 13 cfg0.N : S10x1000000.Idx → EReal) (ix2 5 n) := by
  have e : @Eq (S1000000x1x1.Idx → EReal) (Pipeline.afterTail₀ cfgs dats 0 (V0 m) [hostOps1] c main_v26)
      (shapeCast S1000000x1x1
        (extractStridedSlice S1000000x1 ![0, 4]
          (extractStridedSlice S1000000x9 ![0, 1]
            (transpose S1000000x10 [1, 0]
              (Pipeline.withArrays spec0 c (V0 m c) (fun w => (dats 0 c).arrAt w cfg0.N) (Proc.devRef .tc main_v19) : S10x1000000.Idx → EReal)
              transposes_S10x1000000_S1000000x10_1_0)
            slices_S1000000x10_S1000000x9_0_1)
          slices_S1000000x9_S1000000x1_0_4)
        shapeCasts_S1000000x1_S1000000x1x1) := by
    tail_term
  rw [e, shapeCast_ab_a1b_apply,
    slice2_axis1_apply 4 _ _ n 0 (4 : Fin 9) rfl,
    slice2_axis1_apply 1 _ _ n (4 : Fin 9) (5 : Fin 10) rfl,
    transpose_ix2_apply, exit_out]

/-- The gradient's entries with respect to the third input array: entry `k` of row `n` is entry `(6 + k, n)` of the
    output array. -/
theorem tail_s (n : Fin 1000000) (k : Fin 4) :
    (Pipeline.afterTail₀ cfgs dats 0 (V0 m) [hostOps1] c main_v28 : S1000000x1x4.Idx → EReal) (ix3 n 0 k)
      = ((dats 0 c).arrAt 13 cfg0.N : S10x1000000.Idx → EReal) (ix2 ⟨6 + k.val, by omega⟩ n) := by
  have e : @Eq (S1000000x1x4.Idx → EReal) (Pipeline.afterTail₀ cfgs dats 0 (V0 m) [hostOps1] c main_v28)
      (shapeCast S1000000x1x4
        (extractStridedSlice S1000000x4 ![0, 5]
          (extractStridedSlice S1000000x9 ![0, 1]
            (transpose S1000000x10 [1, 0]
              (Pipeline.withArrays spec0 c (V0 m c) (fun w => (dats 0 c).arrAt w cfg0.N) (Proc.devRef .tc main_v19) : S10x1000000.Idx → EReal)
              transposes_S10x1000000_S1000000x10_1_0)
            slices_S1000000x10_S1000000x9_0_1)
          slices_S1000000x9_S1000000x4_0_5)
        shapeCasts_S1000000x4_S1000000x1x4) := by
    tail_term
  have hk := k.isLt
  rw [e, shapeCast_ab_a1b_apply,
    slice2_axis1_apply 5 _ _ n k (⟨5 + k.val, by omega⟩ : Fin 9) rfl,
    slice2_axis1_apply 1 _ _ n (⟨5 + k.val, by omega⟩ : Fin 9) (⟨6 + k.val, by omega⟩ : Fin 10) (by show 6 + k.val = 1 + (5 + k.val); omega),
    transpose_ix2_apply, exit_out]

end Tail

end Cert.KernelIdeal.HostValue

end
-- ==== Proof.ResultsIdeal.lean ====
/-
  The idealized kernel's four results.

  The region finds in its thirteen input arrays what the first stretch of host lines puts there (the batch rows as
  columns, the parameters transposed or reshaped); the output array ends holding every batch row's packed column;
  and the later host lines transpose that back and cut column 0 (the network's value), columns 1‥4, column 5 and
  columns 6‥9 (the gradient with respect to the three input arrays) out of it.  So the four results are the
  specification's four result functions of the eleven arguments, and the arguments end as given.
-/
import proofs.«149670_j23579370455607_2_alg».proof.Proof.ValueIdeal
import proofs.«149670_j23579370455607_2_alg».proof.Proof.HostValue

set_option maxRecDepth 16384

noncomputable section

namespace Cert.KernelIdeal.Exact

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- What the region finds, from the first stretch of host lines read at an index. -/
theorem entry (c : Dev nD) : Entry m c where
  x k n := HostValue.pre_x m c k n
  w1t j k := HostValue.pre_w1t m c j k
  b1 j := HostValue.pre_b1 m c j
  w2t j i := HostValue.pre_w2t m c j i
  b2 j := HostValue.pre_b2 m c j
  w3t j i := HostValue.pre_w3t m c j i
  b3 j := HostValue.pre_b3 m c j
  w4t i := HostValue.pre_w4t m c i
  b4 := HostValue.pre_b4 m c
  w1 k j := HostValue.pre_w1 m c k j
  w2 i j := HostValue.pre_w2 m c i j
  w3 i j := HostValue.pre_w3 m c i j
  w4c j := HostValue.pre_w4c m c j

/-- The first result: column 0 of the transposed packed result, the network's value on every batch row. -/
theorem res_out (c : Dev nD) :
    Pipeline.afterTail₀ cfgs (dats m) 0 (V0 m) [hostOps1] c main_v21 = RowNet.resOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  funext i
  obtain ⟨n, z, rfl⟩ : ∃ (n : Fin 1000000) (z : Fin 1), i = ix2 n z := ⟨i 0, i 1, eq_ix2 i⟩
  obtain rfl : z = 0 := Subsingleton.elim _ _
  refine (HostValue.tail_out m c (dats m) n).trans ?_
  rw [final13 m c (entry m c)]
  exact column_zero m c _ _ rfl

/-- The gradient with respect to the first input array: columns 1‥4. -/
theorem res_pe (c : Dev nD) :
    Pipeline.afterTail₀ cfgs (dats m) 0 (V0 m) [hostOps1] c main_v24 = RowNet.resPe (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  funext i
  obtain ⟨n, z, k, rfl⟩ : ∃ (n : Fin 1000000) (z : Fin 1) (k : Fin 4), i = ix3 n z k := ⟨i 0, i 1, i 2, eq_ix3 i⟩
  obtain rfl : z = 0 := Subsingleton.elim _ _
  refine (HostValue.tail_pe m c (dats m) n k).trans ?_
  rw [final13 m c (entry m c)]
  exact column_succ m c _ ⟨k.val, by omega⟩ _ (by show 1 + k.val = k.val + 1; omega)

/-- The gradient with respect to the second input array: column 5. -/
theorem res_q (c : Dev nD) :
    Pipeline.afterTail₀ cfgs (dats m) 0 (V0 m) [hostOps1] c main_v26 = RowNet.resQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  funext i
  obtain ⟨n, z, k, rfl⟩ : ∃ (n : Fin 1000000) (z : Fin 1) (k : Fin 1), i = ix3 n z k := ⟨i 0, i 1, i 2, eq_ix3 i⟩
  obtain rfl : z = 0 := Subsingleton.elim _ _
  obtain rfl : k = 0 := Subsingleton.elim _ _
  refine (HostValue.tail_q m c (dats m) n).trans ?_
  rw [final13 m c (entry m c)]
  exact column_succ m c _ ⟨4, by decide⟩ _ rfl

/-- The gradient with respect to the third input array: columns 6‥9. -/
theorem res_s (c : Dev nD) :
    Pipeline.afterTail₀ cfgs (dats m) 0 (V0 m) [hostOps1] c main_v28 = RowNet.resS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  funext i
  obtain ⟨n, z, k, rfl⟩ : ∃ (n : Fin 1000000) (z : Fin 1) (k : Fin 4), i = ix3 n z k := ⟨i 0, i 1, i 2, eq_ix3 i⟩
  obtain rfl : z = 0 := Subsingleton.elim _ _
  refine (HostValue.tail_s m c (dats m) n k).trans ?_
  rw [final13 m c (entry m c)]
  exact column_succ m c _ ⟨5 + k.val, by omega⟩ _ (by show 6 + k.val = 5 + k.val + 1; omega)

/-- The idealized kernel runs to its end without a fault, its four results the specification's four result
    functions of its eleven arguments, and those arguments as given. -/
theorem kernel_run : θ_run defs (onTc (τ := τ) (main (F := Ideal))) ⟨m, fun _ => 0, ρ⟩ (fun r => ∀ c : Dev nD,
      r.2.mem ((c.tc : Thread nD τ).loc main_v21) = RowNet.resOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v28) = RowNet.resS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v26) = RowNet.resQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v24) = RowNet.resPe (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨
      ((h c).2 main_v21 (Pipeline.mem_restRefs_of main_v21 (by decide) (by decide))).trans (res_out m c),
      ((h c).2 main_v28 (Pipeline.mem_restRefs_of main_v28 (by decide) (by decide))).trans (res_s m c),
      ((h c).2 main_v26 (Pipeline.mem_restRefs_of main_v26 (by decide) (by decide))).trans (res_q m c),
      ((h c).2 main_v24 (Pipeline.mem_restRefs_of main_v24 (by decide) (by decide))).trans (res_pe m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_exact m ρ (entry m))

end Cert.KernelIdeal.Exact

end
-- ==== Proof.RefValue.lean ====
/-
  The row-major program computes the specification.

  The row-major program works on the whole batch at once: it lays the three inputs side by side into a batch of
  rows of nine numbers, multiplies the batch by each layer's weight matrix, adds the layer's bias to every row and
  applies the leaky rectifier to every entry; then it propagates the gradient of the last number back through the
  same matrices, transposed, and the rectifier's derivative, and cuts the nine gradient columns into the three
  results.  Every one of these whole-batch operations acts on each row by itself: entry `(n, j)` of a product with
  a weight matrix is the sum over `k` of entry `(n, k)` of the batch times entry `(k, j)` of the matrix, a bias or
  a constant is the same in every row, a rectifier looks at one entry.  So entry `(n, j)` of each intermediate batch
  is the corresponding quantity of the one-row network on row `n`, layer by layer, with the sums in the same order
  and every product with its factors in the same order: nothing is rearranged, no law of arithmetic is used.
  A transposed matrix read at `(k, i)` is the matrix at `(i, k)`, which is why the backward sums read the weights
  with their indices in the other order.
-/
import proofs.«149670_j23579370455607_2_alg».proof.Proof.Gen.ReferenceIdeal.Read
import proofs.«149670_j23579370455607_2_alg».proof.Proof.RowNet
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

variable (x0 : (⟨S1000000x4, .f32⟩ : BufTy).Contents (Elt Ideal)) (x1 : (⟨S1000000x1, .f32⟩ : BufTy).Contents (Elt Ideal))
  (x2 : (⟨S1000000x4, .f32⟩ : BufTy).Contents (Elt Ideal)) (x3 : (⟨S9x30, .f32⟩ : BufTy).Contents (Elt Ideal))
  (x4 : (⟨S30, .f32⟩ : BufTy).Contents (Elt Ideal)) (x5 : (⟨S30x30, .f32⟩ : BufTy).Contents (Elt Ideal))
  (x6 : (⟨S30, .f32⟩ : BufTy).Contents (Elt Ideal)) (x7 : (⟨S30x30, .f32⟩ : BufTy).Contents (Elt Ideal))
  (x8 : (⟨S30, .f32⟩ : BufTy).Contents (Elt Ideal)) (x9 : (⟨S30x1, .f32⟩ : BufTy).Contents (Elt Ideal))
  (x10 : (⟨S1, .f32⟩ : BufTy).Contents (Elt Ideal))

/-- The network whose parameters are the eight parameter arrays, and row `n` of the batch. -/
local notation "𝒩" => RowNet.netOf x3 x4 x5 x6 x7 x8 x9 x10
local notation "ρ" => RowNet.rowOf x0 x1 x2

/-! ## The batch of rows -/

/-- Entry `(n, k)` of the three inputs laid side by side: columns 0‥3 are the first input's, column 4 the second's
    one column, columns 5‥8 the third's. -/
theorem batch_apply (n : Fin 1000000) (k : Fin 9) :
    val_main_v0 (F := Ideal) x0 x1 x2 (ix2 n k) = RowNet.rowOf x0 x1 x2 n k := by
  unfold val_main_v0 RowNet.rowOf
  by_cases h4 : k.val < 4
  · rw [dif_pos h4]
    exact concatenate_apply_piece (1 : Fin S1000000x9.rank) _ _ (ix2 n k) 0 (by simp) S1000000x4 x0 rfl rfl 0 rfl
      (ix2 n ⟨k.val, h4⟩) (fun b hb => by
        match b with
        | ⟨0, _⟩ => rfl
        | ⟨1, _⟩ => exact absurd rfl hb)
      (Nat.zero_add _)
  · rw [dif_neg h4]
    by_cases h5 : k.val = 4
    · rw [if_pos h5]
      exact concatenate_apply_piece (1 : Fin S1000000x9.rank) _ _ (ix2 n k) 1 (by simp) S1000000x1 x1 rfl rfl 4 rfl
        (ix2 n 0) (fun b hb => by
          match b with
          | ⟨0, _⟩ => rfl
          | ⟨1, _⟩ => exact absurd rfl hb)
        (by show 4 + 0 = k.val; omega)
    · rw [if_neg h5]
      have hk := k.isLt
      exact concatenate_apply_piece (1 : Fin S1000000x9.rank) _ _ (ix2 n k) 2 (by simp) S1000000x4 x2 rfl rfl 5 rfl
        (ix2 n ⟨k.val - 5, by omega⟩) (fun b hb => by
          match b with
          | ⟨0, _⟩ => rfl
          | ⟨1, _⟩ => exact absurd rfl hb)
        (by show 5 + (k.val - 5) = k.val; omega)

/-! ## Forward: the three hidden layers and the output unit, entry by entry -/

/-- The first layer before its rectifier: entry `(n, j)` is row `n`'s first pre-activation at unit `j`. -/
theorem pre1 (n : Fin 1000000) (j : Fin 30) :
    val_main_v4 (F := Ideal) x0 x1 x2 x3 x4 (ix2 n j) = RowNet.z1 𝒩 (ρ n) j := by
  have el : ∀ k : Fin 9, lidx_main_v1 (ix2 n j) k = ix2 n k := fun k => funext fun a => Fin.ext (by
    match a with
    | ⟨0, _⟩ => rfl
    | ⟨1, _⟩ => rfl)
  have er : ∀ k : Fin 9, ridx_main_v1 (ix2 n j) k = ix2 k j := fun k => funext fun a => Fin.ext (by
    match a with
    | ⟨0, _⟩ => rfl
    | ⟨1, _⟩ => rfl)
  have eb : idx_main_v2 (idx_main_v3 (ix2 n j)) = ix1 j := funext fun a => Fin.ext (by
    match a with
    | ⟨0, _⟩ => rfl)
  rw [val_main_v4_apply, val_main_v1_apply, val_main_v3_apply, val_main_v2_apply, eb, Ideal.addf_def]
  unfold RowNet.z1
  refine congrArg₂ (· + ·) (Finset.sum_congr rfl fun k _ => ?_) rfl
  rw [el, er, batch_apply]
  rfl

/-- The first layer after its rectifier. -/
theorem act1 (n : Fin 1000000) (j : Fin 30) :
    val_main_v9 (F := Ideal) x0 x1 x2 x3 x4 (ix2 n j) = RowNet.leaky (RowNet.z1 𝒩 (ρ n) j) := by
  rw [val_main_v9_apply, val_main_v6_apply, val_main_v8_apply, val_main_v5_apply, val_main_v7_apply, val_main_cst_apply, val_main_cst_0_apply,
    pre1 x0 x1 x2 x3 x4 x5 x6 x7 x8 x9 x10]
  rfl

/-- The second layer before its rectifier. -/
theorem pre2 (n : Fin 1000000) (j : Fin 30) :
    val_main_v13 (F := Ideal) x0 x1 x2 x3 x4 x5 x6 (ix2 n j) = RowNet.z2 𝒩 (ρ n) j := by
  have el : ∀ k : Fin 30, lidx_main_v10 (ix2 n j) k = ix2 n k := fun k => funext fun a => Fin.ext (by
    match a with
    | ⟨0, _⟩ => rfl
    | ⟨1, _⟩ => rfl)
  have er : ∀ k : Fin 30, ridx_main_v10 (ix2 n j) k = ix2 k j := fun k => funext fun a => Fin.ext (by
    match a with
    | ⟨0, _⟩ => rfl
    | ⟨1, _⟩ => rfl)
  have eb : idx_main_v11 (idx_main_v12 (ix2 n j)) = ix1 j := funext fun a => Fin.ext (by
    match a with
    | ⟨0, _⟩ => rfl)
  rw [val_main_v13_apply, val_main_v10_apply, val_main_v12_apply, val_main_v11_apply, eb, Ideal.addf_def]
  unfold RowNet.z2
  refine congrArg₂ (· + ·) (Finset.sum_congr rfl fun k _ => ?_) rfl
  rw [el, er, act1 x0 x1 x2 x3 x4 x5 x6 x7 x8 x9 x10]
  rfl

/-- The second layer after its rectifier. -/
theorem act2 (n : Fin 1000000) (j : Fin 30) :
    val_main_v18 (F := Ideal) x0 x1 x2 x3 x4 x5 x6 (ix2 n j) = RowNet.leaky (RowNet.z2 𝒩 (ρ n) j) := by
  rw [val_main_v18_apply, val_main_v15_apply, val_main_v17_apply, val_main_v14_apply, val_main_v16_apply, val_main_cst_1_apply, val_main_cst_2_apply,
    pre2 x0 x1 x2 x3 x4 x5 x6 x7 x8 x9 x10]
  rfl

/-- The third layer before its rectifier. -/
theorem pre3 (n : Fin 1000000) (j : Fin 30) :
    val_main_v22 (F := Ideal) x0 x1 x2 x3 x4 x5 x6 x7 x8 (ix2 n j) = RowNet.z3 𝒩 (ρ n) j := by
  have el : ∀ k : Fin 30, lidx_main_v19 (ix2 n j) k = ix2 n k := fun k => funext fun a => Fin.ext (by
    match a with
    | ⟨0, _⟩ => rfl
    | ⟨1, _⟩ => rfl)
  have er : ∀ k : Fin 30, ridx_main_v19 (ix2 n j) k = ix2 k j := fun k => funext fun a => Fin.ext (by
    match a with
    | ⟨0, _⟩ => rfl
    | ⟨1, _⟩ => rfl)
  have eb : idx_main_v20 (idx_main_v21 (ix2 n j)) = ix1 j := funext fun a => Fin.ext (by
    match a with
    | ⟨0, _⟩ => rfl)
  rw [val_main_v22_apply, val_main_v19_apply, val_main_v21_apply, val_main_v20_apply, eb, Ideal.addf_def]
  unfold RowNet.z3
  refine congrArg₂ (· + ·) (Finset.sum_congr rfl fun k _ => ?_) rfl
  rw [el, er, act2 x0 x1 x2 x3 x4 x5 x6 x7 x8 x9 x10]
  rfl

/-- The third layer after its rectifier. -/
theorem act3 (n : Fin 1000000) (j : Fin 30) :
    val_main_v27 (F := Ideal) x0 x1 x2 x3 x4 x5 x6 x7 x8 (ix2 n j) = RowNet.leaky (RowNet.z3 𝒩 (ρ n) j) := by
  rw [val_main_v27_apply, val_main_v24_apply, val_main_v26_apply, val_main_v23_apply, val_main_v25_apply, val_main_cst_3_apply, val_main_cst_4_apply,
    pre3 x0 x1 x2 x3 x4 x5 x6 x7 x8 x9 x10]
  rfl

/-- The output unit: entry `(n, 0)` is the network's value on row `n`. -/
theorem out_apply (n : Fin 1000000) :
    val_main_v31 (F := Ideal) x0 x1 x2 x3 x4 x5 x6 x7 x8 x9 x10 (ix2 n (0 : Fin 1)) = RowNet.out 𝒩 (ρ n) := by
  have el : ∀ k : Fin 30, lidx_main_v28 (ix2 n (0 : Fin 1)) k = ix2 n k := fun k => funext fun a => Fin.ext (by
    match a with
    | ⟨0, _⟩ => rfl
    | ⟨1, _⟩ => rfl)
  have er : ∀ k : Fin 30, ridx_main_v28 (ix2 n (0 : Fin 1)) k = ix2 k (0 : Fin 1) := fun k => funext fun a => Fin.ext (by
    match a with
    | ⟨0, _⟩ => rfl
    | ⟨1, _⟩ => rfl)
  have eb : idx_main_v29 (idx_main_v30 (ix2 n (0 : Fin 1))) = ix1 (0 : Fin 1) := funext fun a => Fin.ext (by
    match a with
    | ⟨0, _⟩ => rfl)
  rw [val_main_v31_apply, val_main_v28_apply, val_main_v30_apply, val_main_v29_apply, eb, Ideal.addf_def]
  unfold RowNet.out
  refine congrArg₂ (· + ·) (Finset.sum_congr rfl fun k _ => ?_) rfl
  rw [el, er, act3 x0 x1 x2 x3 x4 x5 x6 x7 x8 x9 x10]
  rfl

/-! ## Backward: the gradient with respect to each layer's pre-activation, last layer first -/

/-- The third rectifier's derivative at entry `(n, j)`. -/
theorem slope3 (n : Fin 1000000) (j : Fin 30) :
    val_main_v37 (F := Ideal) x0 x1 x2 x3 x4 x5 x6 x7 x8 (ix2 n j) = RowNet.dleaky (RowNet.z3 𝒩 (ρ n) j) := by
  rw [val_main_v37_apply, val_main_v36_apply, val_main_v35_apply, val_main_v34_apply, val_main_cst_5_apply, val_main_call3_v0_apply, val_main_call3_v1_apply,
    val_main_cst_6_apply, val_main_cst_7_apply, pre3 x0 x1 x2 x3 x4 x5 x6 x7 x8 x9 x10]
  rfl

/-- The second rectifier's derivative. -/
theorem slope2 (n : Fin 1000000) (j : Fin 30) :
    val_main_v45 (F := Ideal) x0 x1 x2 x3 x4 x5 x6 (ix2 n j) = RowNet.dleaky (RowNet.z2 𝒩 (ρ n) j) := by
  rw [val_main_v45_apply, val_main_v44_apply, val_main_v43_apply, val_main_v42_apply, val_main_cst_8_apply, val_main_call4_v0_apply, val_main_call4_v1_apply,
    val_main_cst_9_apply, val_main_cst_10_apply, pre2 x0 x1 x2 x3 x4 x5 x6 x7 x8 x9 x10]
  rfl

/-- The first rectifier's derivative. -/
theorem slope1 (n : Fin 1000000) (j : Fin 30) :
    val_main_v52 (F := Ideal) x0 x1 x2 x3 x4 (ix2 n j) = RowNet.dleaky (RowNet.z1 𝒩 (ρ n) j) := by
  rw [val_main_v52_apply, val_main_v51_apply, val_main_v50_apply, val_main_v49_apply, val_main_cst_11_apply, val_main_call5_v0_apply, val_main_call5_v1_apply,
    val_main_cst_12_apply, val_main_cst_13_apply, pre1 x0 x1 x2 x3 x4 x5 x6 x7 x8 x9 x10]
  rfl

/-- The gradient at the third layer's pre-activation: the output unit's weight column, read as a row and repeated
    down the batch, times the third rectifier's derivative. -/
theorem grad3 (n : Fin 1000000) (j : Fin 30) :
    val_main_v39 (F := Ideal) x0 x1 x2 x3 x4 x5 x6 x7 x8 x9 (ix2 n j) = RowNet.g3 𝒩 (ρ n) j := by
  have ew : idx_main_v32 (idx_main_v33 (idx_main_v38 (ix2 n j))) = ix2 j (0 : Fin 1) := funext fun a => Fin.ext (by
    match a with
    | ⟨0, _⟩ => exact Nat.div_one _
    | ⟨1, _⟩ => rfl)
  rw [val_main_v39_apply, val_main_v38_apply, val_main_v33_apply, val_main_v32_apply, ew, slope3 x0 x1 x2 x3 x4 x5 x6 x7 x8 x9 x10,
    Ideal.mulf_def]
  rfl

/-- The gradient at the second layer's pre-activation: the third layer's gradient times the third weight matrix transposed, times the second rectifier's derivative. -/
theorem grad2 (n : Fin 1000000) (i : Fin 30) :
    val_main_v46 (F := Ideal) x0 x1 x2 x3 x4 x5 x6 x7 x8 x9 (ix2 n i) = RowNet.g2 𝒩 (ρ n) i := by
  have el : ∀ k : Fin 30, lidx_main_v41 (ix2 n i) k = ix2 n k := fun k => funext fun a => Fin.ext (by
    match a with
    | ⟨0, _⟩ => rfl
    | ⟨1, _⟩ => rfl)
  have er : ∀ k : Fin 30, idx_main_v40 (ridx_main_v41 (ix2 n i) k) = ix2 i k := fun k => funext fun a => Fin.ext (by
    match a with
    | ⟨0, _⟩ => rfl
    | ⟨1, _⟩ => rfl)
  rw [val_main_v46_apply, val_main_v41_apply, slope2 x0 x1 x2 x3 x4 x5 x6 x7 x8 x9 x10, Ideal.mulf_def]
  unfold RowNet.g2
  refine congrArg₂ (· * ·) (Finset.sum_congr rfl fun k _ => ?_) rfl
  rw [val_main_v40_apply, er, el, grad3 x0 x1 x2 x3 x4 x5 x6 x7 x8 x9 x10]
  rfl

/-- The gradient at the first layer's pre-activation. -/
theorem grad1 (n : Fin 1000000) (i : Fin 30) :
    val_main_v53 (F := Ideal) x0 x1 x2 x3 x4 x5 x6 x7 x8 x9 (ix2 n i) = RowNet.g1 𝒩 (ρ n) i := by
  have el : ∀ k : Fin 30, lidx_main_v48 (ix2 n i) k = ix2 n k := fun k => funext fun a => Fin.ext (by
    match a with
    | ⟨0, _⟩ => rfl
    | ⟨1, _⟩ => rfl)
  have er : ∀ k : Fin 30, idx_main_v47 (ridx_main_v48 (ix2 n i) k) = ix2 i k := fun k => funext fun a => Fin.ext (by
    match a with
    | ⟨0, _⟩ => rfl
    | ⟨1, _⟩ => rfl)
  rw [val_main_v53_apply, val_main_v48_apply, slope1 x0 x1 x2 x3 x4 x5 x6 x7 x8 x9 x10, Ideal.mulf_def]
  unfold RowNet.g1
  refine congrArg₂ (· * ·) (Finset.sum_congr rfl fun k _ => ?_) rfl
  rw [val_main_v47_apply, er, el, grad2 x0 x1 x2 x3 x4 x5 x6 x7 x8 x9 x10]
  rfl

/-- The gradient with respect to the row's nine entries: the first layer's gradient times the first weight matrix
    transposed. -/
theorem gradx (n : Fin 1000000) (k : Fin 9) :
    val_main_v55 (F := Ideal) x0 x1 x2 x3 x4 x5 x6 x7 x8 x9 (ix2 n k) = RowNet.gx 𝒩 (ρ n) k := by
  have el : ∀ j : Fin 30, lidx_main_v55 (ix2 n k) j = ix2 n j := fun j => funext fun a => Fin.ext (by
    match a with
    | ⟨0, _⟩ => rfl
    | ⟨1, _⟩ => rfl)
  have er : ∀ j : Fin 30, idx_main_v54 (ridx_main_v55 (ix2 n k) j) = ix2 k j := fun j => funext fun a => Fin.ext (by
    match a with
    | ⟨0, _⟩ => rfl
    | ⟨1, _⟩ => rfl)
  rw [val_main_v55_apply]
  unfold RowNet.gx
  refine Finset.sum_congr rfl fun j _ => ?_
  rw [val_main_v54_apply, er, el, grad1 x0 x1 x2 x3 x4 x5 x6 x7 x8 x9 x10]
  rfl

/-! ## The four results -/

/-- The first result is the network's value on every row. -/
theorem ref_out : val_main_v31 (F := Ideal) x0 x1 x2 x3 x4 x5 x6 x7 x8 x9 x10 = RowNet.resOut x0 x1 x2 x3 x4 x5 x6 x7 x8 x9 x10 := by
  funext i
  obtain ⟨n, c, rfl⟩ : ∃ (n : Fin 1000000) (c : Fin 1), i = ix2 n c := ⟨i 0, i 1, eq_ix2 i⟩
  obtain rfl : c = 0 := Fin.eq_zero c
  rw [out_apply x0 x1 x2 x3 x4 x5 x6 x7 x8 x9 x10]
  rfl

/-- The gradient's columns 0‥3, each row as a one-row block of four. -/
theorem ref_pe : val_main_v57 (F := Ideal) x0 x1 x2 x3 x4 x5 x6 x7 x8 x9 = RowNet.resPe x0 x1 x2 x3 x4 x5 x6 x7 x8 x9 x10 := by
  funext i
  obtain ⟨n, c, d, rfl⟩ : ∃ (n : Fin 1000000) (c : Fin 1) (d : Fin 4), i = ix3 n c d := ⟨i 0, i 1, i 2, eq_ix3 i⟩
  have hn := n.isLt
  have hc := c.isLt
  have hd := d.isLt
  have e : idx_main_v56 (idx_main_v57 (ix3 n c d)) = ix2 n (⟨d.val, by omega⟩ : Fin 9) := funext fun a => Fin.ext (by
    match a with
    | ⟨0, _⟩ => show ((n.val * 1 + c.val) * 4 + d.val) / 4 = n.val; omega
    | ⟨1, _⟩ => show ((n.val * 1 + c.val) * 4 + d.val) % 4 = d.val; omega)
  rw [val_main_v57_apply, val_main_v56_apply, e, gradx x0 x1 x2 x3 x4 x5 x6 x7 x8 x9 x10]
  rfl

/-- The gradient's column 4, each row as a one-row block of one. -/
theorem ref_q : val_main_v59 (F := Ideal) x0 x1 x2 x3 x4 x5 x6 x7 x8 x9 = RowNet.resQ x0 x1 x2 x3 x4 x5 x6 x7 x8 x9 x10 := by
  funext i
  obtain ⟨n, c, d, rfl⟩ : ∃ (n : Fin 1000000) (c : Fin 1) (d : Fin 1), i = ix3 n c d := ⟨i 0, i 1, i 2, eq_ix3 i⟩
  have hn := n.isLt
  have hc := c.isLt
  have hd := d.isLt
  have e : idx_main_v58 (idx_main_v59 (ix3 n c d)) = ix2 n (⟨4, by decide⟩ : Fin 9) := funext fun a => Fin.ext (by
    match a with
    | ⟨0, _⟩ => show ((n.val * 1 + c.val) * 1 + d.val) / 1 = n.val; omega
    | ⟨1, _⟩ => rfl)
  rw [val_main_v59_apply, val_main_v58_apply, e, gradx x0 x1 x2 x3 x4 x5 x6 x7 x8 x9 x10]
  rfl

/-- The gradient's columns 5‥8, each row as a one-row block of four. -/
theorem ref_s : val_main_v61 (F := Ideal) x0 x1 x2 x3 x4 x5 x6 x7 x8 x9 = RowNet.resS x0 x1 x2 x3 x4 x5 x6 x7 x8 x9 x10 := by
  funext i
  obtain ⟨n, c, d, rfl⟩ : ∃ (n : Fin 1000000) (c : Fin 1) (d : Fin 4), i = ix3 n c d := ⟨i 0, i 1, i 2, eq_ix3 i⟩
  have hn := n.isLt
  have hc := c.isLt
  have hd := d.isLt
  have e : idx_main_v60 (idx_main_v61 (ix3 n c d)) = ix2 n (⟨5 + d.val, by omega⟩ : Fin 9) := funext fun a => Fin.ext (by
    match a with
    | ⟨0, _⟩ => show ((n.val * 1 + c.val) * 4 + d.val) / 4 = n.val; omega
    | ⟨1, _⟩ => show 5 + ((n.val * 1 + c.val) * 4 + d.val) % 4 = 5 + d.val; omega)
  rw [val_main_v61_apply, val_main_v60_apply, e, gradx x0 x1 x2 x3 x4 x5 x6 x7 x8 x9 x10]
  rfl

end Cert.ReferenceIdeal.RefValue

end
-- ==== Proof.lean ====
/-
  Kernel and reference compute one function.

  The kernel applies a dense network 9 → 30 → 30 → 30 → 1 with leaky rectifiers to each of 1,000,000 batch rows and
  returns, beside the network's value, the gradient of that value with respect to the row's nine inputs, split
  three ways.  It works feature-major: the host lines transpose the batch so that the batch axis is the long one,
  a kernel region walks it in 62 blocks of 16384 columns (the last overhanging the arrays' end, its transfers cut
  there), and host lines transpose the packed result back and cut it into the four results.  The reference does
  the same row-major with whole-array matrix products.

  The frames.  Each kernel program runs to its end without a fault and leaves its arguments as given: the host
  lines write only their own result buffers, and the region, at every point, finds each input buffer holding its
  block and hands every buffer back (at the word-level instance the output buffer's contents are left unsaid).
  The reference's frame is its run with the results dropped.

  The value.  On the extended reals a change of float format is the identity and every sum and product is exact,
  so at each batch row both programs compute the specification's row network: the kernel's weight × activation
  products against the reference's activation × weight ones by commutativity of the product, the sums over a
  layer's width term by term.  No law that needs finite inputs is used, so the precondition is never opened.
-/
import proofs.«149670_j23579370455607_2_alg».proof.Defs
import proofs.«149670_j23579370455607_2_alg».proof.Proof.Gen.Kernel
import proofs.«149670_j23579370455607_2_alg».proof.Proof.Gen.KernelIdeal
import proofs.«149670_j23579370455607_2_alg».proof.Proof.Gen.ReferenceIdeal
import proofs.«149670_j23579370455607_2_alg».proof.Proof.Gen.ReferenceIdeal.Run
import proofs.«149670_j23579370455607_2_alg».proof.Proof.Gen.ReferenceIdeal.Read
import proofs.«149670_j23579370455607_2_alg».proof.Proof.Gen.Pre_finite_inputs
import proofs.«149670_j23579370455607_2_alg».proof.Proof.DataBits
import proofs.«149670_j23579370455607_2_alg».proof.Proof.DataIdeal
import proofs.«149670_j23579370455607_2_alg».proof.Proof.ResultsIdeal
import proofs.«149670_j23579370455607_2_alg».proof.Proof.RefValue
import Idealize.ShloMosaic.Adequacy
import Idealize.ShloMosaic.Init

noncomputable section

namespace Cert.Proof

open Idealize.ShloMosaic Idealize.SL.Sem

/-- The word-level kernel program runs and leaves its arguments as given. -/
theorem frame_kernel : Cert.frame_Kernel := fun m ρ _ => Cert.Kernel.Hand.frame (F := Bits) m ρ

/-- So does the idealized one. -/
theorem frame_kernelIdeal : Cert.frame_KernelIdeal := fun m ρ _ => Cert.KernelIdeal.Hand.frame (F := Ideal) m ρ

/-- The reference's run, its results dropped. -/
theorem frame_reference : Cert.frame_ReferenceIdeal := fun m ρ _ =>
  (θ_run Cert.ReferenceIdeal.defs _ _).mono (fun _ h c => (h c).2.2.2.2)
    (Cert.ReferenceIdeal.Value.run (F := Ideal) m ρ)

/-- The ideal pass rewrote nothing. -/
theorem preserves : Cert.preserves_Kernel_KernelIdeal := trivial

set_option maxHeartbeats 4000000 in
/-- From memories that agree on the arguments both idealized programs run, each result of either the
    specification's result function of the arguments. -/
theorem algebraic : Cert.algebraic_KernelIdeal_ReferenceIdeal := by
  intro m ρ m' ρ' _ hagree
  refine ⟨_, _, _, _, Cert.KernelIdeal.Exact.kernel_run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10⟩ := hagree c
  obtain ⟨h0, h1, h2, h3, hargs⟩ := h c
  refine ⟨?_, ?_, ?_, ?_, hargs⟩
  · rw [h0, Cert.ReferenceIdeal.Read.val_main_v31_eq, Cert.ReferenceIdeal.RefValue.ref_out, a0, a1, a2, a3, a4, a5, a6, a7, a8, a9, a10]
  · rw [h1, Cert.ReferenceIdeal.Read.val_main_v61_eq, Cert.ReferenceIdeal.RefValue.ref_s _ _ _ _ _ _ _ _ _ _ (m' ((c.tc : Thread Cert.ReferenceIdeal.nD Cert.ReferenceIdeal.τ).loc Cert.ReferenceIdeal.main_arg10)), a0, a1, a2, a3, a4, a5, a6, a7, a8, a9, a10]
  · rw [h2, Cert.ReferenceIdeal.Read.val_main_v59_eq, Cert.ReferenceIdeal.RefValue.ref_q _ _ _ _ _ _ _ _ _ _ (m' ((c.tc : Thread Cert.ReferenceIdeal.nD Cert.ReferenceIdeal.τ).loc Cert.ReferenceIdeal.main_arg10)), a0, a1, a2, a3, a4, a5, a6, a7, a8, a9, a10]
  · rw [h3, Cert.ReferenceIdeal.Read.val_main_v57_eq, Cert.ReferenceIdeal.RefValue.ref_pe _ _ _ _ _ _ _ _ _ _ (m' ((c.tc : Thread Cert.ReferenceIdeal.nD Cert.ReferenceIdeal.τ).loc Cert.ReferenceIdeal.main_arg10)), a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
